-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S4096x64 : Shape := ⟨2, ![4096, 64]⟩
abbrev S512x1 : Shape := ⟨2, ![512, 1]⟩
abbrev S64x256 : Shape := ⟨2, ![64, 256]⟩
abbrev S64x512 : Shape := ⟨2, ![64, 512]⟩
abbrev S256x8192 : Shape := ⟨2, ![256, 8192]⟩
abbrev S1x64 : Shape := ⟨2, ![1, 64]⟩
abbrev S8192x1 : Shape := ⟨2, ![8192, 1]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S4096x64 : S_.BroadcastsInDim S4096x64 (![] : Fin 0 → Fin S4096x64.rank)
  reducesTo_S4096x64_S_d0_1 : S4096x64.ReducesTo [0, 1] S_
  bcast_S_S512x1 : S_.BroadcastsInDim S512x1 (![] : Fin 0 → Fin S512x1.rank)
  reducesTo_S512x1_S_d0_1 : S512x1.ReducesTo [0, 1] S_
  bcast_S_S64x256 : S_.BroadcastsInDim S64x256 (![] : Fin 0 → Fin S64x256.rank)
  reducesTo_S64x256_S_d0_1 : S64x256.ReducesTo [0, 1] S_
  bcast_S_S64x512 : S_.BroadcastsInDim S64x512 (![] : Fin 0 → Fin S64x512.rank)
  reducesTo_S64x512_S_d0_1 : S64x512.ReducesTo [0, 1] S_
  bcast_S_S256x8192 : S_.BroadcastsInDim S256x8192 (![] : Fin 0 → Fin S256x8192.rank)
  reducesTo_S256x8192_S_d0_1 : S256x8192.ReducesTo [0, 1] S_
  bcast_S_S1x64 : S_.BroadcastsInDim S1x64 (![] : Fin 0 → Fin S1x64.rank)
  reducesTo_S1x64_S_d0_1 : S1x64.ReducesTo [0, 1] S_
  bcast_S_S8192x1 : S_.BroadcastsInDim S8192x1 (![] : Fin 0 → Fin S8192x1.rank)
  reducesTo_S8192x1_S_d0_1 : S8192x1.ReducesTo [0, 1] S_
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_

variable [Facts]

def fn_part3 {F : FTy → Type} [FloatOps F] (main_arg0 : FVec F S8192x8192 .f32) (main_arg11 : FVec F S8192x1 .f32) (main_v48 : IVec S_ 1) (main_v49 : FVec F S8192x1 .f32) (main_v50 : FVec F S8192x1 .f32) : IVec S_ 1 :=
  let main_v51 : IVec S8192x1 1 := cmpf .olt main_v49 main_v50
  let main_c_19 : IVec S_ 1 := constantI S_ 1 1#1
  let main_v52 : IVec S_ 1 := (fun x v => Host.reduce IntOp.andi x v reducesTo_S8192x1_S_d0_1 h_S_) main_v51 main_c_19
  let main_v53 : IVec S_ 1 := andi main_v48 main_v52
  let main_v54 : FVec F S8192x1 .f32 := Host.absf main_arg11
  let main_cst_20 : FVec F S_ .f32 := constant S_ .f32 0x7F800000#32
  let main_v55 : FVec F S8192x1 .f32 := broadcastInDim S8192x1 ![] bcast_S_S8192x1 main_cst_20
  let main_v56 : IVec S8192x1 1 := cmpf .olt main_v54 main_v55
  let main_c_21 : IVec S_ 1 := constantI S_ 1 1#1
  let main_v57 : IVec S_ 1 := (fun x v => Host.reduce IntOp.andi x v reducesTo_S8192x1_S_d0_1 h_S_) main_v56 main_c_21
  let main_v58 : IVec S_ 1 := andi main_v53 main_v57
  let main_cst_22 : FVec F S_ .f32 := constant S_ .f32 0x00000000#32
  let main_v59 : FVec F S8192 .f32 := (fun x v => Host.reduceAdd x v reducesTo_S8192x8192_S8192_d0 h_S_) main_arg0 main_cst_22
  let main_cst_23 : FVec F S_ .f32 := constant S_ .f32 0x00000000#32
  let main_v60 : FVec F S8192 .f32 := broadcastInDim S8192 ![] bcast_S_S8192 main_cst_23
  let main_v61 : IVec S8192 1 := cmpf .ogt main_v59 main_v60
  let main_c_24 : IVec S_ 1 := constantI S_ 1 1#1
  let main_v62 : IVec S_ 1 := (fun x v => Host.reduce IntOp.andi x v reducesTo_S8192_S_d0 h_S_) main_v61 main_c_24
  let main_v63 : IVec S_ 1 := andi main_v58 main_v62
  main_v63

def fn_part2 {F : FTy → Type} [FloatOps F] (main_arg0 : FVec F S8192x8192 .f32) (main_arg7 : FVec F S64x512 .f32) (main_arg8 : FVec F S256x8192 .f32) (main_arg9 : FVec F S1x64 .f32) (main_arg10 : FVec F S8192x1 .f32) (main_arg11 : FVec F S8192x1 .f32) (main_v33 : IVec S_ 1) : IVec S_ 1 :=
  let main_v34 : FVec F S64x512 .f32 := Host.absf main_arg7
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S256x8192 .f32 := Host.absf main_arg8
  let main_cst_14 : FVec F S_ .f32 := constant S_ .f32 0x7F800000#32
  let main_v40 : FVec F S256x8192 .f32 := broadcastInDim S256x8192 ![] bcast_S_S256x8192 main_cst_14
  let main_v41 : IVec S256x8192 1 := cmpf .olt main_v39 main_v40
  let main_c_15 : IVec S_ 1 := constantI S_ 1 1#1
  let main_v42 : IVec S_ 1 := (fun x v => Host.reduce IntOp.andi x v reducesTo_S256x8192_S_d0_1 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S8192x1 .f32 := Host.absf main_arg10
  let main_cst_18 : FVec F S_ .f32 := constant S_ .f32 0x7F800000#32
  let main_v50 : FVec F S8192x1 .f32 := broadcastInDim S8192x1 ![] bcast_S_S8192x1 main_cst_18
  fn_part3 (F := F) main_arg0 main_arg11 main_v48 main_v49 main_v50

def fn_part1 {F : FTy → Type} [FloatOps F] (main_arg0 : FVec F S8192x8192 .f32) (main_arg4 : FVec F S64x256 .f32) (main_arg5 : FVec F S64x256 .f32) (main_arg6 : FVec F S64x512 .f32) (main_arg7 : FVec F S64x512 .f32) (main_arg8 : FVec F S256x8192 .f32) (main_arg9 : FVec F S1x64 .f32) (main_arg10 : FVec F S8192x1 .f32) (main_arg11 : FVec F S8192x1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64x512 .f32 := Host.absf main_arg6
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg0 main_arg7 main_arg8 main_arg9 main_arg10 main_arg11 main_v33

def fn {F : FTy → Type} [FloatOps F] (main_arg0 : FVec F S8192x8192 .f32) (main_arg1 : FVec F S8192x64 .f32) (main_arg2 : FVec F S4096x64 .f32) (main_arg3 : FVec F S512x1 .f32) (main_arg4 : FVec F S64x256 .f32) (main_arg5 : FVec F S64x256 .f32) (main_arg6 : FVec F S64x512 .f32) (main_arg7 : FVec F S64x512 .f32) (main_arg8 : FVec F S256x8192 .f32) (main_arg9 : FVec F S1x64 .f32) (main_arg10 : FVec F S8192x1 .f32) (main_arg11 : FVec F S8192x1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg0 main_arg4 main_arg5 main_arg6 main_arg7 main_arg8 main_arg9 main_arg10 main_arg11 main_v13 main_v16
-- ==== Kernel.lean ====
abbrev S8192x8192 : Shape := ⟨2, ![8192, 8192]⟩
abbrev S8192x64 : Shape := ⟨2, ![8192, 64]⟩
abbrev S4096x64 : Shape := ⟨2, ![4096, 64]⟩
abbrev S512x1 : Shape := ⟨2, ![512, 1]⟩
abbrev S64x256 : Shape := ⟨2, ![64, 256]⟩
abbrev S64x512 : Shape := ⟨2, ![64, 512]⟩
abbrev S256x8192 : Shape := ⟨2, ![256, 8192]⟩
abbrev S1x64 : Shape := ⟨2, ![1, 64]⟩
abbrev S8192x1 : Shape := ⟨2, ![8192, 1]⟩
abbrev S1x8192 : Shape := ⟨2, ![1, 8192]⟩
abbrev S1024x2048 : Shape := ⟨2, ![1024, 2048]⟩
abbrev S1x2048 : Shape := ⟨2, ![1, 2048]⟩
abbrev S2048 : Shape := ⟨1, ![2048]⟩
abbrev S4096x256 : Shape := ⟨2, ![4096, 256]⟩
abbrev S_ : Shape := ⟨0, ![]⟩
abbrev S1x1 : Shape := ⟨2, ![1, 1]⟩
abbrev S8192x256 : Shape := ⟨2, ![8192, 256]⟩
abbrev S1024x1 : Shape := ⟨2, ![1024, 1]⟩
abbrev S1024x256 : Shape := ⟨2, ![1024, 256]⟩
abbrev S1024x64 : Shape := ⟨2, ![1024, 64]⟩
abbrev S2048x64 : Shape := ⟨2, ![2048, 64]⟩
abbrev S64x1 : Shape := ⟨2, ![64, 1]⟩
abbrev S4096x1 : Shape := ⟨2, ![4096, 1]⟩
abbrev S256x1 : Shape := ⟨2, ![256, 1]⟩

abbrev nBuf : Space → Nat
  | .hbm => 44
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S4096x64, .f32⟩
  | .hbm, ⟨3, _⟩ => ⟨S512x1, .f32⟩
  | .hbm, ⟨4, _⟩ => ⟨S64x256, .f32⟩
  | .hbm, ⟨5, _⟩ => ⟨S64x256, .f32⟩
  | .hbm, ⟨6, _⟩ => ⟨S64x512, .f32⟩
  | .hbm, ⟨7, _⟩ => ⟨S64x512, .f32⟩
  | .hbm, ⟨8, _⟩ => ⟨S256x8192, .f32⟩
  | .hbm, ⟨9, _⟩ => ⟨S1x64, .f32⟩
  | .hbm, ⟨10, _⟩ => ⟨S8192x1, .f32⟩
  | .hbm, ⟨11, _⟩ => ⟨S8192x1, .f32⟩
  | .hbm, ⟨12, _⟩ => ⟨S1x8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S4096x256, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S8192x256, .f32⟩
  | .hbm, ⟨21, _⟩ => ⟨S64x1, .f32⟩
  | .hbm, ⟨22, _⟩ => ⟨S8192x1, .f32⟩
  | .hbm, ⟨23, _⟩ => ⟨S64x1, .f32⟩
  | .hbm, ⟨24, _⟩ => ⟨S4096x1, .f32⟩
  | .hbm, ⟨25, _⟩ => ⟨S_, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S256x1, .f32⟩
  | .hbm, ⟨34, _⟩ => ⟨S8192x1, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S_, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S8192x64, .f32⟩
  | .hbm, ⟨43, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S8192x64, .f32⟩
  | .local _ .vmem, ⟨8, _⟩ => ⟨S1024x1, .f32⟩
  | .local _ .vmem, ⟨9, _⟩ => ⟨S1024x1, .f32⟩
  | .local _ .vmem, ⟨10, _⟩ => ⟨S64x256, .f32⟩
  | .local _ .vmem, ⟨11, _⟩ => ⟨S1024x1, .f32⟩
  | .local _ .vmem, ⟨12, _⟩ => ⟨S1024x1, .f32⟩
  | .local _ .vmem, ⟨13, _⟩ => ⟨S1x1, .f32⟩
  | .local _ .vmem, ⟨14, _⟩ => ⟨S1024x256, .f32⟩
  | .local _ .vmem, ⟨15, _⟩ => ⟨S1024x256, .f32⟩
  | .local _ .vmem, ⟨16, _⟩ => ⟨S1024x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  transposes_S1x8192_S8192x1_1_0 : S1x8192.Transposes [1, 0] S8192x1
  bcast_S8192x1_S8192x64_0_1 : S8192x1.BroadcastsInDim S8192x64 (![0, 1] : Fin 2 → Fin S8192x64.rank)
  reducesTo_S4096x256_S_d0_1 : S4096x256.ReducesTo [0, 1] S_
  h_S_ : 0 < S_.numel
  shapeCasts_S_S1x1 : S_.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S2048x64 : 0 < S2048x64.numel
  shapeCasts_S2048x64_S2048x64 : S2048x64.ShapeCasts S2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S64x256_S64x256_0_0 : ∀ a, (![0, 0] : Fin 2 → Nat) a + S64x256.size a ≤ S64x256.size a
  h_S64x256 : 0 < S64x256.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  reducesTo_S4096x1_S_d0_1 : S4096x1.ReducesTo [0, 1] S_
  bcast_S_S8192x1 : S_.BroadcastsInDim S8192x1 (![] : Fin 0 → Fin S8192x1.rank)
  bcast_S_S8192x64 : S_.BroadcastsInDim S8192x64 (![] : Fin 0 → Fin S8192x64.rank)
  dot_S4096x64_S64x256_S4096x256_1_0_0_1_n_n_wf : DotDims.WF S4096x64 S64x256 S4096x256 [1] [0] [0] [1] [] []
  dot_S1024x2048_S2048x64_S1024x64_1_0_0_1_n_n_wf : DotDims.WF S1024x2048 S2048x64 S1024x64 [1] [0] [0] [1] [] []
  dot_S1024x64_S64x256_S1024x256_1_0_0_1_n_n_wf : DotDims.WF S1024x64 S64x256 S1024x256 [1] [0] [0] [1] [] []
  dot_S64x512_S512x1_S64x1_1_0_0_1_n_n_wf : DotDims.WF S64x512 S512x1 S64x1 [1] [0] [0] [1] [] []
  dot_S8192x64_S64x1_S8192x1_1_0_0_1_n_n_wf : DotDims.WF S8192x64 S64x1 S8192x1 [1] [0] [0] [1] [] []
  dot_S4096x64_S64x1_S4096x1_1_0_0_1_n_n_wf : DotDims.WF S4096x64 S64x1 S4096x1 [1] [0] [0] [1] [] []
  dot_S256x8192_S8192x1_S256x1_1_0_0_1_n_n_wf : DotDims.WF S256x8192 S8192x1 S256x1 [1] [0] [0] [1] [] []
  dot_S8192x256_S256x1_S8192x1_1_0_0_1_n_n_wf : DotDims.WF S8192x256 S256x1 S8192x1 [1] [0] [0] [1] [] []
  dot_S8192x1_S1x64_S8192x64_1_0_0_1_n_n_wf : DotDims.WF S8192x1 S1x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S256x8192_S8192x1_S256x1_1_0_0_1_n_n : DotDims S256x8192 S8192x1 S256x1 where
  lhsContracting := [1]
  rhsContracting := [0]
  lhsNonContracting := [0]
  rhsNonContracting := [1]
  lhsBatch := []
  rhsBatch := []
  wf := dot_S256x8192_S8192x1_S256x1_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x1_S1x64_S8192x64_1_0_0_1_n_n : DotDims S8192x1 S1x64 S8192x64 where
  lhsContracting := [1]
  rhsContracting := [0]
  lhsNonContracting := [0]
  rhsNonContracting := [1]
  lhsBatch := []
  rhsBatch := []
  wf := dot_S8192x1_S1x64_S8192x64_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩
abbrev S4096x64 : Shape := ⟨2, ![4096, 64]⟩
abbrev S512x1 : Shape := ⟨2, ![512, 1]⟩
abbrev S64x256 : Shape := ⟨2, ![64, 256]⟩
abbrev S64x512 : Shape := ⟨2, ![64, 512]⟩
abbrev S256x8192 : Shape := ⟨2, ![256, 8192]⟩
abbrev S1x64 : Shape := ⟨2, ![1, 64]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S4096x256 : Shape := ⟨2, ![4096, 256]⟩
abbrev S8192x256 : Shape := ⟨2, ![8192, 256]⟩
abbrev S64x1 : Shape := ⟨2, ![64, 1]⟩
abbrev S4096x1 : Shape := ⟨2, ![4096, 1]⟩
abbrev S256x1 : Shape := ⟨2, ![256, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S4096x64, .f32⟩
  | .hbm, ⟨3, _⟩ => ⟨S512x1, .f32⟩
  | .hbm, ⟨4, _⟩ => ⟨S64x256, .f32⟩
  | .hbm, ⟨5, _⟩ => ⟨S64x256, .f32⟩
  | .hbm, ⟨6, _⟩ => ⟨S64x512, .f32⟩
  | .hbm, ⟨7, _⟩ => ⟨S64x512, .f32⟩
  | .hbm, ⟨8, _⟩ => ⟨S256x8192, .f32⟩
  | .hbm, ⟨9, _⟩ => ⟨S1x64, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x64, .f32⟩
  | .hbm, ⟨24, _⟩ => ⟨S4096x256, .f32⟩
  | .hbm, ⟨25, _⟩ => ⟨S_, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S_, .f32⟩
  | .hbm, ⟨33, _⟩ => ⟨S8192x256, .f32⟩
  | .hbm, ⟨34, _⟩ => ⟨S8192x256, .f32⟩
  | .hbm, ⟨35, _⟩ => ⟨S64x1, .f32⟩
  | .hbm, ⟨36, _⟩ => ⟨S8192x1, .f32⟩
  | .hbm, ⟨37, _⟩ => ⟨S64x1, .f32⟩
  | .hbm, ⟨38, _⟩ => ⟨S4096x1, .f32⟩
  | .hbm, ⟨39, _⟩ => ⟨S_, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S256x1, .f32⟩
  | .hbm, ⟨48, _⟩ => ⟨S8192x1, .f32⟩
  | .hbm, ⟨49, _⟩ => ⟨S8192x64, .f32⟩
  | .hbm, ⟨50, _⟩ => ⟨S8192x64, .f32⟩
  | .hbm, ⟨51, _⟩ => ⟨S8192x64, .f32⟩
  | .hbm, ⟨52, _⟩ => ⟨S_, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192x64, .f32⟩
  | .hbm, ⟨57, _⟩ => ⟨S8192x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call1_cst : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  reducesTo_S8192x8192_S8192_d0 : S8192x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S4096x256_S_d0_1 : S4096x256.ReducesTo [0, 1] S_
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  reducesTo_S4096x1_S_d0_1 : S4096x1.ReducesTo [0, 1] S_
  bcast_S_S8192x1 : S_.BroadcastsInDim S8192x1 (![] : Fin 0 → Fin S8192x1.rank)
  bcast_S_S8192x64 : S_.BroadcastsInDim S8192x64 (![] : Fin 0 → Fin S8192x64.rank)
  dot_S8192x8192_S8192x64_S8192x64_1_0_0_1_n_n_wf : DotDims.WF S8192x8192 S8192x64 S8192x64 [1] [0] [0] [1] [] []
  dot_S4096x64_S64x256_S4096x256_1_0_0_1_n_n_wf : DotDims.WF S4096x64 S64x256 S4096x256 [1] [0] [0] [1] [] []
  dot_S8192x64_S64x256_S8192x256_1_0_0_1_n_n_wf : DotDims.WF S8192x64 S64x256 S8192x256 [1] [0] [0] [1] [] []
  dot_S64x512_S512x1_S64x1_1_0_0_1_n_n_wf : DotDims.WF S64x512 S512x1 S64x1 [1] [0] [0] [1] [] []
  dot_S8192x64_S64x1_S8192x1_1_0_0_1_n_n_wf : DotDims.WF S8192x64 S64x1 S8192x1 [1] [0] [0] [1] [] []
  dot_S4096x64_S64x1_S4096x1_1_0_0_1_n_n_wf : DotDims.WF S4096x64 S64x1 S4096x1 [1] [0] [0] [1] [] []
  dot_S256x8192_S8192x1_S256x1_1_0_0_1_n_n_wf : DotDims.WF S256x8192 S8192x1 S256x1 [1] [0] [0] [1] [] []
  dot_S8192x256_S256x1_S8192x1_1_0_0_1_n_n_wf : DotDims.WF S8192x256 S256x1 S8192x1 [1] [0] [0] [1] [] []
  dot_S8192x1_S1x64_S8192x64_1_0_0_1_n_n_wf : DotDims.WF S8192x1 S1x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S256x8192_S8192x1_S256x1_1_0_0_1_n_n : DotDims S256x8192 S8192x1 S256x1 where
  lhsContracting := [1]
  rhsContracting := [0]
  lhsNonContracting := [0]
  rhsNonContracting := [1]
  lhsBatch := []
  rhsBatch := []
  wf := dot_S256x8192_S8192x1_S256x1_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x1_S1x64_S8192x64_1_0_0_1_n_n : DotDims S8192x1 S1x64 S8192x64 where
  lhsContracting := [1]
  rhsContracting := [0]
  lhsNonContracting := [0]
  rhsNonContracting := [1]
  lhsBatch := []
  rhsBatch := []
  wf := dot_S8192x1_S1x64_S8192x64_1_0_0_1_n_n_wf

class Facts : Prop extends Facts₀ where

variable [Facts]
-- ==== Proof.DegreeBody.lean ====
/- THE DEGREE KERNEL'S BODY AT ONE GRID POINT, as three Hoare triples (one per control case).

   The kernel computes d = 1 / sqrt(column sums of AT), one 1 x 2048 block of d per column-tile of AT. Its grid is
   (column-tile j, row-tile r) with 4 x 8 points, the row-tile running fastest. At a point the body sees
     x0 : the 1024 x 2048 block of AT (the rows of row-tile r, the columns of column-tile j),
     the 1 x 2048 output block of d for column-tile j, and
     s  : a 1 x 2048 scratch row that is carried from one point to the next.
   Write colsum(x0)[q] = sum over the 1024 rows p of x0[p, q]. The three cases are
     reset (r = 0):      s is filled with zeros and then s <- s + colsum(x0). Afterwards s = 0 + colsum(x0), whatever
                         it held before (the term `k0_pay2 k0_pay1 x0`); the output block is not touched.
     inner (0 < r < 7):  s <- s + colsum(x0), i.e. s becomes `k0_pay2 xs x0` from its earlier value xs; the output block
                         is not touched.
     last (r = 7):       s <- s + colsum(x0) as before, and then the output block <- rsqrt(s) entry by entry, whatever it
                         held before: the output is `k0_pay3 (k0_pay2 xs x0)` and s is `k0_pay2 xs x0`.
   In every case the block of AT is handed back with the contents it came with. Every store of the body overwrites its
   whole buffer, which is why each triple can name the stored buffer's new contents outright, as the stored value.
   Each statement holds for every float instance: nothing here depends on how floats are represented. -/
import proofs.«136842_j29557964931141_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! # The degree kernel's body: one Hoare triple per control case

The kernel accumulates the column sums of its 1024 x 2048 block of `AT` into a `1 x 2048` scratch row: at the
first row-tile the scratch is first filled with zeros, at every row-tile the block's column sums are added to
it, and at the last row-tile the reciprocal square root of the scratch is stored into the output block. Every
store writes its buffer whole, so each triple hands the stored buffer back at the stored value itself. -/

/-- The zero offsets of a whole-buffer access, as a constant function. -/
theorem off_zero : (![0, 0] : Fin 2 → Nat) = fun _ => 0 := funext fun a => by fin_cases a <;> rfl

/-- A buffer read back after a LAST store through the whole-shape rectangle at zero offsets holds the stored
    value, whatever it held and whatever was stored before. -/
theorem read_writes_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The first `scf.if` of the degree kernel (zero the scratch): taken at the first row-tile. -/
abbrev cond0_first (i : grid0.Coords) : Prop := (Scalar.cmpi .ne (Scalar.extui (Scalar.cmpi .eq (BitVec.ofNat 32 (i 1).val) 0#32)) 0#32) = 1#1
/-- The second `scf.if` of the degree kernel (store the reciprocal square root): taken at the last row-tile. -/
abbrev cond0_last (i : grid0.Coords) : Prop := k0_cond2 i = 1#1

set_option maxHeartbeats 1000000 in
/-- The first row-tile: the scratch, whatever it held, is zeroed and the block's column sums are added; the output block
    is not touched. -/
theorem run0_A (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (hf : cond0_first i) (hl : ¬cond0_last i)
    (x0 : Vec F S1024x2048 .f32) (xi : Vec F S1x2048 .f32) (E : Set ℕ) (K : PUnit → sProp 𝕄) :
    iprop(owns (c : Thread nD τ) arg2 fullShare x0 ∗ owns (c : Thread nD τ) arg3 fullShare xi ∗ (∃ d, owns (c : Thread nD τ) arg4 fullShare d)
        ∗ (iprop(owns (c : Thread nD τ) arg2 fullShare x0 ∗ owns (c : Thread nD τ) arg3 fullShare xi ∗ owns (c : Thread nD τ) arg4 fullShare (k0_pay2 k0_pay1 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; iexact HS0
  ipureintro
  sl_unfold_run_names
  rw [read_writes_whole _ _ off_zero, View.readCov_unit_zero (S := S1x2048) _ off_zero]
  simp only [View.readAt_eq_ld, harg4.read_unread, harg2.read_unread,
    View.ld_unit_zero (S := S1x2048) off_zero, View.ld_unit_zero (S := S1024x2048) off_zero]

set_option maxHeartbeats 1000000 in
/-- A middle row-tile (neither first nor last): the block's column sums are added to the scratch; the output block
    is not touched. -/
theorem run0_B (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (hf : ¬cond0_first i) (hl : ¬cond0_last i)
    (x0 : Vec F S1024x2048 .f32) (xi xs : Vec F S1x2048 .f32) (E : Set ℕ) (K : PUnit → sProp 𝕄) :
    iprop(owns (c : Thread nD τ) arg2 fullShare x0 ∗ owns (c : Thread nD τ) arg3 fullShare xi ∗ owns (c : Thread nD τ) arg4 fullShare xs
        ∗ (iprop(owns (c : Thread nD τ) arg2 fullShare x0 ∗ owns (c : Thread nD τ) arg3 fullShare xi ∗ owns (c : Thread nD τ) arg4 fullShare (k0_pay2 xs x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; iexact HS0
  ipureintro
  rw [read_writes_whole _ _ off_zero]
  simp only [View.readAt_eq_ld, harg4.read_unread, harg2.read_unread,
    View.ld_unit_zero (S := S1x2048) off_zero, View.ld_unit_zero (S := S1024x2048) off_zero]

set_option maxHeartbeats 1000000 in
/-- The last row-tile: the block's column sums are added to the scratch, and the reciprocal square root of the
    scratch is stored into the output block, whatever that held. -/
theorem run0_C (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (hf : ¬cond0_first i) (hl : cond0_last i)
    (x0 : Vec F S1024x2048 .f32) (xs : Vec F S1x2048 .f32) (E : Set ℕ) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay3 (k0_pay2 xs x0)) ∗ owns (c : Thread nD τ) arg4 fullShare (k0_pay2 xs x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr; swap; iexact H1
    ipureintro
    sl_unfold_run_names
    rw [read_writes_whole _ _ off_zero, View.readCov_unit_zero (S := S1x2048) _ off_zero]
    simp only [View.readAt_eq_ld, harg4.read_unread, harg2.read_unread,
    View.ld_unit_zero (S := S1x2048) off_zero, View.ld_unit_zero (S := S1024x2048) off_zero]
  iexists _; isplitr; swap; iexact HS0
  ipureintro
  sl_unfold_run_names
  rw [read_writes_whole _ _ off_zero]
  simp only [View.readAt_eq_ld, harg4.read_unread, harg2.read_unread,
    View.ld_unit_zero (S := S1x2048) off_zero, View.ld_unit_zero (S := S1024x2048) off_zero]

end Cert.KernelIdeal.Hand

end
-- ==== Proof.DegreeData.lean ====
/- Region 0 — the degree kernel on its 4 × 8 grid (column tile, row tile): for each column tile the scratch row
   accumulates, row tile after row tile, the column sums of the 1024 × 2048 tiles of the adjacency matrix (reset to zero
   at row tile 0), and at row tile 7 the output block receives the reciprocal square root of the accumulated sums.
   Here: what the scratch holds after each grid point, as a recursion over the points; the region's invariant carrying
   that scratch from point to point; the pipeline's proof data; and the body obligation at a generic point, by cases
   on the row tile (first, inner, last). -/
import proofs.«136842_j29557964931141_2_alg».proof.Proof.Gen.KernelIdeal.Launch
import proofs.«136842_j29557964931141_2_alg».proof.Proof.Gen.KernelIdeal.Skeleton
import proofs.«136842_j29557964931141_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«136842_j29557964931141_2_alg».proof.Proof.DegreeBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile is fetched at every point: its staging buffer holds the tile whenever the body runs. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The row tile of a point, decided over the grid -/

/-- The reset branch is taken exactly at row tile 0. -/
theorem hfirst0 : ∀ t : Fin cfg0.N, cond0_first (grid0.coords t) ↔ t.val % 8 = 0 :=
  (by decide +kernel : ∀ t : Fin grid0.N, cond0_first (grid0.coords t) ↔ t.val % 8 = 0)
/-- The finishing branch is taken exactly at row tile 7. -/
theorem hlast0 : ∀ t : Fin cfg0.N, cond0_last (grid0.coords t) ↔ t.val % 8 = 7 :=
  (by decide +kernel : ∀ t : Fin grid0.N, cond0_last (grid0.coords t) ↔ t.val % 8 = 7)

theorem liveAt0_0 : ∀ t : Fin cfg0.N, cfg0.idle 0 (grid0.coords t) = false := by decide +kernel
/-- Before row tile 7 the output block is idle: nothing is stored into it and it is not written back. -/
theorem idleAt0_1 : ∀ t : Fin cfg0.N, ¬cond0_last (grid0.coords t) → cfg0.idle 1 (grid0.coords t) = true := by decide +kernel
theorem noFlush0_1 : ∀ t : Fin cfg0.N, ¬cond0_last (grid0.coords t) → (cfg0.win 1).flush t = false := by decide +kernel
theorem liveAt0_1 : ∀ t : Fin cfg0.N, cond0_last (grid0.coords t) → cfg0.idle 1 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- The scratch row carried from point to point. -/
abbrev scM0 : Memref sig .tc .vmem S1x2048 .f32 := Memref.whole cc0_scratch0

/-! ## What the scratch row holds after each point -/

/-- The accumulated column sums after point `n`: at row tile 0 the tile's column sums added to zero, afterwards the
    tile's column sums added to what the point before left. -/
def acc0 (c : Dev nD) : (n : ℕ) → n < cfg0.N → Vec F S1x2048 .f32
  | 0, hn => k0_pay2 (k0_pay1 (F := F)) (iblk0 V c 0 ⟨0, hn⟩)
  | n + 1, hn => if (n + 1) % 8 = 0 then k0_pay2 (k0_pay1 (F := F)) (iblk0 V c 0 ⟨n + 1, hn⟩)
      else k0_pay2 (acc0 c n (Nat.lt_of_succ_lt hn)) (iblk0 V c 0 ⟨n + 1, hn⟩)

theorem acc0_first (c : Dev nD) (t : Fin cfg0.N) (h : t.val % 8 = 0) :
    acc0 V c t.val t.isLt = k0_pay2 (k0_pay1 (F := F)) (iblk0 V c 0 t) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-! ## The region's invariant -/

/-- The scoped buffers region 0 does not stage, other than its scratch row: each whole at some contents. -/
def tail0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant with the scratch row as a memref owned at some contents. -/
theorem PhiA0_eq (c : Dev nD) :
    (Pipeline.ΦA spec0 c : sProp 𝕄)
      = iprop(iprop((∃ d, owns (c : Thread nD τ) scM0 fullShare d) ∗ tail0 (F := F) c) ∗ (∃ r, prngReg c r)) := by
  unfold Pipeline.ΦA tail0; rw [scopedRest0_eq]; simp only [scM0, owns_whole]; try rfl

/-- The invariant before position `n`: before the first point every scratch buffer at anything; afterwards the scratch
    row at the accumulated column sums the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ tail0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ tail0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ tail0 (F := F) c) ∗ (∃ r, prngReg c r)) := by
  cases n with
  | zero => exact absurd rfl hz
  | succ n => rfl

/-! ## The pipeline's proof data -/

/-- The arrays as the region finds them; after the body the adjacency tile's buffer still at the tile, the output
    block's buffer at the reciprocal square root of the accumulated sums (read only where it is written back: at
    row tile 7); the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The tile's buffer holds the tile; the row tile says which case the point is in; the
    invariant hands the body the scratch row at what the point before left (at anything before the first point, where
    the reset overwrites it) and takes it back at this point's accumulated sums; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  have hN : t.val < 32 := lt_of_lt_of_eq t.isLt (show cfg0.N = 32 from N_0)
  by_cases hl : t.val % 8 = 7
  · have hf : ¬t.val % 8 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hlast0 t).mpr hl)], after0_1]
    rw [acc0_next V c t hf, PhiS0_castSucc V c t, PhiS0_pos V c _ _ hz]
    iintro ⟨⟨⟨HS, Ht⟩, Hg⟩, Ho, ⟨%d0, H0⟩, ⟨%d1, H1⟩⟩
    iapply (run0_C c (grid0.coords t) _ _ _ _ _ _ (fun h => hf ((hfirst0 t).mp h)) ((hlast0 t).mpr hl) (iblk0 V c 0 t) _ Set.univ _)
    isplitl [H0]; · iexact H0
    isplitl [H1]; · iexists _; iexact H1
    isplitl [HS]; · iexact HS
    iintro ⟨H0, H1, HS⟩
    isplitl [HS Ht Hg]
    · isplitl [HS Ht]
      · isplitl [HS]; · iexact HS
        iexact Ht
      iexact Hg
    isplitl [Ho]; · iexact Ho
    isplitl [H0]; · iexact H0
    iexact H1
  · rw [Dat.leavesExact_idle (dat0 V c) 1 t (idleAt0_1 t (fun h => hl ((hlast0 t).mp h))) (noFlush0_1 t (fun h => hl ((hlast0 t).mp h)))]
    by_cases hf : t.val % 8 = 0
    · rw [acc0_first V c t hf]
      by_cases hz : t.val = 0
      · rw [PhiS0_castSucc V c t, PhiS0_zero V c _ _ hz, PhiA0_eq]
        iintro ⟨⟨⟨HS, Ht⟩, Hg⟩, Ho, ⟨%d0, H0⟩, ⟨%d1, H1⟩⟩
        iapply (run0_A c (grid0.coords t) _ _ _ _ _ _ ((hfirst0 t).mpr hf) (fun h => hl ((hlast0 t).mp h)) (iblk0 V c 0 t) _ Set.univ _)
        isplitl [H0]; · iexact H0
        isplitl [H1]; · iexact H1
        isplitl [HS]; · iexact HS
        iintro ⟨H0, H1, HS⟩
        isplitl [HS Ht Hg]
        · isplitl [HS Ht]
          · isplitl [HS]; · iexact HS
            iexact Ht
          iexact Hg
        isplitl [Ho]; · iexact Ho
        isplitl [H0]; · iexact H0
        iexists _; iexact H1
      · rw [PhiS0_castSucc V c t, PhiS0_pos V c _ _ hz]
        iintro ⟨⟨⟨HS, Ht⟩, Hg⟩, Ho, ⟨%d0, H0⟩, ⟨%d1, H1⟩⟩
        iapply (run0_A c (grid0.coords t) _ _ _ _ _ _ ((hfirst0 t).mpr hf) (fun h => hl ((hlast0 t).mp h)) (iblk0 V c 0 t) _ Set.univ _)
        isplitl [H0]; · iexact H0
        isplitl [H1]; · iexact H1
        isplitl [HS]; · iexists _; iexact HS
        iintro ⟨H0, H1, HS⟩
        isplitl [HS Ht Hg]
        · isplitl [HS Ht]
          · isplitl [HS]; · iexact HS
            iexact Ht
          iexact Hg
        isplitl [Ho]; · iexact Ho
        isplitl [H0]; · iexact H0
        iexists _; iexact H1
    · have hz : t.val ≠ 0 := by omega
      rw [acc0_next V c t hf, PhiS0_castSucc V c t, PhiS0_pos V c _ _ hz]
      iintro ⟨⟨⟨HS, Ht⟩, Hg⟩, Ho, ⟨%d0, H0⟩, ⟨%d1, H1⟩⟩
      iapply (run0_B c (grid0.coords t) _ _ _ _ _ _ (fun h => hf ((hfirst0 t).mp h)) (fun h => hl ((hlast0 t).mp h)) (iblk0 V c 0 t) _ _ Set.univ _)
      isplitl [H0]; · iexact H0
      isplitl [H1]; · iexact H1
      isplitl [HS]; · iexact HS
      iintro ⟨H0, H1, HS⟩
      isplitl [HS Ht Hg]
      · isplitl [HS Ht]
        · isplitl [HS]; · iexact HS
          iexact Ht
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch row's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Ht⟩, Hg⟩
  isplitl [HS Ht]
  · isplitl [HS]
    · iexists _; iexact HS
    iexact Ht
  iexact Hg

end

end Cert.KernelIdeal.Hand

end
-- ==== Proof.HiddenBody.lean ====
/- THE HIDDEN-LAYER KERNEL'S BODY AT ONE GRID POINT, as three Hoare triples (one per control case).

   The kernel computes H1 = relu((d * (AT @ XTs)) @ W1 + WX + b1), one 1024 x 256 block of H1 per row-tile of AT, where
   XTs is XT with row j scaled by d[j]. Its grid is (row-tile t, k-tile k) with 8 x 4 points, the k-tile running fastest.
   At a point the body sees
     x2 : the 1024 x 2048 block of AT (the rows of row-tile t, the columns of k-tile k),
     x3 : the whole 8192 x 64 array XTs, of which it reads the 2048 rows of k-tile k — the slice `xsl i x3`, whose row p is
          row 2048 * k + p of XTs,
     x4 : the 1024 x 1 block of d for row-tile t,   x5 : W1 (64 x 256),   x6 : the 1024 x 1 block of b1,   x7 : WX (1 x 1),
     the 1024 x 256 output block of H1 for row-tile t, and
     s  : a 1024 x 64 scratch that is carried from one point to the next.
   The three cases are
     reset (k = 0):      s is filled with zeros and then s <- s + x2 @ xsl. Afterwards s = 0 + x2 @ xsl, whatever it held
                         before (the term `k1_pay2 (xsl i x3) k1_pay1 x2`); the output block is not touched.
     inner (0 < k < 3):  s <- s + x2 @ xsl, i.e. s becomes `k1_pay2 (xsl i x3) xs x2` from its earlier value xs; the output
                         block is not touched.
     last (k = 3):       s <- s + x2 @ xsl as before, and then the output block <- relu((x4 * s) @ x5 + x7 + x6), with x4
                         and x6 broadcast along the columns and x7 to every entry, whatever the output block held before:
                         the output is `k1_pay3 x4 (k1_pay2 (xsl i x3) xs x2) x5 x7 x6` and s is `k1_pay2 (xsl i x3) xs x2`.
   In every case the six inputs are handed back with the contents they came with. Every store of the body overwrites
   its whole buffer, which is why each triple can name the stored buffer's new contents outright, as the stored value.
   Each statement holds for every float instance: nothing here depends on how floats are represented. -/
import proofs.«136842_j29557964931141_2_alg».proof.Proof.DegreeBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx

/-! # The hidden-layer kernel's body: one Hoare triple per control case

Per 1024-row tile the kernel accumulates `AT_tile @ XTs_slice` over four k-tiles into a `1024 x 64` scratch: at the
first k-tile the scratch is first filled with zeros, at every k-tile the product of the `1024 x 2048` block of `AT`
with the k-tile's 2048 rows of `XTs` is added to it, and at the last k-tile the epilogue
`relu((d * scratch) @ W1 + WX + b1)` is stored into the output block. Every store writes its buffer whole, so each
triple hands the stored buffer back at the stored value itself. -/

/-- The first `scf.if` of the hidden-layer kernel (zero the scratch): taken at the first k-tile. -/
abbrev cond1_first (i : grid1.Coords) : Prop := (Scalar.cmpi .ne (Scalar.extui (Scalar.cmpi .eq (BitVec.ofNat 32 (i 1).val) 0#32)) 0#32) = 1#1
/-- The second `scf.if` of the hidden-layer kernel (the epilogue): taken at the last k-tile. -/
abbrev cond1_last (i : grid1.Coords) : Prop := k1_cond2 i = 1#1

/-- The rows of `XTs` the k-tile reads: the 2048 rows from row `k1_off1 i 0` on, all 64 columns. -/
def xsl (i : grid1.Coords) (x3 : Vec F S8192x64 .f32) : Vec F S2048x64 .f32 :=
  View.ld x3 (Rect.unit (s := S8192x64) (k1_off1 i) S2048x64.size (k1_off1_inb i))

/-- The slice is, by definition, the read of `XTs` through the k-tile's rectangle of rows. -/
theorem xsl_def (i : grid1.Coords) (x3 : Vec F S8192x64 .f32) :
    View.ld x3 (Rect.unit (s := S8192x64) (k1_off1 i) S2048x64.size (k1_off1_inb i)) = xsl i x3 := rfl

/-- The k-tile's first row: k-tile `k` starts at row `2048 * k`. -/
theorem k1_off1_row : ∀ i : grid1.Coords, k1_off1 i 0 = 2048 * (i 1).val := by decide +kernel
/-- The slice takes every column: its column offset is zero. -/
theorem k1_off1_col : ∀ i : grid1.Coords, k1_off1 i 1 = 0 := fun _ => rfl

/-- The slice at coordinates: its row `p` is row `k1_off1 i 0 + p` of `XTs`, column for column. -/
theorem xsl_apply (i : grid1.Coords) (x3 : Vec F S8192x64 .f32) (p : Fin 2048) (q : Fin 64)
    (h : k1_off1 i 0 + p.val < 8192) :
    xsl i x3 (ix2 p q) = x3 (ix2 ⟨k1_off1 i 0 + p.val, h⟩ q) := by
  unfold xsl
  show x3 _ = x3 _
  congr 1
  funext a
  match a with
  | ⟨0, _⟩ => exact Fin.ext (by show k1_off1 i 0 + 1 * p.val = k1_off1 i 0 + p.val; omega)
  | ⟨1, _⟩ => exact Fin.ext (by show k1_off1 i 1 + 1 * q.val = q.val; rw [k1_off1_col]; omega)

/-- The same with the row spelt out: row `p` of k-tile `k`'s slice is row `2048 * k + p` of `XTs`. -/
theorem xsl_apply_row (i : grid1.Coords) (x3 : Vec F S8192x64 .f32) (p : Fin 2048) (q : Fin 64)
    (h : 2048 * (i 1).val + p.val < 8192) :
    xsl i x3 (ix2 p q) = x3 (ix2 ⟨2048 * (i 1).val + p.val, h⟩ q) := by
  rw [xsl_apply i x3 p q (by rw [k1_off1_row]; exact h)]
  congr 1
  funext a
  match a with
  | ⟨0, _⟩ => exact Fin.ext (by show k1_off1 i 0 + p.val = 2048 * (i 1).val + p.val; rw [k1_off1_row])
  | ⟨1, _⟩ => rfl

set_option maxHeartbeats 1000000 in
/-- The first k-tile: the scratch, whatever it held, is zeroed and the product of the `AT` block with the k-tile's rows
    of `XTs` is added; the output block is not touched. -/
theorem run1_A (c : Dev nD) (i : grid1.Coords)
    (arg2 : Memref sig .tc .vmem S1024x2048 .f32) (harg2 : arg2.IsWhole)
    (arg3 : Memref sig .tc .vmem S8192x64 .f32) (harg3 : arg3.IsWhole)
    (arg4 : Memref sig .tc .vmem S1024x1 .f32) (harg4 : arg4.IsWhole)
    (arg5 : Memref sig .tc .vmem S64x256 .f32) (harg5 : arg5.IsWhole)
    (arg6 : Memref sig .tc .vmem S1024x1 .f32) (harg6 : arg6.IsWhole)
    (arg7 : Memref sig .tc .vmem S1x1 .f32) (harg7 : arg7.IsWhole)
    (arg8 : Memref sig .tc .vmem S1024x256 .f32) (harg8 : arg8.IsWhole)
    (arg9 : Memref sig .tc .vmem S1024x64 .f32) (harg9 : arg9.IsWhole)
    (hf : cond1_first i) (hl : ¬cond1_last i)
    (x2 : Vec F S1024x2048 .f32) (x3 : Vec F S8192x64 .f32) (x4 : Vec F S1024x1 .f32) (x5 : Vec F S64x256 .f32)
    (x6 : Vec F S1024x1 .f32) (x7 : Vec F S1x1 .f32) (xi8 : Vec F S1024x256 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ owns (c : Thread nD τ) arg9 fullShare (k1_pay2 (xsl i x3) k1_pay1 x2)) -∗ K ⟨⟩))
      ⊢ wp frame (wpE (defs₀ (F := F)) Variants.none c none) E (cc1__h1_kernel i arg2 harg2 arg3 harg3 arg4 harg4 arg5 harg5 arg6 harg6 arg7 harg7 arg8 harg8 arg9 harg9) K := by
  simp only [cc1__h1_kernel_eq_skeleton]; unfold cc1__h1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; iexact H9
  ipureintro
  sl_unfold_run_names
  rw [read_writes_whole _ _ off_zero, View.readCov_unit_zero (S := S1024x64) _ off_zero]
  simp only [View.readAt_eq_ld, harg2.read_unread, harg3.read_unread, harg4.read_unread, harg5.read_unread,
    harg6.read_unread, harg7.read_unread, harg9.read_unread,
    View.ld_unit_zero (S := S1024x2048) off_zero, View.ld_unit_zero (S := S1024x64) off_zero,
    View.ld_unit_zero (S := S1024x1) off_zero, View.ld_unit_zero (S := S64x256) off_zero,
    View.ld_unit_zero (S := S1x1) off_zero]
  rfl

set_option maxHeartbeats 1000000 in
/-- A middle k-tile (neither first nor last): the product of the `AT` block with the k-tile's rows of `XTs` is added to
    the scratch; the output block is not touched. -/
theorem run1_B (c : Dev nD) (i : grid1.Coords)
    (arg2 : Memref sig .tc .vmem S1024x2048 .f32) (harg2 : arg2.IsWhole)
    (arg3 : Memref sig .tc .vmem S8192x64 .f32) (harg3 : arg3.IsWhole)
    (arg4 : Memref sig .tc .vmem S1024x1 .f32) (harg4 : arg4.IsWhole)
    (arg5 : Memref sig .tc .vmem S64x256 .f32) (harg5 : arg5.IsWhole)
    (arg6 : Memref sig .tc .vmem S1024x1 .f32) (harg6 : arg6.IsWhole)
    (arg7 : Memref sig .tc .vmem S1x1 .f32) (harg7 : arg7.IsWhole)
    (arg8 : Memref sig .tc .vmem S1024x256 .f32) (harg8 : arg8.IsWhole)
    (arg9 : Memref sig .tc .vmem S1024x64 .f32) (harg9 : arg9.IsWhole)
    (hf : ¬cond1_first i) (hl : ¬cond1_last i)
    (x2 : Vec F S1024x2048 .f32) (x3 : Vec F S8192x64 .f32) (x4 : Vec F S1024x1 .f32) (x5 : Vec F S64x256 .f32)
    (x6 : Vec F S1024x1 .f32) (x7 : Vec F S1x1 .f32) (xi8 : Vec F S1024x256 .f32) (xs : Vec F S1024x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ owns (c : Thread nD τ) arg9 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ owns (c : Thread nD τ) arg9 fullShare (k1_pay2 (xsl i x3) xs x2)) -∗ K ⟨⟩))
      ⊢ wp frame (wpE (defs₀ (F := F)) Variants.none c none) E (cc1__h1_kernel i arg2 harg2 arg3 harg3 arg4 harg4 arg5 harg5 arg6 harg6 arg7 harg7 arg8 harg8 arg9 harg9) K := by
  simp only [cc1__h1_kernel_eq_skeleton]; unfold cc1__h1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; iexact H9
  ipureintro
  sl_unfold_run_names
  rw [read_writes_whole _ _ off_zero]
  simp only [View.readAt_eq_ld, harg2.read_unread, harg3.read_unread, harg4.read_unread, harg5.read_unread,
    harg6.read_unread, harg7.read_unread, harg9.read_unread,
    View.ld_unit_zero (S := S1024x2048) off_zero, View.ld_unit_zero (S := S1024x64) off_zero,
    View.ld_unit_zero (S := S1024x1) off_zero, View.ld_unit_zero (S := S64x256) off_zero,
    View.ld_unit_zero (S := S1x1) off_zero]
  rfl

set_option maxHeartbeats 1000000 in
/-- The last k-tile: the product is added to the scratch, and the epilogue of the scratch — scaled by `d`, multiplied by
    `W1`, shifted by `WX` and `b1`, clamped at zero — is stored into the output block, whatever that held. -/
theorem run1_C (c : Dev nD) (i : grid1.Coords)
    (arg2 : Memref sig .tc .vmem S1024x2048 .f32) (harg2 : arg2.IsWhole)
    (arg3 : Memref sig .tc .vmem S8192x64 .f32) (harg3 : arg3.IsWhole)
    (arg4 : Memref sig .tc .vmem S1024x1 .f32) (harg4 : arg4.IsWhole)
    (arg5 : Memref sig .tc .vmem S64x256 .f32) (harg5 : arg5.IsWhole)
    (arg6 : Memref sig .tc .vmem S1024x1 .f32) (harg6 : arg6.IsWhole)
    (arg7 : Memref sig .tc .vmem S1x1 .f32) (harg7 : arg7.IsWhole)
    (arg8 : Memref sig .tc .vmem S1024x256 .f32) (harg8 : arg8.IsWhole)
    (arg9 : Memref sig .tc .vmem S1024x64 .f32) (harg9 : arg9.IsWhole)
    (hf : ¬cond1_first i) (hl : cond1_last i)
    (x2 : Vec F S1024x2048 .f32) (x3 : Vec F S8192x64 .f32) (x4 : Vec F S1024x1 .f32) (x5 : Vec F S64x256 .f32)
    (x6 : Vec F S1024x1 .f32) (x7 : Vec F S1x1 .f32) (xs : Vec F S1024x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k1_pay3 x4 (k1_pay2 (xsl i x3) xs x2) x5 x7 x6) ∗ owns (c : Thread nD τ) arg9 fullShare (k1_pay2 (xsl i x3) xs x2)) -∗ K ⟨⟩))
      ⊢ wp frame (wpE (defs₀ (F := F)) Variants.none c none) E (cc1__h1_kernel i arg2 harg2 arg3 harg3 arg4 harg4 arg5 harg5 arg6 harg6 arg7 harg7 arg8 harg8 arg9 harg9) K := by
  simp only [cc1__h1_kernel_eq_skeleton]; unfold cc1__h1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; iexact H8
    ipureintro
    sl_unfold_run_names
    rw [read_writes_whole _ _ off_zero, View.readCov_unit_zero (S := S1024x64) _ off_zero]
    simp only [View.readAt_eq_ld, harg2.read_unread, harg3.read_unread, harg4.read_unread, harg5.read_unread,
    harg6.read_unread, harg7.read_unread, harg9.read_unread,
    View.ld_unit_zero (S := S1024x2048) off_zero, View.ld_unit_zero (S := S1024x64) off_zero,
    View.ld_unit_zero (S := S1024x1) off_zero, View.ld_unit_zero (S := S64x256) off_zero,
    View.ld_unit_zero (S := S1x1) off_zero]
    rfl
  iexists _; isplitr; swap; iexact H9
  ipureintro
  sl_unfold_run_names
  rw [read_writes_whole _ _ off_zero]
  simp only [View.readAt_eq_ld, harg2.read_unread, harg3.read_unread, harg4.read_unread, harg5.read_unread,
    harg6.read_unread, harg7.read_unread, harg9.read_unread,
    View.ld_unit_zero (S := S1024x2048) off_zero, View.ld_unit_zero (S := S1024x64) off_zero,
    View.ld_unit_zero (S := S1024x1) off_zero, View.ld_unit_zero (S := S64x256) off_zero,
    View.ld_unit_zero (S := S1x1) off_zero]
  rfl

end Cert.KernelIdeal.Hand

end
-- ==== Proof.HiddenData.lean ====
/- Region 1 — the hidden-layer kernel on its 8 × 4 grid (row tile, contraction tile): for each row tile the scratch
   block accumulates, contraction tile after contraction tile, the products of the 1024 × 2048 adjacency tiles with the
   matching 2048 rows of the scaled feature matrix (reset to zero at contraction tile 0), and at contraction tile 3 the
   output block receives max(0, (d ⊙ acc) · W1 + wx + b1). Here: what the scratch holds after each grid point, as a
   recursion over the points; the region's invariant carrying it; the pipeline's proof data; and the body obligation at
   a generic point, by cases on the contraction tile (first, inner, last). -/
import proofs.«136842_j29557964931141_2_alg».proof.Proof.Gen.KernelIdeal.Launch
import proofs.«136842_j29557964931141_2_alg».proof.Proof.Gen.KernelIdeal.Skeleton
import proofs.«136842_j29557964931141_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«136842_j29557964931141_2_alg».proof.Proof.HiddenBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The contraction tile of a point, decided over the grid -/

theorem hfirst1 : ∀ t : Fin cfg1.N, cond1_first (grid1.coords t) ↔ t.val % 4 = 0 :=
  (by decide +kernel : ∀ t : Fin grid1.N, cond1_first (grid1.coords t) ↔ t.val % 4 = 0)
theorem hlast1 : ∀ t : Fin cfg1.N, cond1_last (grid1.coords t) ↔ t.val % 4 = 3 :=
  (by decide +kernel : ∀ t : Fin grid1.N, cond1_last (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Before contraction tile 3 the output block is idle: nothing is stored into it and it is not written back. -/
theorem idleAt1_6 : ∀ t : Fin cfg1.N, ¬cond1_last (grid1.coords t) → cfg1.idle 6 (grid1.coords t) = true := by decide +kernel
theorem noFlush1_6 : ∀ t : Fin cfg1.N, ¬cond1_last (grid1.coords t) → (cfg1.win 6).flush t = false := by decide +kernel
theorem liveAt1_6 : ∀ t : Fin cfg1.N, cond1_last (grid1.coords t) → cfg1.idle 6 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .f32 := win1_6.stage (cfg1.slots t 6)
abbrev hs1_6 (t : Fin cfg1.N) : (ms1_6 t).IsWhole := hstage1_6 ((cfg1.slots t 6).cast nbuf1_6)
/-- The scratch block carried from point to point. -/
abbrev scM1 : Memref sig .tc .vmem S1024x64 .f32 := Memref.whole cc1_scratch0

/-! ## What the scratch block holds after each point -/

/-- The accumulated products after point `n`: at contraction tile 0 the tile's product added to zero, afterwards
    added to what the point before left. -/
def acc1 (c : Dev nD) : (n : ℕ) → n < cfg1.N → Vec F S1024x64 .f32
  | 0, hn => k1_pay2 (xsl (grid1.coords ⟨0, hn⟩) (iblk1 V c 1 ⟨0, hn⟩)) (k1_pay1 (F := F)) (iblk1 V c 0 ⟨0, hn⟩)
  | n + 1, hn => if (n + 1) % 4 = 0 then k1_pay2 (xsl (grid1.coords ⟨n + 1, hn⟩) (iblk1 V c 1 ⟨n + 1, hn⟩)) (k1_pay1 (F := F)) (iblk1 V c 0 ⟨n + 1, hn⟩)
      else k1_pay2 (xsl (grid1.coords ⟨n + 1, hn⟩) (iblk1 V c 1 ⟨n + 1, hn⟩)) (acc1 c n (Nat.lt_of_succ_lt hn)) (iblk1 V c 0 ⟨n + 1, hn⟩)

theorem acc1_first (c : Dev nD) (t : Fin cfg1.N) (h : t.val % 4 = 0) :
    acc1 V c t.val t.isLt = k1_pay2 (xsl (grid1.coords t) (iblk1 V c 1 t)) (k1_pay1 (F := F)) (iblk1 V c 0 t) := by
  obtain ⟨n, hn⟩ := t
  cases n with
  | zero => rfl
  | succ n => exact if_pos h

theorem acc1_next (c : Dev nD) (t : Fin cfg1.N) (h : ¬t.val % 4 = 0) :
    acc1 V c t.val t.isLt = k1_pay2 (xsl (grid1.coords t) (iblk1 V c 1 t)) (acc1 V c (t.val - 1) (Nat.lt_of_le_of_lt (Nat.sub_le _ _) t.isLt)) (iblk1 V c 0 t) := by
  obtain ⟨n, hn⟩ := t
  cases n with
  | zero => exact absurd (Nat.zero_mod _) h
  | succ n => exact if_neg h

/-! ## The region's invariant -/

/-- The class invariant with the scratch block as a memref owned at some contents (the other scoped buffers region 1
    does not stage — region 0's — each whole at some contents). -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The invariant before position `n`: before the first point every scratch buffer at anything; afterwards the scratch
    block at the accumulated products the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (acc1 V c (n - 1) (by omega))) ∗ (∃ r, prngReg c r)) := by
  cases n with
  | zero => exact absurd rfl hz
  | succ n => rfl

/-! ## The pipeline's proof data -/

/-- The arrays as the region finds them; after the body every input's buffer still at its block, the output block's
    buffer at max(0, (d ⊙ acc) · W1 + wx + b1) of the accumulated products (read only where it is written back: at
    contraction tile 3); the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (iblk1 V c 2 t) (acc1 V c t.val t.isLt) (iblk1 V c 3 t) (iblk1 V c 5 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay3 (iblk1 V c 2 t) (acc1 V c t.val t.isLt) (iblk1 V c 3 t) (iblk1 V c 5 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. Every input's buffer holds its block; the contraction tile says which case the point is in;
    the invariant hands the body the scratch block at what the point before left (at anything before the first point,
    where the reset overwrites it) and takes it back at this point's accumulated products; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  have hN : t.val < 32 := lt_of_lt_of_eq t.isLt (show cfg1.N = 32 from N_1)
  by_cases hl : t.val % 4 = 3
  · have hf : ¬t.val % 4 = 0 := by omega
    have hz : t.val ≠ 0 := by omega
    rw [show (dat1 V c).leavesExact 6 t = owns (c : Thread nD τ) (ms1_6 t) fullShare ((dat1 V c).after 6 t) from by
      unfold Dat.leavesExact; rw [liveAt1_6 t ((hlast1 t).mpr hl)], after1_6]
    rw [acc1_next V c t hf, PhiS1_castSucc V c t, PhiS1_pos V c _ _ hz]
    iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
    iapply (run1_C c (grid1.coords t) _ _ _ _ _ _ _ _ _ _ _ _ _ _ _ _ (fun h => hf ((hfirst1 t).mp h)) ((hlast1 t).mpr hl) (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Ha Hb Hc Hd He Hg]
    · isplitl [HS Ha Hb Hc Hd He]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 6 t (idleAt1_6 t (fun h => hl ((hlast1 t).mp h))) (noFlush1_6 t (fun h => hl ((hlast1 t).mp h)))]
    by_cases hf : t.val % 4 = 0
    · rw [acc1_first V c t hf]
      by_cases hz : t.val = 0
      · rw [PhiS1_castSucc V c t, PhiS1_zero V c _ _ hz, PhiA1_eq]
        iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
        iapply (run1_A c (grid1.coords t) _ _ _ _ _ _ _ _ _ _ _ _ _ _ _ _ ((hfirst1 t).mpr hf) (fun h => hl ((hlast1 t).mp h)) (iblk1 V c 0 t) (iblk1 V c 1 t) (iblk1 V c 2 t) (iblk1 V c 3 t) (iblk1 V c 4 t) (iblk1 V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HS Ha Hb Hc Hd He Hg]
        · isplitl [HS Ha Hb Hc Hd He]
          · isplitl [Ha]; · iexact Ha
            isplitl [Hb]; · iexact Hb
            isplitl [Hc]; · iexact Hc
            isplitl [Hd]; · iexact Hd
            isplitl [He]; · iexact He
            iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
        iapply (run1_A c (grid1.coords t) _ _ _ _ _ _ _ _ _ _ _ _ _ _ _ _ ((hfirst1 t).mpr hf) (fun h => hl ((hlast1 t).mp h)) (iblk1 V c 0 t) (iblk1 V c 1 t) (iblk1 V c 2 t) (iblk1 V c 3 t) (iblk1 V c 4 t) (iblk1 V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, HS⟩
        isplitl [HS Ha Hb Hc Hd He Hg]
        · isplitl [HS Ha Hb Hc Hd He]
          · isplitl [Ha]; · iexact Ha
            isplitl [Hb]; · iexact Hb
            isplitl [Hc]; · iexact Hc
            isplitl [Hd]; · iexact Hd
            isplitl [He]; · iexact He
            iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := by omega
      rw [acc1_next V c t hf, PhiS1_castSucc V c t, PhiS1_pos V c _ _ hz]
      iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ (fun h => hf ((hfirst1 t).mp h)) (fun h => hl ((hlast1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Ha Hb Hc Hd He Hg]
      · isplitl [HS Ha Hb Hc Hd He]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch block's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

end

end Cert.KernelIdeal.Hand

end
-- ==== Proof.Chain.lean ====
/- The whole program as a chain of segments: region 0 (the degree kernel), the host stretch that transposes the degree row,
   scales the features and sums the edge products, region 1 (the hidden-layer kernel), and the three host stretches of the
   cross branch and the output. The buffer contents at each boundary are folded through the program — a region replaces
   its arrays by what its pipeline leaves, a host stretch applies its operations — and the launch theorem for several
   regions gives: every weakly fair execution terminates, faulting nowhere, with every unscoped buffer at the last fold. -/
import proofs.«136842_j29557964931141_2_alg».proof.Proof.Gen.KernelIdeal.Launch
import proofs.«136842_j29557964931141_2_alg».proof.Proof.Gen.KernelIdeal.Skeleton
import proofs.«136842_j29557964931141_2_alg».proof.Proof.Gen.KernelIdeal.Points
import proofs.«136842_j29557964931141_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«136842_j29557964931141_2_alg».proof.Proof.DegreeData
import proofs.«136842_j29557964931141_2_alg».proof.Proof.HiddenData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first host stretch. -/
def W2 (c : Dev nD) : Valuation τ sig (Elt F) := StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the three last host stretches. -/
def W4 (c : Dev nD) : Valuation τ sig (Elt F) := StableHlo.after hostOps2 (W3 m c)
def W5 (c : Dev nD) : Valuation τ sig (Elt F) := StableHlo.after hostOps2_1 (W4 m c)
def W6 (c : Dev nD) : Valuation τ sig (Elt F) := StableHlo.after hostOps2_2 (W5 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W0`, left at `W1`. Its arrays are
    split out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    refine BIBase.Entails.trans (hout0 (V0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are
    split out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    refine BIBase.Entails.trans (hout1 (V2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]

theorem main_run (c : Dev nD) : main (F := F) c = Pipeline.Seg.run (segs m) := (main_chain c).trans (by chain_rfl)

variable (ρ : Dev nD → PrngReg)

set_option backward.isDefEq.respectTransparency.types false in
/-- At the compiled mesh, from any memory with zero counters: every weakly fair execution of the program terminates,
    nothing faulting, and every final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R (F := F) c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Hand

end
-- ==== Proof.ChainArgs.lean ====
/- The argument arrays through the chain: no host stretch writes an argument, and a region either reads it through an input
   window (whose array it leaves as found) or bypasses it; so the last boundary's contents at an argument are the launch
   contents. -/
import proofs.«136842_j29557964931141_2_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A buffer the first host stretch does not write. -/
theorem W2_of (c : Dev nD) (r : Ref sig .tc) (h : r ∉ hostOps1_W) : W2 m c (Proc.devRef .tc r) = W1 m c (Proc.devRef .tc r) := by
  unfold W2; exact StableHlo.after_of_writes_sub hostOps1 _ hostOps1_writes h

/-- A buffer none of the three last host stretches writes. -/
theorem W6_of (c : Dev nD) (r : Ref sig .tc) (h2 : r ∉ hostOps2_W) (h21 : r ∉ hostOps2_1_W) (h22 : r ∉ hostOps2_2_W) :
    W6 m c (Proc.devRef .tc r) = W3 m c (Proc.devRef .tc r) := by
  unfold W6 W5 W4
  exact (StableHlo.after_of_writes_sub hostOps2_2 _ hostOps2_2_writes h22).trans <|
    (StableHlo.after_of_writes_sub hostOps2_1 _ hostOps2_1_writes h21).trans <|
      StableHlo.after_of_writes_sub hostOps2 _ hostOps2_writes h2

/-- An input window's array is left as found, by region 0 -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hw _).trans (A_eq0 (V0 m) c w))
/-- and by region 1. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W6_main_arg0 (c : Dev nD) : W6 m c (Proc.devRef .tc main_arg0) = m ((c : Thread nD τ).loc main_arg0) :=
  (W6_of m c main_arg0 (by decide) (by decide) (by decide)).trans <| (W3_in m c 0 rfl).trans <| (W2_of m c main_arg0 (by decide)).trans <| (W1_in m c 0 rfl).trans rfl
theorem W6_main_arg1 (c : Dev nD) : W6 m c (Proc.devRef .tc main_arg1) = m ((c : Thread nD τ).loc main_arg1) :=
  (W6_of m c main_arg1 (by decide) (by decide) (by decide)).trans <| (W3_of_ne m c main_arg1 (by decide)).trans <| (W2_of m c main_arg1 (by decide)).trans <| (W1_of_ne m c main_arg1 (by decide)).trans rfl
theorem W6_main_arg2 (c : Dev nD) : W6 m c (Proc.devRef .tc main_arg2) = m ((c : Thread nD τ).loc main_arg2) :=
  (W6_of m c main_arg2 (by decide) (by decide) (by decide)).trans <| (W3_of_ne m c main_arg2 (by decide)).trans <| (W2_of m c main_arg2 (by decide)).trans <| (W1_of_ne m c main_arg2 (by decide)).trans rfl
theorem W6_main_arg3 (c : Dev nD) : W6 m c (Proc.devRef .tc main_arg3) = m ((c : Thread nD τ).loc main_arg3) :=
  (W6_of m c main_arg3 (by decide) (by decide) (by decide)).trans <| (W3_of_ne m c main_arg3 (by decide)).trans <| (W2_of m c main_arg3 (by decide)).trans <| (W1_of_ne m c main_arg3 (by decide)).trans rfl
theorem W6_main_arg4 (c : Dev nD) : W6 m c (Proc.devRef .tc main_arg4) = m ((c : Thread nD τ).loc main_arg4) :=
  (W6_of m c main_arg4 (by decide) (by decide) (by decide)).trans <| (W3_in m c 3 rfl).trans <| (W2_of m c main_arg4 (by decide)).trans <| (W1_of_ne m c main_arg4 (by decide)).trans rfl
theorem W6_main_arg5 (c : Dev nD) : W6 m c (Proc.devRef .tc main_arg5) = m ((c : Thread nD τ).loc main_arg5) :=
  (W6_of m c main_arg5 (by decide) (by decide) (by decide)).trans <| (W3_of_ne m c main_arg5 (by decide)).trans <| (W2_of m c main_arg5 (by decide)).trans <| (W1_of_ne m c main_arg5 (by decide)).trans rfl
theorem W6_main_arg6 (c : Dev nD) : W6 m c (Proc.devRef .tc main_arg6) = m ((c : Thread nD τ).loc main_arg6) :=
  (W6_of m c main_arg6 (by decide) (by decide) (by decide)).trans <| (W3_of_ne m c main_arg6 (by decide)).trans <| (W2_of m c main_arg6 (by decide)).trans <| (W1_of_ne m c main_arg6 (by decide)).trans rfl
theorem W6_main_arg7 (c : Dev nD) : W6 m c (Proc.devRef .tc main_arg7) = m ((c : Thread nD τ).loc main_arg7) :=
  (W6_of m c main_arg7 (by decide) (by decide) (by decide)).trans <| (W3_of_ne m c main_arg7 (by decide)).trans <| (W2_of m c main_arg7 (by decide)).trans <| (W1_of_ne m c main_arg7 (by decide)).trans rfl
theorem W6_main_arg8 (c : Dev nD) : W6 m c (Proc.devRef .tc main_arg8) = m ((c : Thread nD τ).loc main_arg8) :=
  (W6_of m c main_arg8 (by decide) (by decide) (by decide)).trans <| (W3_of_ne m c main_arg8 (by decide)).trans <| (W2_of m c main_arg8 (by decide)).trans <| (W1_of_ne m c main_arg8 (by decide)).trans rfl
theorem W6_main_arg9 (c : Dev nD) : W6 m c (Proc.devRef .tc main_arg9) = m ((c : Thread nD τ).loc main_arg9) :=
  (W6_of m c main_arg9 (by decide) (by decide) (by decide)).trans <| (W3_of_ne m c main_arg9 (by decide)).trans <| (W2_of m c main_arg9 (by decide)).trans <| (W1_of_ne m c main_arg9 (by decide)).trans rfl
theorem W6_main_arg10 (c : Dev nD) : W6 m c (Proc.devRef .tc main_arg10) = m ((c : Thread nD τ).loc main_arg10) :=
  (W6_of m c main_arg10 (by decide) (by decide) (by decide)).trans <| (W3_in m c 4 rfl).trans <| (W2_of m c main_arg10 (by decide)).trans <| (W1_of_ne m c main_arg10 (by decide)).trans rfl
theorem W6_main_arg11 (c : Dev nD) : W6 m c (Proc.devRef .tc main_arg11) = m ((c : Thread nD τ).loc main_arg11) :=
  (W6_of m c main_arg11 (by decide) (by decide) (by decide)).trans <| (W3_of_ne m c main_arg11 (by decide)).trans <| (W2_of m c main_arg11 (by decide)).trans <| (W1_of_ne m c main_arg11 (by decide)).trans rfl

end Cert.KernelIdeal.Hand

end
-- ==== Proof.DegreeBodyB.lean ====
/- THE DEGREE KERNEL'S BODY AT ONE GRID POINT, as three Hoare triples (one per control case).

   The kernel computes d = 1 / sqrt(column sums of AT), one 1 x 2048 block of d per column-tile of AT. Its grid is
   (column-tile j, row-tile r) with 4 x 8 points, the row-tile running fastest. At a point the body sees
     x0 : the 1024 x 2048 block of AT (the rows of row-tile r, the columns of column-tile j),
     the 1 x 2048 output block of d for column-tile j, and
     s  : a 1 x 2048 scratch row that is carried from one point to the next.
   Write colsum(x0)[q] = sum over the 1024 rows p of x0[p, q]. The three cases are
     reset (r = 0):      s is filled with zeros and then s <- s + colsum(x0). Afterwards s = 0 + colsum(x0), whatever
                         it held before (the term `k0_pay2 k0_pay1 x0`); the output block is not touched.
     inner (0 < r < 7):  s <- s + colsum(x0), i.e. s becomes `k0_pay2 xs x0` from its earlier value xs; the output block
                         is not touched.
     last (r = 7):       s <- s + colsum(x0) as before, and then the output block <- rsqrt(s) entry by entry, whatever it
                         held before: the output is `k0_pay3 (k0_pay2 xs x0)` and s is `k0_pay2 xs x0`.
   In every case the block of AT is handed back with the contents it came with. Every store of the body overwrites its
   whole buffer, which is why each triple can name the stored buffer's new contents outright, as the stored value.
   Each statement holds for every float instance: nothing here depends on how floats are represented. -/
import proofs.«136842_j29557964931141_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! # The degree kernel's body: one Hoare triple per control case

The kernel accumulates the column sums of its 1024 x 2048 block of `AT` into a `1 x 2048` scratch row: at the
first row-tile the scratch is first filled with zeros, at every row-tile the block's column sums are added to
it, and at the last row-tile the reciprocal square root of the scratch is stored into the output block. Every
store writes its buffer whole, so each triple hands the stored buffer back at the stored value itself. -/

/-- The zero offsets of a whole-buffer access, as a constant function. -/
theorem off_zero : (![0, 0] : Fin 2 → Nat) = fun _ => 0 := funext fun a => by fin_cases a <;> rfl

/-- A buffer read back after a LAST store through the whole-shape rectangle at zero offsets holds the stored
    value, whatever it held and whatever was stored before. -/
theorem read_writes_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The first `scf.if` of the degree kernel (zero the scratch): taken at the first row-tile. -/
abbrev cond0_first (i : grid0.Coords) : Prop := (Scalar.cmpi .ne (Scalar.extui (Scalar.cmpi .eq (BitVec.ofNat 32 (i 1).val) 0#32)) 0#32) = 1#1
/-- The second `scf.if` of the degree kernel (store the reciprocal square root): taken at the last row-tile. -/
abbrev cond0_last (i : grid0.Coords) : Prop := k0_cond2 i = 1#1

set_option maxHeartbeats 1000000 in
/-- The first row-tile: the scratch, whatever it held, is zeroed and the block's column sums are added; the output block
    is not touched. -/
theorem run0_A (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (hf : cond0_first i) (hl : ¬cond0_last i)
    (x0 : Vec F S1024x2048 .f32) (xi : Vec F S1x2048 .f32) (E : Set ℕ) (K : PUnit → sProp 𝕄) :
    iprop(owns (c : Thread nD τ) arg2 fullShare x0 ∗ owns (c : Thread nD τ) arg3 fullShare xi ∗ (∃ d, owns (c : Thread nD τ) arg4 fullShare d)
        ∗ (iprop(owns (c : Thread nD τ) arg2 fullShare x0 ∗ owns (c : Thread nD τ) arg3 fullShare xi ∗ owns (c : Thread nD τ) arg4 fullShare (k0_pay2 k0_pay1 x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; iexact HS0
  ipureintro
  sl_unfold_run_names
  rw [read_writes_whole _ _ off_zero, View.readCov_unit_zero (S := S1x2048) _ off_zero]
  simp only [View.readAt_eq_ld, harg4.read_unread, harg2.read_unread,
    View.ld_unit_zero (S := S1x2048) off_zero, View.ld_unit_zero (S := S1024x2048) off_zero]

set_option maxHeartbeats 1000000 in
/-- A middle row-tile (neither first nor last): the block's column sums are added to the scratch; the output block
    is not touched. -/
theorem run0_B (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (hf : ¬cond0_first i) (hl : ¬cond0_last i)
    (x0 : Vec F S1024x2048 .f32) (xi xs : Vec F S1x2048 .f32) (E : Set ℕ) (K : PUnit → sProp 𝕄) :
    iprop(owns (c : Thread nD τ) arg2 fullShare x0 ∗ owns (c : Thread nD τ) arg3 fullShare xi ∗ owns (c : Thread nD τ) arg4 fullShare xs
        ∗ (iprop(owns (c : Thread nD τ) arg2 fullShare x0 ∗ owns (c : Thread nD τ) arg3 fullShare xi ∗ owns (c : Thread nD τ) arg4 fullShare (k0_pay2 xs x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; iexact HS0
  ipureintro
  rw [read_writes_whole _ _ off_zero]
  simp only [View.readAt_eq_ld, harg4.read_unread, harg2.read_unread,
    View.ld_unit_zero (S := S1x2048) off_zero, View.ld_unit_zero (S := S1024x2048) off_zero]

set_option maxHeartbeats 1000000 in
/-- The last row-tile: the block's column sums are added to the scratch, and the reciprocal square root of the
    scratch is stored into the output block, whatever that held. -/
theorem run0_C (c : Dev nD) (i : grid0.Coords)
    (arg2 : Memref sig .tc .vmem S1024x2048 .f32) (harg2 : arg2.IsWhole)
    (arg3 : Memref sig .tc .vmem S1x2048 .f32) (harg3 : arg3.IsWhole)
    (arg4 : Memref sig .tc .vmem S1x2048 .f32) (harg4 : arg4.IsWhole)
    (hf : ¬cond0_first i) (hl : cond0_last i)
    (x0 : Vec F S1024x2048 .f32) (xs : Vec F S1x2048 .f32) (E : Set ℕ) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay3 (k0_pay2 xs x0)) ∗ owns (c : Thread nD τ) arg4 fullShare (k0_pay2 xs x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr; swap; iexact H1
    ipureintro
    sl_unfold_run_names
    rw [read_writes_whole _ _ off_zero, View.readCov_unit_zero (S := S1x2048) _ off_zero]
    simp only [View.readAt_eq_ld, harg4.read_unread, harg2.read_unread,
    View.ld_unit_zero (S := S1x2048) off_zero, View.ld_unit_zero (S := S1024x2048) off_zero]
  iexists _; isplitr; swap; iexact HS0
  ipureintro
  sl_unfold_run_names
  rw [read_writes_whole _ _ off_zero]
  simp only [View.readAt_eq_ld, harg4.read_unread, harg2.read_unread,
    View.ld_unit_zero (S := S1x2048) off_zero, View.ld_unit_zero (S := S1024x2048) off_zero]

end Cert.Kernel.Hand

end
-- ==== Proof.DegreeDataB.lean ====
/- Region 0 — the degree kernel on its 4 × 8 grid (column tile, row tile): for each column tile the scratch row
   accumulates, row tile after row tile, the column sums of the 1024 × 2048 tiles of the adjacency matrix (reset to zero
   at row tile 0), and at row tile 7 the output block receives the reciprocal square root of the accumulated sums.
   Here: what the scratch holds after each grid point, as a recursion over the points; the region's invariant carrying
   that scratch from point to point; the pipeline's proof data; and the body obligation at a generic point, by cases
   on the row tile (first, inner, last). -/
import proofs.«136842_j29557964931141_2_alg».proof.Proof.Gen.Kernel.Launch
import proofs.«136842_j29557964931141_2_alg».proof.Proof.Gen.Kernel.Skeleton
import proofs.«136842_j29557964931141_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«136842_j29557964931141_2_alg».proof.Proof.DegreeBodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile is fetched at every point: its staging buffer holds the tile whenever the body runs. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The row tile of a point, decided over the grid -/

/-- The reset branch is taken exactly at row tile 0. -/
theorem hfirst0 : ∀ t : Fin cfg0.N, cond0_first (grid0.coords t) ↔ t.val % 8 = 0 :=
  (by decide +kernel : ∀ t : Fin grid0.N, cond0_first (grid0.coords t) ↔ t.val % 8 = 0)
/-- The finishing branch is taken exactly at row tile 7. -/
theorem hlast0 : ∀ t : Fin cfg0.N, cond0_last (grid0.coords t) ↔ t.val % 8 = 7 :=
  (by decide +kernel : ∀ t : Fin grid0.N, cond0_last (grid0.coords t) ↔ t.val % 8 = 7)

theorem liveAt0_0 : ∀ t : Fin cfg0.N, cfg0.idle 0 (grid0.coords t) = false := by decide +kernel
/-- Before row tile 7 the output block is idle: nothing is stored into it and it is not written back. -/
theorem idleAt0_1 : ∀ t : Fin cfg0.N, ¬cond0_last (grid0.coords t) → cfg0.idle 1 (grid0.coords t) = true := by decide +kernel
theorem noFlush0_1 : ∀ t : Fin cfg0.N, ¬cond0_last (grid0.coords t) → (cfg0.win 1).flush t = false := by decide +kernel
theorem liveAt0_1 : ∀ t : Fin cfg0.N, cond0_last (grid0.coords t) → cfg0.idle 1 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- The scratch row carried from point to point. -/
abbrev scM0 : Memref sig .tc .vmem S1x2048 .f32 := Memref.whole cc0_scratch0

/-! ## What the scratch row holds after each point -/

/-- The accumulated column sums after point `n`: at row tile 0 the tile's column sums added to zero, afterwards the
    tile's column sums added to what the point before left. -/
def acc0 (c : Dev nD) : (n : ℕ) → n < cfg0.N → Vec F S1x2048 .f32
  | 0, hn => k0_pay2 (k0_pay1 (F := F)) (iblk0 V c 0 ⟨0, hn⟩)
  | n + 1, hn => if (n + 1) % 8 = 0 then k0_pay2 (k0_pay1 (F := F)) (iblk0 V c 0 ⟨n + 1, hn⟩)
      else k0_pay2 (acc0 c n (Nat.lt_of_succ_lt hn)) (iblk0 V c 0 ⟨n + 1, hn⟩)

theorem acc0_first (c : Dev nD) (t : Fin cfg0.N) (h : t.val % 8 = 0) :
    acc0 V c t.val t.isLt = k0_pay2 (k0_pay1 (F := F)) (iblk0 V c 0 t) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-! ## The region's invariant -/

/-- The scoped buffers region 0 does not stage, other than its scratch row: each whole at some contents. -/
def tail0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant with the scratch row as a memref owned at some contents. -/
theorem PhiA0_eq (c : Dev nD) :
    (Pipeline.ΦA spec0 c : sProp 𝕄)
      = iprop(iprop((∃ d, owns (c : Thread nD τ) scM0 fullShare d) ∗ tail0 (F := F) c) ∗ (∃ r, prngReg c r)) := by
  unfold Pipeline.ΦA tail0; rw [scopedRest0_eq]; simp only [scM0, owns_whole]; try rfl

/-- The invariant before position `n`: before the first point every scratch buffer at anything; afterwards the scratch
    row at the accumulated column sums the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ tail0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ tail0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ tail0 (F := F) c) ∗ (∃ r, prngReg c r)) := by
  cases n with
  | zero => exact absurd rfl hz
  | succ n => rfl

/-! ## The pipeline's proof data -/

/-- The arrays as the region finds them; after the body the adjacency tile's buffer still at the tile, the output
    block's buffer at the reciprocal square root of the accumulated sums (read only where it is written back: at
    row tile 7); the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The tile's buffer holds the tile; the row tile says which case the point is in; the
    invariant hands the body the scratch row at what the point before left (at anything before the first point, where
    the reset overwrites it) and takes it back at this point's accumulated sums; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  have hN : t.val < 32 := lt_of_lt_of_eq t.isLt (show cfg0.N = 32 from N_0)
  by_cases hl : t.val % 8 = 7
  · have hf : ¬t.val % 8 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hlast0 t).mpr hl)], after0_1]
    rw [acc0_next V c t hf, PhiS0_castSucc V c t, PhiS0_pos V c _ _ hz]
    iintro ⟨⟨⟨HS, Ht⟩, Hg⟩, Ho, ⟨%d0, H0⟩, ⟨%d1, H1⟩⟩
    iapply (run0_C c (grid0.coords t) _ _ _ _ _ _ (fun h => hf ((hfirst0 t).mp h)) ((hlast0 t).mpr hl) (iblk0 V c 0 t) _ Set.univ _)
    isplitl [H0]; · iexact H0
    isplitl [H1]; · iexists _; iexact H1
    isplitl [HS]; · iexact HS
    iintro ⟨H0, H1, HS⟩
    isplitl [HS Ht Hg]
    · isplitl [HS Ht]
      · isplitl [HS]; · iexact HS
        iexact Ht
      iexact Hg
    isplitl [Ho]; · iexact Ho
    isplitl [H0]; · iexact H0
    iexact H1
  · rw [Dat.leavesExact_idle (dat0 V c) 1 t (idleAt0_1 t (fun h => hl ((hlast0 t).mp h))) (noFlush0_1 t (fun h => hl ((hlast0 t).mp h)))]
    by_cases hf : t.val % 8 = 0
    · rw [acc0_first V c t hf]
      by_cases hz : t.val = 0
      · rw [PhiS0_castSucc V c t, PhiS0_zero V c _ _ hz, PhiA0_eq]
        iintro ⟨⟨⟨HS, Ht⟩, Hg⟩, Ho, ⟨%d0, H0⟩, ⟨%d1, H1⟩⟩
        iapply (run0_A c (grid0.coords t) _ _ _ _ _ _ ((hfirst0 t).mpr hf) (fun h => hl ((hlast0 t).mp h)) (iblk0 V c 0 t) _ Set.univ _)
        isplitl [H0]; · iexact H0
        isplitl [H1]; · iexact H1
        isplitl [HS]; · iexact HS
        iintro ⟨H0, H1, HS⟩
        isplitl [HS Ht Hg]
        · isplitl [HS Ht]
          · isplitl [HS]; · iexact HS
            iexact Ht
          iexact Hg
        isplitl [Ho]; · iexact Ho
        isplitl [H0]; · iexact H0
        iexists _; iexact H1
      · rw [PhiS0_castSucc V c t, PhiS0_pos V c _ _ hz]
        iintro ⟨⟨⟨HS, Ht⟩, Hg⟩, Ho, ⟨%d0, H0⟩, ⟨%d1, H1⟩⟩
        iapply (run0_A c (grid0.coords t) _ _ _ _ _ _ ((hfirst0 t).mpr hf) (fun h => hl ((hlast0 t).mp h)) (iblk0 V c 0 t) _ Set.univ _)
        isplitl [H0]; · iexact H0
        isplitl [H1]; · iexact H1
        isplitl [HS]; · iexists _; iexact HS
        iintro ⟨H0, H1, HS⟩
        isplitl [HS Ht Hg]
        · isplitl [HS Ht]
          · isplitl [HS]; · iexact HS
            iexact Ht
          iexact Hg
        isplitl [Ho]; · iexact Ho
        isplitl [H0]; · iexact H0
        iexists _; iexact H1
    · have hz : t.val ≠ 0 := by omega
      rw [acc0_next V c t hf, PhiS0_castSucc V c t, PhiS0_pos V c _ _ hz]
      iintro ⟨⟨⟨HS, Ht⟩, Hg⟩, Ho, ⟨%d0, H0⟩, ⟨%d1, H1⟩⟩
      iapply (run0_B c (grid0.coords t) _ _ _ _ _ _ (fun h => hf ((hfirst0 t).mp h)) (fun h => hl ((hlast0 t).mp h)) (iblk0 V c 0 t) _ _ Set.univ _)
      isplitl [H0]; · iexact H0
      isplitl [H1]; · iexact H1
      isplitl [HS]; · iexact HS
      iintro ⟨H0, H1, HS⟩
      isplitl [HS Ht Hg]
      · isplitl [HS Ht]
        · isplitl [HS]; · iexact HS
          iexact Ht
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch row's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Ht⟩, Hg⟩
  isplitl [HS Ht]
  · isplitl [HS]
    · iexists _; iexact HS
    iexact Ht
  iexact Hg

end

end Cert.Kernel.Hand

end
-- ==== Proof.HiddenBodyB.lean ====
/- THE HIDDEN-LAYER KERNEL'S BODY AT ONE GRID POINT, as three Hoare triples (one per control case).

   The kernel computes H1 = relu((d * (AT @ XTs)) @ W1 + WX + b1), one 1024 x 256 block of H1 per row-tile of AT, where
   XTs is XT with row j scaled by d[j]. Its grid is (row-tile t, k-tile k) with 8 x 4 points, the k-tile running fastest.
   At a point the body sees
     x2 : the 1024 x 2048 block of AT (the rows of row-tile t, the columns of k-tile k),
     x3 : the whole 8192 x 64 array XTs, of which it reads the 2048 rows of k-tile k — the slice `xsl i x3`, whose row p is
          row 2048 * k + p of XTs,
     x4 : the 1024 x 1 block of d for row-tile t,   x5 : W1 (64 x 256),   x6 : the 1024 x 1 block of b1,   x7 : WX (1 x 1),
     the 1024 x 256 output block of H1 for row-tile t, and
     s  : a 1024 x 64 scratch that is carried from one point to the next.
   The three cases are
     reset (k = 0):      s is filled with zeros and then s <- s + x2 @ xsl. Afterwards s = 0 + x2 @ xsl, whatever it held
                         before (the term `k1_pay2 (xsl i x3) k1_pay1 x2`); the output block is not touched.
     inner (0 < k < 3):  s <- s + x2 @ xsl, i.e. s becomes `k1_pay2 (xsl i x3) xs x2` from its earlier value xs; the output
                         block is not touched.
     last (k = 3):       s <- s + x2 @ xsl as before, and then the output block <- relu((x4 * s) @ x5 + x7 + x6), with x4
                         and x6 broadcast along the columns and x7 to every entry, whatever the output block held before:
                         the output is `k1_pay3 x4 (k1_pay2 (xsl i x3) xs x2) x5 x7 x6` and s is `k1_pay2 (xsl i x3) xs x2`.
   In every case the six inputs are handed back with the contents they came with. Every store of the body overwrites
   its whole buffer, which is why each triple can name the stored buffer's new contents outright, as the stored value.
   Each statement holds for every float instance: nothing here depends on how floats are represented. -/
import proofs.«136842_j29557964931141_2_alg».proof.Proof.DegreeBodyB
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.ValueIdx

/-! # The hidden-layer kernel's body: one Hoare triple per control case

Per 1024-row tile the kernel accumulates `AT_tile @ XTs_slice` over four k-tiles into a `1024 x 64` scratch: at the
first k-tile the scratch is first filled with zeros, at every k-tile the product of the `1024 x 2048` block of `AT`
with the k-tile's 2048 rows of `XTs` is added to it, and at the last k-tile the epilogue
`relu((d * scratch) @ W1 + WX + b1)` is stored into the output block. Every store writes its buffer whole, so each
triple hands the stored buffer back at the stored value itself. -/

/-- The first `scf.if` of the hidden-layer kernel (zero the scratch): taken at the first k-tile. -/
abbrev cond1_first (i : grid1.Coords) : Prop := (Scalar.cmpi .ne (Scalar.extui (Scalar.cmpi .eq (BitVec.ofNat 32 (i 1).val) 0#32)) 0#32) = 1#1
/-- The second `scf.if` of the hidden-layer kernel (the epilogue): taken at the last k-tile. -/
abbrev cond1_last (i : grid1.Coords) : Prop := k1_cond2 i = 1#1

/-- The rows of `XTs` the k-tile reads: the 2048 rows from row `k1_off1 i 0` on, all 64 columns. -/
def xsl (i : grid1.Coords) (x3 : Vec F S8192x64 .f32) : Vec F S2048x64 .f32 :=
  View.ld x3 (Rect.unit (s := S8192x64) (k1_off1 i) S2048x64.size (k1_off1_inb i))

/-- The slice is, by definition, the read of `XTs` through the k-tile's rectangle of rows. -/
theorem xsl_def (i : grid1.Coords) (x3 : Vec F S8192x64 .f32) :
    View.ld x3 (Rect.unit (s := S8192x64) (k1_off1 i) S2048x64.size (k1_off1_inb i)) = xsl i x3 := rfl

/-- The k-tile's first row: k-tile `k` starts at row `2048 * k`. -/
theorem k1_off1_row : ∀ i : grid1.Coords, k1_off1 i 0 = 2048 * (i 1).val := by decide +kernel
/-- The slice takes every column: its column offset is zero. -/
theorem k1_off1_col : ∀ i : grid1.Coords, k1_off1 i 1 = 0 := fun _ => rfl

/-- The slice at coordinates: its row `p` is row `k1_off1 i 0 + p` of `XTs`, column for column. -/
theorem xsl_apply (i : grid1.Coords) (x3 : Vec F S8192x64 .f32) (p : Fin 2048) (q : Fin 64)
    (h : k1_off1 i 0 + p.val < 8192) :
    xsl i x3 (ix2 p q) = x3 (ix2 ⟨k1_off1 i 0 + p.val, h⟩ q) := by
  unfold xsl
  show x3 _ = x3 _
  congr 1
  funext a
  match a with
  | ⟨0, _⟩ => exact Fin.ext (by show k1_off1 i 0 + 1 * p.val = k1_off1 i 0 + p.val; omega)
  | ⟨1, _⟩ => exact Fin.ext (by show k1_off1 i 1 + 1 * q.val = q.val; rw [k1_off1_col]; omega)

/-- The same with the row spelt out: row `p` of k-tile `k`'s slice is row `2048 * k + p` of `XTs`. -/
theorem xsl_apply_row (i : grid1.Coords) (x3 : Vec F S8192x64 .f32) (p : Fin 2048) (q : Fin 64)
    (h : 2048 * (i 1).val + p.val < 8192) :
    xsl i x3 (ix2 p q) = x3 (ix2 ⟨2048 * (i 1).val + p.val, h⟩ q) := by
  rw [xsl_apply i x3 p q (by rw [k1_off1_row]; exact h)]
  congr 1
  funext a
  match a with
  | ⟨0, _⟩ => exact Fin.ext (by show k1_off1 i 0 + p.val = 2048 * (i 1).val + p.val; rw [k1_off1_row])
  | ⟨1, _⟩ => rfl

set_option maxHeartbeats 1000000 in
/-- The first k-tile: the scratch, whatever it held, is zeroed and the product of the `AT` block with the k-tile's rows
    of `XTs` is added; the output block is not touched. -/
theorem run1_A (c : Dev nD) (i : grid1.Coords)
    (arg2 : Memref sig .tc .vmem S1024x2048 .f32) (harg2 : arg2.IsWhole)
    (arg3 : Memref sig .tc .vmem S8192x64 .f32) (harg3 : arg3.IsWhole)
    (arg4 : Memref sig .tc .vmem S1024x1 .f32) (harg4 : arg4.IsWhole)
    (arg5 : Memref sig .tc .vmem S64x256 .f32) (harg5 : arg5.IsWhole)
    (arg6 : Memref sig .tc .vmem S1024x1 .f32) (harg6 : arg6.IsWhole)
    (arg7 : Memref sig .tc .vmem S1x1 .f32) (harg7 : arg7.IsWhole)
    (arg8 : Memref sig .tc .vmem S1024x256 .f32) (harg8 : arg8.IsWhole)
    (arg9 : Memref sig .tc .vmem S1024x64 .f32) (harg9 : arg9.IsWhole)
    (hf : cond1_first i) (hl : ¬cond1_last i)
    (x2 : Vec F S1024x2048 .f32) (x3 : Vec F S8192x64 .f32) (x4 : Vec F S1024x1 .f32) (x5 : Vec F S64x256 .f32)
    (x6 : Vec F S1024x1 .f32) (x7 : Vec F S1x1 .f32) (xi8 : Vec F S1024x256 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ owns (c : Thread nD τ) arg9 fullShare (k1_pay2 (xsl i x3) k1_pay1 x2)) -∗ K ⟨⟩))
      ⊢ wp frame (wpE (defs₀ (F := F)) Variants.none c none) E (cc1__h1_kernel i arg2 harg2 arg3 harg3 arg4 harg4 arg5 harg5 arg6 harg6 arg7 harg7 arg8 harg8 arg9 harg9) K := by
  simp only [cc1__h1_kernel_eq_skeleton]; unfold cc1__h1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; iexact H9
  ipureintro
  sl_unfold_run_names
  rw [read_writes_whole _ _ off_zero, View.readCov_unit_zero (S := S1024x64) _ off_zero]
  simp only [View.readAt_eq_ld, harg2.read_unread, harg3.read_unread, harg4.read_unread, harg5.read_unread,
    harg6.read_unread, harg7.read_unread, harg9.read_unread,
    View.ld_unit_zero (S := S1024x2048) off_zero, View.ld_unit_zero (S := S1024x64) off_zero,
    View.ld_unit_zero (S := S1024x1) off_zero, View.ld_unit_zero (S := S64x256) off_zero,
    View.ld_unit_zero (S := S1x1) off_zero]
  rfl

set_option maxHeartbeats 1000000 in
/-- A middle k-tile (neither first nor last): the product of the `AT` block with the k-tile's rows of `XTs` is added to
    the scratch; the output block is not touched. -/
theorem run1_B (c : Dev nD) (i : grid1.Coords)
    (arg2 : Memref sig .tc .vmem S1024x2048 .f32) (harg2 : arg2.IsWhole)
    (arg3 : Memref sig .tc .vmem S8192x64 .f32) (harg3 : arg3.IsWhole)
    (arg4 : Memref sig .tc .vmem S1024x1 .f32) (harg4 : arg4.IsWhole)
    (arg5 : Memref sig .tc .vmem S64x256 .f32) (harg5 : arg5.IsWhole)
    (arg6 : Memref sig .tc .vmem S1024x1 .f32) (harg6 : arg6.IsWhole)
    (arg7 : Memref sig .tc .vmem S1x1 .f32) (harg7 : arg7.IsWhole)
    (arg8 : Memref sig .tc .vmem S1024x256 .f32) (harg8 : arg8.IsWhole)
    (arg9 : Memref sig .tc .vmem S1024x64 .f32) (harg9 : arg9.IsWhole)
    (hf : ¬cond1_first i) (hl : ¬cond1_last i)
    (x2 : Vec F S1024x2048 .f32) (x3 : Vec F S8192x64 .f32) (x4 : Vec F S1024x1 .f32) (x5 : Vec F S64x256 .f32)
    (x6 : Vec F S1024x1 .f32) (x7 : Vec F S1x1 .f32) (xi8 : Vec F S1024x256 .f32) (xs : Vec F S1024x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ owns (c : Thread nD τ) arg9 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi8 ∗ owns (c : Thread nD τ) arg9 fullShare (k1_pay2 (xsl i x3) xs x2)) -∗ K ⟨⟩))
      ⊢ wp frame (wpE (defs₀ (F := F)) Variants.none c none) E (cc1__h1_kernel i arg2 harg2 arg3 harg3 arg4 harg4 arg5 harg5 arg6 harg6 arg7 harg7 arg8 harg8 arg9 harg9) K := by
  simp only [cc1__h1_kernel_eq_skeleton]; unfold cc1__h1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; iexact H9
  ipureintro
  sl_unfold_run_names
  rw [read_writes_whole _ _ off_zero]
  simp only [View.readAt_eq_ld, harg2.read_unread, harg3.read_unread, harg4.read_unread, harg5.read_unread,
    harg6.read_unread, harg7.read_unread, harg9.read_unread,
    View.ld_unit_zero (S := S1024x2048) off_zero, View.ld_unit_zero (S := S1024x64) off_zero,
    View.ld_unit_zero (S := S1024x1) off_zero, View.ld_unit_zero (S := S64x256) off_zero,
    View.ld_unit_zero (S := S1x1) off_zero]
  rfl

set_option maxHeartbeats 1000000 in
/-- The last k-tile: the product is added to the scratch, and the epilogue of the scratch — scaled by `d`, multiplied by
    `W1`, shifted by `WX` and `b1`, clamped at zero — is stored into the output block, whatever that held. -/
theorem run1_C (c : Dev nD) (i : grid1.Coords)
    (arg2 : Memref sig .tc .vmem S1024x2048 .f32) (harg2 : arg2.IsWhole)
    (arg3 : Memref sig .tc .vmem S8192x64 .f32) (harg3 : arg3.IsWhole)
    (arg4 : Memref sig .tc .vmem S1024x1 .f32) (harg4 : arg4.IsWhole)
    (arg5 : Memref sig .tc .vmem S64x256 .f32) (harg5 : arg5.IsWhole)
    (arg6 : Memref sig .tc .vmem S1024x1 .f32) (harg6 : arg6.IsWhole)
    (arg7 : Memref sig .tc .vmem S1x1 .f32) (harg7 : arg7.IsWhole)
    (arg8 : Memref sig .tc .vmem S1024x256 .f32) (harg8 : arg8.IsWhole)
    (arg9 : Memref sig .tc .vmem S1024x64 .f32) (harg9 : arg9.IsWhole)
    (hf : ¬cond1_first i) (hl : cond1_last i)
    (x2 : Vec F S1024x2048 .f32) (x3 : Vec F S8192x64 .f32) (x4 : Vec F S1024x1 .f32) (x5 : Vec F S64x256 .f32)
    (x6 : Vec F S1024x1 .f32) (x7 : Vec F S1x1 .f32) (xs : Vec F S1024x64 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k1_pay3 x4 (k1_pay2 (xsl i x3) xs x2) x5 x7 x6) ∗ owns (c : Thread nD τ) arg9 fullShare (k1_pay2 (xsl i x3) xs x2)) -∗ K ⟨⟩))
      ⊢ wp frame (wpE (defs₀ (F := F)) Variants.none c none) E (cc1__h1_kernel i arg2 harg2 arg3 harg3 arg4 harg4 arg5 harg5 arg6 harg6 arg7 harg7 arg8 harg8 arg9 harg9) K := by
  simp only [cc1__h1_kernel_eq_skeleton]; unfold cc1__h1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; iexact H8
    ipureintro
    sl_unfold_run_names
    rw [read_writes_whole _ _ off_zero, View.readCov_unit_zero (S := S1024x64) _ off_zero]
    simp only [View.readAt_eq_ld, harg2.read_unread, harg3.read_unread, harg4.read_unread, harg5.read_unread,
    harg6.read_unread, harg7.read_unread, harg9.read_unread,
    View.ld_unit_zero (S := S1024x2048) off_zero, View.ld_unit_zero (S := S1024x64) off_zero,
    View.ld_unit_zero (S := S1024x1) off_zero, View.ld_unit_zero (S := S64x256) off_zero,
    View.ld_unit_zero (S := S1x1) off_zero]
    rfl
  iexists _; isplitr; swap; iexact H9
  ipureintro
  sl_unfold_run_names
  rw [read_writes_whole _ _ off_zero]
  simp only [View.readAt_eq_ld, harg2.read_unread, harg3.read_unread, harg4.read_unread, harg5.read_unread,
    harg6.read_unread, harg7.read_unread, harg9.read_unread,
    View.ld_unit_zero (S := S1024x2048) off_zero, View.ld_unit_zero (S := S1024x64) off_zero,
    View.ld_unit_zero (S := S1024x1) off_zero, View.ld_unit_zero (S := S64x256) off_zero,
    View.ld_unit_zero (S := S1x1) off_zero]
  rfl

end Cert.Kernel.Hand

end
-- ==== Proof.HiddenDataB.lean ====
/- Region 1 — the hidden-layer kernel on its 8 × 4 grid (row tile, contraction tile): for each row tile the scratch
   block accumulates, contraction tile after contraction tile, the products of the 1024 × 2048 adjacency tiles with the
   matching 2048 rows of the scaled feature matrix (reset to zero at contraction tile 0), and at contraction tile 3 the
   output block receives max(0, (d ⊙ acc) · W1 + wx + b1). Here: what the scratch holds after each grid point, as a
   recursion over the points; the region's invariant carrying it; the pipeline's proof data; and the body obligation at
   a generic point, by cases on the contraction tile (first, inner, last). -/
import proofs.«136842_j29557964931141_2_alg».proof.Proof.Gen.Kernel.Launch
import proofs.«136842_j29557964931141_2_alg».proof.Proof.Gen.Kernel.Skeleton
import proofs.«136842_j29557964931141_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«136842_j29557964931141_2_alg».proof.Proof.HiddenBodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The contraction tile of a point, decided over the grid -/

theorem hfirst1 : ∀ t : Fin cfg1.N, cond1_first (grid1.coords t) ↔ t.val % 4 = 0 :=
  (by decide +kernel : ∀ t : Fin grid1.N, cond1_first (grid1.coords t) ↔ t.val % 4 = 0)
theorem hlast1 : ∀ t : Fin cfg1.N, cond1_last (grid1.coords t) ↔ t.val % 4 = 3 :=
  (by decide +kernel : ∀ t : Fin grid1.N, cond1_last (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Before contraction tile 3 the output block is idle: nothing is stored into it and it is not written back. -/
theorem idleAt1_6 : ∀ t : Fin cfg1.N, ¬cond1_last (grid1.coords t) → cfg1.idle 6 (grid1.coords t) = true := by decide +kernel
theorem noFlush1_6 : ∀ t : Fin cfg1.N, ¬cond1_last (grid1.coords t) → (cfg1.win 6).flush t = false := by decide +kernel
theorem liveAt1_6 : ∀ t : Fin cfg1.N, cond1_last (grid1.coords t) → cfg1.idle 6 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .f32 := win1_6.stage (cfg1.slots t 6)
abbrev hs1_6 (t : Fin cfg1.N) : (ms1_6 t).IsWhole := hstage1_6 ((cfg1.slots t 6).cast nbuf1_6)
/-- The scratch block carried from point to point. -/
abbrev scM1 : Memref sig .tc .vmem S1024x64 .f32 := Memref.whole cc1_scratch0

/-! ## What the scratch block holds after each point -/

/-- The accumulated products after point `n`: at contraction tile 0 the tile's product added to zero, afterwards
    added to what the point before left. -/
def acc1 (c : Dev nD) : (n : ℕ) → n < cfg1.N → Vec F S1024x64 .f32
  | 0, hn => k1_pay2 (xsl (grid1.coords ⟨0, hn⟩) (iblk1 V c 1 ⟨0, hn⟩)) (k1_pay1 (F := F)) (iblk1 V c 0 ⟨0, hn⟩)
  | n + 1, hn => if (n + 1) % 4 = 0 then k1_pay2 (xsl (grid1.coords ⟨n + 1, hn⟩) (iblk1 V c 1 ⟨n + 1, hn⟩)) (k1_pay1 (F := F)) (iblk1 V c 0 ⟨n + 1, hn⟩)
      else k1_pay2 (xsl (grid1.coords ⟨n + 1, hn⟩) (iblk1 V c 1 ⟨n + 1, hn⟩)) (acc1 c n (Nat.lt_of_succ_lt hn)) (iblk1 V c 0 ⟨n + 1, hn⟩)

theorem acc1_first (c : Dev nD) (t : Fin cfg1.N) (h : t.val % 4 = 0) :
    acc1 V c t.val t.isLt = k1_pay2 (xsl (grid1.coords t) (iblk1 V c 1 t)) (k1_pay1 (F := F)) (iblk1 V c 0 t) := by
  obtain ⟨n, hn⟩ := t
  cases n with
  | zero => rfl
  | succ n => exact if_pos h

theorem acc1_next (c : Dev nD) (t : Fin cfg1.N) (h : ¬t.val % 4 = 0) :
    acc1 V c t.val t.isLt = k1_pay2 (xsl (grid1.coords t) (iblk1 V c 1 t)) (acc1 V c (t.val - 1) (Nat.lt_of_le_of_lt (Nat.sub_le _ _) t.isLt)) (iblk1 V c 0 t) := by
  obtain ⟨n, hn⟩ := t
  cases n with
  | zero => exact absurd (Nat.zero_mod _) h
  | succ n => exact if_neg h

/-! ## The region's invariant -/

/-- The class invariant with the scratch block as a memref owned at some contents (the other scoped buffers region 1
    does not stage — region 0's — each whole at some contents). -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The invariant before position `n`: before the first point every scratch buffer at anything; afterwards the scratch
    block at the accumulated products the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (acc1 V c (n - 1) (by omega))) ∗ (∃ r, prngReg c r)) := by
  cases n with
  | zero => exact absurd rfl hz
  | succ n => rfl

/-! ## The pipeline's proof data -/

/-- The arrays as the region finds them; after the body every input's buffer still at its block, the output block's
    buffer at max(0, (d ⊙ acc) · W1 + wx + b1) of the accumulated products (read only where it is written back: at
    contraction tile 3); the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (iblk1 V c 2 t) (acc1 V c t.val t.isLt) (iblk1 V c 3 t) (iblk1 V c 5 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay3 (iblk1 V c 2 t) (acc1 V c t.val t.isLt) (iblk1 V c 3 t) (iblk1 V c 5 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. Every input's buffer holds its block; the contraction tile says which case the point is in;
    the invariant hands the body the scratch block at what the point before left (at anything before the first point,
    where the reset overwrites it) and takes it back at this point's accumulated products; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  have hN : t.val < 32 := lt_of_lt_of_eq t.isLt (show cfg1.N = 32 from N_1)
  by_cases hl : t.val % 4 = 3
  · have hf : ¬t.val % 4 = 0 := by omega
    have hz : t.val ≠ 0 := by omega
    rw [show (dat1 V c).leavesExact 6 t = owns (c : Thread nD τ) (ms1_6 t) fullShare ((dat1 V c).after 6 t) from by
      unfold Dat.leavesExact; rw [liveAt1_6 t ((hlast1 t).mpr hl)], after1_6]
    rw [acc1_next V c t hf, PhiS1_castSucc V c t, PhiS1_pos V c _ _ hz]
    iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
    iapply (run1_C c (grid1.coords t) _ _ _ _ _ _ _ _ _ _ _ _ _ _ _ _ (fun h => hf ((hfirst1 t).mp h)) ((hlast1 t).mpr hl) (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Ha Hb Hc Hd He Hg]
    · isplitl [HS Ha Hb Hc Hd He]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 6 t (idleAt1_6 t (fun h => hl ((hlast1 t).mp h))) (noFlush1_6 t (fun h => hl ((hlast1 t).mp h)))]
    by_cases hf : t.val % 4 = 0
    · rw [acc1_first V c t hf]
      by_cases hz : t.val = 0
      · rw [PhiS1_castSucc V c t, PhiS1_zero V c _ _ hz, PhiA1_eq]
        iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
        iapply (run1_A c (grid1.coords t) _ _ _ _ _ _ _ _ _ _ _ _ _ _ _ _ ((hfirst1 t).mpr hf) (fun h => hl ((hlast1 t).mp h)) (iblk1 V c 0 t) (iblk1 V c 1 t) (iblk1 V c 2 t) (iblk1 V c 3 t) (iblk1 V c 4 t) (iblk1 V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HS Ha Hb Hc Hd He Hg]
        · isplitl [HS Ha Hb Hc Hd He]
          · isplitl [Ha]; · iexact Ha
            isplitl [Hb]; · iexact Hb
            isplitl [Hc]; · iexact Hc
            isplitl [Hd]; · iexact Hd
            isplitl [He]; · iexact He
            iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
        iapply (run1_A c (grid1.coords t) _ _ _ _ _ _ _ _ _ _ _ _ _ _ _ _ ((hfirst1 t).mpr hf) (fun h => hl ((hlast1 t).mp h)) (iblk1 V c 0 t) (iblk1 V c 1 t) (iblk1 V c 2 t) (iblk1 V c 3 t) (iblk1 V c 4 t) (iblk1 V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, HS⟩
        isplitl [HS Ha Hb Hc Hd He Hg]
        · isplitl [HS Ha Hb Hc Hd He]
          · isplitl [Ha]; · iexact Ha
            isplitl [Hb]; · iexact Hb
            isplitl [Hc]; · iexact Hc
            isplitl [Hd]; · iexact Hd
            isplitl [He]; · iexact He
            iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := by omega
      rw [acc1_next V c t hf, PhiS1_castSucc V c t, PhiS1_pos V c _ _ hz]
      iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ (fun h => hf ((hfirst1 t).mp h)) (fun h => hl ((hlast1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Ha Hb Hc Hd He Hg]
      · isplitl [HS Ha Hb Hc Hd He]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch block's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

end

end Cert.Kernel.Hand

end
-- ==== Proof.ChainB.lean ====
/- The whole program as a chain of segments: region 0 (the degree kernel), the host stretch that transposes the degree row,
   scales the features and sums the edge products, region 1 (the hidden-layer kernel), and the three host stretches of the
   cross branch and the output. The buffer contents at each boundary are folded through the program — a region replaces
   its arrays by what its pipeline leaves, a host stretch applies its operations — and the launch theorem for several
   regions gives: every weakly fair execution terminates, faulting nowhere, with every unscoped buffer at the last fold. -/
import proofs.«136842_j29557964931141_2_alg».proof.Proof.Gen.Kernel.Launch
import proofs.«136842_j29557964931141_2_alg».proof.Proof.Gen.Kernel.Skeleton
import proofs.«136842_j29557964931141_2_alg».proof.Proof.Gen.Kernel.Points
import proofs.«136842_j29557964931141_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«136842_j29557964931141_2_alg».proof.Proof.DegreeDataB
import proofs.«136842_j29557964931141_2_alg».proof.Proof.HiddenDataB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first host stretch. -/
def W2 (c : Dev nD) : Valuation τ sig (Elt F) := StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the three last host stretches. -/
def W4 (c : Dev nD) : Valuation τ sig (Elt F) := StableHlo.after hostOps2 (W3 m c)
def W5 (c : Dev nD) : Valuation τ sig (Elt F) := StableHlo.after hostOps2_1 (W4 m c)
def W6 (c : Dev nD) : Valuation τ sig (Elt F) := StableHlo.after hostOps2_2 (W5 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W0`, left at `W1`. Its arrays are
    split out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    refine BIBase.Entails.trans (hout0 (V0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are
    split out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    refine BIBase.Entails.trans (hout1 (V2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]

theorem main_run (c : Dev nD) : main (F := F) c = Pipeline.Seg.run (segs m) := (main_chain c).trans (by chain_rfl)

variable (ρ : Dev nD → PrngReg)

set_option backward.isDefEq.respectTransparency.types false in
/-- At the compiled mesh, from any memory with zero counters: every weakly fair execution of the program terminates,
    nothing faulting, and every final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R (F := F) c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Hand

end
-- ==== Proof.ChainArgsB.lean ====
/- The argument arrays through the chain: no host stretch writes an argument, and a region either reads it through an input
   window (whose array it leaves as found) or bypasses it; so the last boundary's contents at an argument are the launch
   contents. -/
import proofs.«136842_j29557964931141_2_alg».proof.Proof.ChainB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A buffer the first host stretch does not write. -/
theorem W2_of (c : Dev nD) (r : Ref sig .tc) (h : r ∉ hostOps1_W) : W2 m c (Proc.devRef .tc r) = W1 m c (Proc.devRef .tc r) := by
  unfold W2; exact StableHlo.after_of_writes_sub hostOps1 _ hostOps1_writes h

/-- A buffer none of the three last host stretches writes. -/
theorem W6_of (c : Dev nD) (r : Ref sig .tc) (h2 : r ∉ hostOps2_W) (h21 : r ∉ hostOps2_1_W) (h22 : r ∉ hostOps2_2_W) :
    W6 m c (Proc.devRef .tc r) = W3 m c (Proc.devRef .tc r) := by
  unfold W6 W5 W4
  exact (StableHlo.after_of_writes_sub hostOps2_2 _ hostOps2_2_writes h22).trans <|
    (StableHlo.after_of_writes_sub hostOps2_1 _ hostOps2_1_writes h21).trans <|
      StableHlo.after_of_writes_sub hostOps2 _ hostOps2_writes h2

/-- An input window's array is left as found, by region 0 -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hw _).trans (A_eq0 (V0 m) c w))
/-- and by region 1. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W6_main_arg0 (c : Dev nD) : W6 m c (Proc.devRef .tc main_arg0) = m ((c : Thread nD τ).loc main_arg0) :=
  (W6_of m c main_arg0 (by decide) (by decide) (by decide)).trans <| (W3_in m c 0 rfl).trans <| (W2_of m c main_arg0 (by decide)).trans <| (W1_in m c 0 rfl).trans rfl
theorem W6_main_arg1 (c : Dev nD) : W6 m c (Proc.devRef .tc main_arg1) = m ((c : Thread nD τ).loc main_arg1) :=
  (W6_of m c main_arg1 (by decide) (by decide) (by decide)).trans <| (W3_of_ne m c main_arg1 (by decide)).trans <| (W2_of m c main_arg1 (by decide)).trans <| (W1_of_ne m c main_arg1 (by decide)).trans rfl
theorem W6_main_arg2 (c : Dev nD) : W6 m c (Proc.devRef .tc main_arg2) = m ((c : Thread nD τ).loc main_arg2) :=
  (W6_of m c main_arg2 (by decide) (by decide) (by decide)).trans <| (W3_of_ne m c main_arg2 (by decide)).trans <| (W2_of m c main_arg2 (by decide)).trans <| (W1_of_ne m c main_arg2 (by decide)).trans rfl
theorem W6_main_arg3 (c : Dev nD) : W6 m c (Proc.devRef .tc main_arg3) = m ((c : Thread nD τ).loc main_arg3) :=
  (W6_of m c main_arg3 (by decide) (by decide) (by decide)).trans <| (W3_of_ne m c main_arg3 (by decide)).trans <| (W2_of m c main_arg3 (by decide)).trans <| (W1_of_ne m c main_arg3 (by decide)).trans rfl
theorem W6_main_arg4 (c : Dev nD) : W6 m c (Proc.devRef .tc main_arg4) = m ((c : Thread nD τ).loc main_arg4) :=
  (W6_of m c main_arg4 (by decide) (by decide) (by decide)).trans <| (W3_in m c 3 rfl).trans <| (W2_of m c main_arg4 (by decide)).trans <| (W1_of_ne m c main_arg4 (by decide)).trans rfl
theorem W6_main_arg5 (c : Dev nD) : W6 m c (Proc.devRef .tc main_arg5) = m ((c : Thread nD τ).loc main_arg5) :=
  (W6_of m c main_arg5 (by decide) (by decide) (by decide)).trans <| (W3_of_ne m c main_arg5 (by decide)).trans <| (W2_of m c main_arg5 (by decide)).trans <| (W1_of_ne m c main_arg5 (by decide)).trans rfl
theorem W6_main_arg6 (c : Dev nD) : W6 m c (Proc.devRef .tc main_arg6) = m ((c : Thread nD τ).loc main_arg6) :=
  (W6_of m c main_arg6 (by decide) (by decide) (by decide)).trans <| (W3_of_ne m c main_arg6 (by decide)).trans <| (W2_of m c main_arg6 (by decide)).trans <| (W1_of_ne m c main_arg6 (by decide)).trans rfl
theorem W6_main_arg7 (c : Dev nD) : W6 m c (Proc.devRef .tc main_arg7) = m ((c : Thread nD τ).loc main_arg7) :=
  (W6_of m c main_arg7 (by decide) (by decide) (by decide)).trans <| (W3_of_ne m c main_arg7 (by decide)).trans <| (W2_of m c main_arg7 (by decide)).trans <| (W1_of_ne m c main_arg7 (by decide)).trans rfl
theorem W6_main_arg8 (c : Dev nD) : W6 m c (Proc.devRef .tc main_arg8) = m ((c : Thread nD τ).loc main_arg8) :=
  (W6_of m c main_arg8 (by decide) (by decide) (by decide)).trans <| (W3_of_ne m c main_arg8 (by decide)).trans <| (W2_of m c main_arg8 (by decide)).trans <| (W1_of_ne m c main_arg8 (by decide)).trans rfl
theorem W6_main_arg9 (c : Dev nD) : W6 m c (Proc.devRef .tc main_arg9) = m ((c : Thread nD τ).loc main_arg9) :=
  (W6_of m c main_arg9 (by decide) (by decide) (by decide)).trans <| (W3_of_ne m c main_arg9 (by decide)).trans <| (W2_of m c main_arg9 (by decide)).trans <| (W1_of_ne m c main_arg9 (by decide)).trans rfl
theorem W6_main_arg10 (c : Dev nD) : W6 m c (Proc.devRef .tc main_arg10) = m ((c : Thread nD τ).loc main_arg10) :=
  (W6_of m c main_arg10 (by decide) (by decide) (by decide)).trans <| (W3_in m c 4 rfl).trans <| (W2_of m c main_arg10 (by decide)).trans <| (W1_of_ne m c main_arg10 (by decide)).trans rfl
theorem W6_main_arg11 (c : Dev nD) : W6 m c (Proc.devRef .tc main_arg11) = m ((c : Thread nD τ).loc main_arg11) :=
  (W6_of m c main_arg11 (by decide) (by decide) (by decide)).trans <| (W3_of_ne m c main_arg11 (by decide)).trans <| (W2_of m c main_arg11 (by decide)).trans <| (W1_of_ne m c main_arg11 (by decide)).trans rfl

end Cert.Kernel.Hand

end
-- ==== Proof.Spec.lean ====
/-
  The specification of the two kernel regions' outputs, program-free: over literal shapes and the extended reals
  (floats at the ideal instance), index by index.

  * `degSpec A` — the row of inverse square roots of the column sums of `A`:
      d[0, j] = rsqrt (∑ i, A[i, j]).
  * `hidSpec A X3 dv W1 b1 wx` — the first hidden layer as the second region computes it:
      H1[i, h] = max ((∑ f, (dv[i,0] * ∑ j, A[i,j] * X3[j,f]) * W1[f,h]) + wx[0,0] + b1[i,0]) 0.
  * the block-sum laws: a sum over `Fin (n*b)` is the sum over the `n` blocks of the `b` entries of each block, and the
    same with the outer sum spelt as the left-nested accumulation `((0 + s 0) + s 1) + …`.
-/
import Idealize.ShloMosaic.PureOps.Ideal
import Idealize.ShloMosaic.Lib.ValueIdx
import Mathlib

noncomputable section

namespace Cert.KernelIdeal.HandValue

open Idealize.ShloMosaic Idealize.ShloMosaic.ValueIdx
open scoped BigOperators

/-- The literal shapes of the arrays: `SAxB` is the matrix shape with `A` rows and `B` columns. -/
abbrev S8192x8192 : Shape := ⟨2, ![8192, 8192]⟩
/-- 8192 rows, 64 columns. -/
abbrev S8192x64 : Shape := ⟨2, ![8192, 64]⟩
/-- 4096 rows, 64 columns. -/
abbrev S4096x64 : Shape := ⟨2, ![4096, 64]⟩
/-- A column of 512 entries. -/
abbrev S512x1 : Shape := ⟨2, ![512, 1]⟩
/-- 64 rows, 256 columns. -/
abbrev S64x256 : Shape := ⟨2, ![64, 256]⟩
/-- 64 rows, 512 columns. -/
abbrev S64x512 : Shape := ⟨2, ![64, 512]⟩
/-- 256 rows, 8192 columns. -/
abbrev S256x8192 : Shape := ⟨2, ![256, 8192]⟩
/-- A row of 64 entries. -/
abbrev S1x64 : Shape := ⟨2, ![1, 64]⟩
/-- A column of 8192 entries. -/
abbrev S8192x1 : Shape := ⟨2, ![8192, 1]⟩
/-- A row of 8192 entries. -/
abbrev S1x8192 : Shape := ⟨2, ![1, 8192]⟩
/-- 8192 rows, 256 columns. -/
abbrev S8192x256 : Shape := ⟨2, ![8192, 256]⟩
/-- One entry, as a 1 × 1 matrix. -/
abbrev S1x1 : Shape := ⟨2, ![1, 1]⟩

/-- The degree row: `d[0, j] = rsqrt (∑ i, A[i, j])`. -/
def degSpec (A : FVec Ideal S8192x8192 .f32) : FVec Ideal S1x8192 .f32 :=
  fun y => Ideal.rsqrt (∑ i : Fin 8192, A (ix2 i (y 1 : Fin 8192)))

/-- The first hidden layer, as accumulated: `max ((∑ f, (dv[i] * ∑ j, A[i,j] * X3[j,f]) * W1[f,h]) + wx + b1[i]) 0`. -/
def hidSpec (A : FVec Ideal S8192x8192 .f32) (X3 : FVec Ideal S8192x64 .f32) (dv : FVec Ideal S8192x1 .f32)
    (W1 : FVec Ideal S64x256 .f32) (b1 : FVec Ideal S8192x1 .f32) (wx : FVec Ideal S1x1 .f32) :
    FVec Ideal S8192x256 .f32 :=
  fun y => max ((∑ f : Fin 64, (dv (ix2 (y 0 : Fin 8192) (0 : Fin 1))
                  * ∑ j : Fin 8192, A (ix2 (y 0 : Fin 8192) j) * X3 (ix2 j f)) * W1 (ix2 f (y 1 : Fin 256)))
                + wx (ix2 (0 : Fin 1) (0 : Fin 1)) + b1 (ix2 (y 0 : Fin 8192) (0 : Fin 1))) 0

/-! ## Sums over blocks -/

section Blocks

variable {M : Type*} [AddCommMonoid M]

/-- Entry `p` of block `r` lies inside `n` blocks of `b` entries. -/
theorem blk_lt {n b : ℕ} (r : Fin n) (p : Fin b) : r.val * b + p.val < n * b :=
  Nat.lt_of_lt_of_le (Nat.add_lt_add_left p.isLt _)
    (by rw [← Nat.succ_mul]; exact Nat.mul_le_mul_right _ r.isLt)

/-- A sum over `n * b` entries is the sum over the `n` blocks of the sums of the `b` entries of each. -/
theorem sum_blocks (n b : ℕ) (f : Fin (n * b) → M) :
    ∑ i, f i = ∑ r : Fin n, ∑ p : Fin b, f ⟨r.val * b + p.val, blk_lt r p⟩ := by
  rw [← (finProdFinEquiv (m := n) (n := b)).sum_comp f, Fintype.sum_prod_type]
  refine Finset.sum_congr rfl fun r _ => Finset.sum_congr rfl fun p _ => congrArg f (Fin.ext ?_)
  show p.val + b * r.val = r.val * b + p.val
  rw [Nat.mul_comm, Nat.add_comm]

/-- The left-nested accumulation `((0 + s 0) + s 1) + … + s (k-1)`. -/
def accFold (s : ℕ → M) : ℕ → M
  | 0 => 0
  | k + 1 => accFold s k + s k

/-- The empty accumulation is zero. -/
@[simp] theorem accFold_zero (s : ℕ → M) : accFold s 0 = 0 := rfl
/-- One more step adds the next term on the right. -/
@[simp] theorem accFold_succ (s : ℕ → M) (k : ℕ) : accFold s (k + 1) = accFold s k + s k := rfl

/-- The left-nested accumulation of the first `k` terms is their sum. -/
theorem accFold_eq_sum (s : ℕ → M) (k : ℕ) : accFold s k = ∑ r ∈ Finset.range k, s r := by
  induction k with
  | zero => rfl
  | succ k ih => rw [accFold_succ, ih, Finset.sum_range_succ]

/-- A sum over `Fin n` is the left-nested accumulation of its terms. -/
theorem sum_eq_accFold (n : ℕ) (s : Fin n → M) :
    ∑ r : Fin n, s r = accFold (fun k => if h : k < n then s ⟨k, h⟩ else 0) n := by
  rw [accFold_eq_sum, ← Fin.sum_univ_eq_sum_range (fun k => if h : k < n then s ⟨k, h⟩ else 0) n]
  exact Finset.sum_congr rfl fun r _ => by rw [dif_pos r.isLt]

/-- The block-sum law with the outer sum accumulated from the left, block after block. -/
theorem sum_blocks_fold (n b : ℕ) (f : Fin (n * b) → M) :
    ∑ i, f i = accFold (fun k => if h : k < n then ∑ p : Fin b, f ⟨k * b + p.val, blk_lt ⟨k, h⟩ p⟩ else 0) n := by
  rw [sum_blocks n b f, sum_eq_accFold]

end Blocks

end Cert.KernelIdeal.HandValue

end
-- ==== Proof.PayloadAt.lean ====
/- THE TWO KERNELS' STORED VALUES, ENTRY BY ENTRY, AT THE IDEAL VALUES (floats are extended reals, no rounding).

   The degree kernel, at column q of its 1 x 2048 row:
     the zero fill                        `k0_pay1`            is 0;
     the accumulation step                `k0_pay2 v3 v4`      is v3[0, q] + sum over the 1024 rows p of v4[p, q]
                                                               (the scratch plus the block's column sum);
     the epilogue                         `k0_pay3 v14`        is rsqrt(v14[y]) at every index y.
   The hidden-layer kernel, at row p:
     the zero fill                        `k1_pay1`            is 0;
     the accumulation step, column f      `k1_pay2 v6 v8 v9`   is v8[p, f] + sum over the 2048 contracted coordinates q of
                                                               v9[p, q] * v6[q, f]
                                                               (the scratch plus the AT block times the XTs slice);
     the epilogue, column c               `k1_pay3 v18 v20 v23 v25 v29`
                                                               is max((sum over the 64 coordinates f of
                                                               (v18[p, 0] * v20[p, f]) * v23[f, c]) + v25[0, 0] + v29[p, 0], 0)
                                                               (the scratch scaled by d, times W1, plus WX, plus b1,
                                                               clamped at zero).
   The sums and products are written in exactly the order the kernels compute them. Behind the two accumulation
   formulas is one fact about a matrix product whose contraction is over one axis: at output (p, c) and contracted
   coordinate k it multiplies the left operand at (p, k) by the right operand at (k, c); and behind the epilogue one fact
   about broadcasting a column: an [a, 1] column broadcast to [a, b] reads, at (p, c), the column at row p. -/
import proofs.«136842_j29557964931141_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-! # The kernels' stored values read at an index, at the ideal values

At `F := Ideal` a float is an extended real and every operation of a payload is the extended reals' own: a lane sum is a
finite sum, a matrix product into a zero accumulator is the sum over the contracted coordinate of the products, a
broadcast reads its operand's one row or column. Each payload of the two kernels is read here at an index given by its
coordinates. -/

/-- A `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The degree kernel -/

/-- The zero fill of the column-sum scratch. -/
theorem k0_pay1_apply (y : S1x2048.Idx) : k0_pay1 (F := Ideal) y = 0 := by
  unfold k0_pay1
  try dsimp only
  rw [shapeCast_self]
  exact Ideal.ofBits_zero_f32

/-- The accumulation step: the scratch plus the block's column sum, column by column. -/
theorem k0_pay2_apply (v3 : Vec Ideal S1x2048 .f32) (v4 : Vec Ideal S1024x2048 .f32) (q : Fin 2048) :
    k0_pay2 (F := Ideal) v3 v4 (ix2 (0 : Fin 1) q) = v3 (ix2 (0 : Fin 1) q) + ∑ p : Fin 1024, v4 (ix2 p q) := by
  unfold k0_pay2
  try dsimp only
  rw [shapeCast_self]
  refine congrArg (v3 (ix2 (0 : Fin 1) q) + ·) ?_
  refine (shapeCast_a_1a_apply _ shapeCasts_S2048_S1x2048 0 q).trans ?_
  refine (Ideal.multiReduction_add_single v4 _ reduces_S1024x2048_S2048 _ _ (ix1 q)).trans ?_
  refine Finset.sum_congr rfl fun p _ => ?_
  exact congrArg v4 (funext fun a => Fin.ext (by match a with | ⟨0, _⟩ => rfl | ⟨1, _⟩ => rfl))

/-- The epilogue: the reciprocal square root, entry by entry. -/
theorem k0_pay3_apply (v14 : Vec Ideal S1x2048 .f32) (y : S1x2048.Idx) :
    k0_pay3 (F := Ideal) v14 y = Ideal.rsqrt (v14 y) := rfl

/-! ## The hidden-layer kernel -/

local notation "DA" => dot_S1024x2048_S2048x64_S1024x64_1_0_0_1_n_n
local notation "DB" => dot_S1024x64_S64x256_S1024x256_1_0_0_1_n_n

/-! The two products' operand indices: at output `(p, c)` and contracted coordinate `k` they are `(p, k)` and `(k, c)`. -/

/-- The left operand's row is the output's row. -/
theorem dotA_lhs0 (j : S1024x64.Idx) (q : (DotDims.contr DA).Idx) : (DotDims.lhsIdx DA j q 0).val = (j 0).val := by
  unfold DotDims.lhsIdx
  rw [dif_neg (show ¬(0 : Fin S1024x2048.rank) ∈ DotDims.lhsBatch DA by decide),
    dif_pos (show (0 : Fin S1024x2048.rank) ∈ DotDims.lhsNonContracting DA by decide)]
  rfl
/-- The left operand's column is the contracted coordinate. -/
theorem dotA_lhs1 (j : S1024x64.Idx) (q : (DotDims.contr DA).Idx) :
    (DotDims.lhsIdx DA j q 1).val = (q ⟨0, by decide⟩).val :=
  DotDims.lhsIdx_val_of_single DA rfl j q
/-- The right operand's row is the contracted coordinate. -/
theorem dotA_rhs0 (j : S1024x64.Idx) (q : (DotDims.contr DA).Idx) :
    (DotDims.rhsIdx DA j q 0).val = (q ⟨0, by decide⟩).val :=
  DotDims.rhsIdx_val_of_single DA rfl j q
/-- The right operand's column is the output's column. -/
theorem dotA_rhs1 (j : S1024x64.Idx) (q : (DotDims.contr DA).Idx) : (DotDims.rhsIdx DA j q 1).val = (j 1).val := by
  unfold DotDims.rhsIdx
  rw [dif_neg (show ¬(1 : Fin S2048x64.rank) ∈ DotDims.rhsBatch DA by decide),
    dif_pos (show (1 : Fin S2048x64.rank) ∈ DotDims.rhsNonContracting DA by decide)]
  rfl

/-- So with the contracted coordinate `k` the left operand is read at `(p, k)` … -/
theorem dotA_lhs (p : Fin 1024) (c : Fin 64) (k : Fin 2048) :
    DotDims.lhsIdx DA (ix2 p c) ((contrEquiv1 DA 2048 rfl rfl).symm k) = ix2 p k := funext fun a => Fin.ext (by
  have hk := contrEquiv1_symm_val DA 2048 rfl rfl k
  match a with
  | ⟨0, _⟩ => exact dotA_lhs0 _ _
  | ⟨1, _⟩ => exact (dotA_lhs1 _ _).trans hk)
/-- … and the right operand at `(k, c)`. -/
theorem dotA_rhs (p : Fin 1024) (c : Fin 64) (k : Fin 2048) :
    DotDims.rhsIdx DA (ix2 p c) ((contrEquiv1 DA 2048 rfl rfl).symm k) = ix2 k c := funext fun a => Fin.ext (by
  have hk := contrEquiv1_symm_val DA 2048 rfl rfl k
  match a with
  | ⟨0, _⟩ => exact (dotA_rhs0 _ _).trans hk
  | ⟨1, _⟩ => exact dotA_rhs1 _ _)

/-- The left operand's row is the output's row. -/
theorem dotB_lhs0 (j : S1024x256.Idx) (q : (DotDims.contr DB).Idx) : (DotDims.lhsIdx DB j q 0).val = (j 0).val := by
  unfold DotDims.lhsIdx
  rw [dif_neg (show ¬(0 : Fin S1024x64.rank) ∈ DotDims.lhsBatch DB by decide),
    dif_pos (show (0 : Fin S1024x64.rank) ∈ DotDims.lhsNonContracting DB by decide)]
  rfl
/-- The left operand's column is the contracted coordinate. -/
theorem dotB_lhs1 (j : S1024x256.Idx) (q : (DotDims.contr DB).Idx) :
    (DotDims.lhsIdx DB j q 1).val = (q ⟨0, by decide⟩).val :=
  DotDims.lhsIdx_val_of_single DB rfl j q
/-- The right operand's row is the contracted coordinate. -/
theorem dotB_rhs0 (j : S1024x256.Idx) (q : (DotDims.contr DB).Idx) :
    (DotDims.rhsIdx DB j q 0).val = (q ⟨0, by decide⟩).val :=
  DotDims.rhsIdx_val_of_single DB rfl j q
/-- The right operand's column is the output's column. -/
theorem dotB_rhs1 (j : S1024x256.Idx) (q : (DotDims.contr DB).Idx) : (DotDims.rhsIdx DB j q 1).val = (j 1).val := by
  unfold DotDims.rhsIdx
  rw [dif_neg (show ¬(1 : Fin S64x256.rank) ∈ DotDims.rhsBatch DB by decide),
    dif_pos (show (1 : Fin S64x256.rank) ∈ DotDims.rhsNonContracting DB by decide)]
  rfl

/-- So with the contracted coordinate `k` the left operand is read at `(p, k)` … -/
theorem dotB_lhs (p : Fin 1024) (c : Fin 256) (k : Fin 64) :
    DotDims.lhsIdx DB (ix2 p c) ((contrEquiv1 DB 64 rfl rfl).symm k) = ix2 p k := funext fun a => Fin.ext (by
  have hk := contrEquiv1_symm_val DB 64 rfl rfl k
  match a with
  | ⟨0, _⟩ => exact dotB_lhs0 _ _
  | ⟨1, _⟩ => exact (dotB_lhs1 _ _).trans hk)
/-- … and the right operand at `(k, c)`. -/
theorem dotB_rhs (p : Fin 1024) (c : Fin 256) (k : Fin 64) :
    DotDims.rhsIdx DB (ix2 p c) ((contrEquiv1 DB 64 rfl rfl).symm k) = ix2 k c := funext fun a => Fin.ext (by
  have hk := contrEquiv1_symm_val DB 64 rfl rfl k
  match a with
  | ⟨0, _⟩ => exact (dotB_rhs0 _ _).trans hk
  | ⟨1, _⟩ => exact dotB_rhs1 _ _)

/-- The accumulation product into the zero accumulator, entry by entry. -/
theorem matmulA_apply (lhs : FVec Ideal S1024x2048 .f32) (rhs : FVec Ideal S2048x64 .f32) (p : Fin 1024) (f : Fin 64) :
    matmul (F := Ideal) DA none lhs rhs (constant S1024x64 .f32 0x00000000#32) (ix2 p f)
      = ∑ q : Fin 2048, lhs (ix2 p q) * rhs (ix2 q f) := by
  refine (Ideal.matmul_constant_zero_apply DA none lhs rhs (ix2 p f)).trans ?_
  rw [← Equiv.sum_comp (contrEquiv1 DA 2048 rfl rfl).symm]
  refine Finset.sum_congr rfl fun k _ => ?_
  rw [dotA_lhs, dotA_rhs]

/-- The epilogue product into the zero accumulator, entry by entry. -/
theorem matmulB_apply (lhs : FVec Ideal S1024x64 .f32) (rhs : FVec Ideal S64x256 .f32) (p : Fin 1024) (c : Fin 256) :
    matmul (F := Ideal) DB none lhs rhs (constant S1024x256 .f32 0x00000000#32) (ix2 p c)
      = ∑ f : Fin 64, lhs (ix2 p f) * rhs (ix2 f c) := by
  refine (Ideal.matmul_constant_zero_apply DB none lhs rhs (ix2 p c)).trans ?_
  rw [← Equiv.sum_comp (contrEquiv1 DB 64 rfl rfl).symm]
  refine Finset.sum_congr rfl fun k _ => ?_
  rw [dotB_lhs, dotB_rhs]

/-- The zero fill of the product scratch. -/
theorem k1_pay1_apply (y : S1024x64.Idx) : k1_pay1 (F := Ideal) y = 0 := by
  unfold k1_pay1
  try dsimp only
  rw [shapeCast_self]
  exact Ideal.ofBits_zero_f32

/-- The accumulation step: the scratch plus the block's product with the k-tile's rows, entry by entry. -/
theorem k1_pay2_apply (v6 : Vec Ideal S2048x64 .f32) (v8 : Vec Ideal S1024x64 .f32) (v9 : Vec Ideal S1024x2048 .f32)
    (p : Fin 1024) (f : Fin 64) :
    k1_pay2 (F := Ideal) v6 v8 v9 (ix2 p f) = v8 (ix2 p f) + ∑ q : Fin 2048, v9 (ix2 p q) * v6 (ix2 q f) := by
  unfold k1_pay2
  try dsimp only
  rw [shapeCast_self, shapeCast_self]
  exact congrArg (v8 (ix2 p f) + ·) (matmulA_apply v9 v6 p f)

/-- The epilogue: the scratch scaled row by row, multiplied by the weights, shifted by the two biases and clamped at
    zero, entry by entry. -/
theorem k1_pay3_apply (v18 : Vec Ideal S1024x1 .f32) (v20 : Vec Ideal S1024x64 .f32) (v23 : Vec Ideal S64x256 .f32)
    (v25 : Vec Ideal S1x1 .f32) (v29 : Vec Ideal S1024x1 .f32) (p : Fin 1024) (c : Fin 256) :
    k1_pay3 (F := Ideal) v18 v20 v23 v25 v29 (ix2 p c)
      = max ((∑ f : Fin 64, (v18 (ix2 p (0 : Fin 1)) * v20 (ix2 p f)) * v23 (ix2 f c))
          + v25 (ix2 (0 : Fin 1) (0 : Fin 1)) + v29 (ix2 p (0 : Fin 1))) 0 := by
  unfold k1_pay3
  try dsimp only
  rw [shapeCast_self]
  refine (maximumf_apply _ _ _).trans (congrArg₂ max ?_ Ideal.ofBits_zero_f32)
  refine (addf_apply _ _ _).trans (congrArg₂ (· + ·) ((addf_apply _ _ _).trans (congrArg₂ (· + ·) ?_ ?_)) ?_)
  · refine (matmulB_apply _ v23 p c).trans (Finset.sum_congr rfl fun f _ => ?_)
    refine congrArg (· * v23 (ix2 f c)) ?_
    refine (mulf_apply _ _ _).trans ?_
    exact congrArg (· * v20 (ix2 p f)) (broadcastTo_a1_ab_apply v18 broadcasts_S1024x1_S1024x64 p f)
  · exact congrArg v25 (funext fun a => Fin.ext (by match a with | ⟨0, _⟩ => rfl | ⟨1, _⟩ => rfl))
  · exact broadcastTo_a1_ab_apply v29 broadcasts_S1024x1_S1024x256 p c

end Cert.KernelIdeal.Hand

end
-- ==== Proof.DegreeValue.lean ====
/- Region 0's result as one function of the adjacency matrix. The tile at grid point t is rows 1024·(t mod 8) … and columns
   2048·(t div 8) … of the matrix; after point t the scratch row holds, at column q of the tile, the sum of the matrix's
   entries in that column over the first (t mod 8) + 1 row tiles (induction over the points); at row tile 7 that is the whole
   column sum, whose reciprocal square root is written back to columns 2048·(t div 8) … of the degree row; the four
   column tiles cover the row. -/
import proofs.«136842_j29557964931141_2_alg».proof.Proof.DegreeData
import proofs.«136842_j29557964931141_2_alg».proof.Proof.Spec
import Idealize.ShloMosaic.Lib.Pipeline.Value
import Idealize.ShloMosaic.Lib.ValueIdx
import Idealize.ShloMosaic.PureOps.Ideal.Laws
import proofs.«136842_j29557964931141_2_alg».proof.Proof.PayloadAt

set_option maxRecDepth 16384

noncomputable section

namespace Cert.KernelIdeal.Hand

open Cert.KernelIdeal Cert.KernelIdeal.Gen Cert.KernelIdeal.HandValue
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## Where a tile sits in the matrix -/

theorem idxIn0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem idxOut0 : ∀ t : Fin cfg0.N, win0_1.index t 0 = 0 ∧ win0_1.index t 1 = t.val / 8 :=
  (by decide +kernel : ∀ t : Fin grid0.N, win0_1.index t 0 = 0 ∧ win0_1.index t 1 = t.val / 8)

/-- The tile at point `t` is rows `1024·(t mod 8) …` and columns `2048·(t div 8) …` of the matrix. -/
theorem iblk0_apply (c : Dev nD) (t : Fin cfg0.N) (x : S1024x2048.Idx) (k : S8192x8192.Idx)
    (hk0 : (k 0).val = (t.val % 8) * 1024 + (x 0).val) (hk1 : (k 1).val = (t.val / 8) * 2048 + (x 1).val) :
    (iblk0 V c 0 t : Vec Ideal S1024x2048 .f32) x = (V c main_arg0 : S8192x8192.Idx → Elt Ideal .f32) k := by
  unfold iblk0
  rw [View.read_apply]
  show V c main_arg0 _ = V c main_arg0 _
  congr 1
  funext a
  apply Fin.ext
  match a with
  | ⟨0, _⟩ => show win0_0.index t 0 * 1024 + 1 * (x 0).val = (k 0).val; rw [(idxIn0 t).1, hk0]; omega
  | ⟨1, _⟩ => show win0_0.index t 1 * 2048 + 1 * (x 1).val = (k 1).val; rw [(idxIn0 t).2, hk1]; omega

/-- The adjacency matrix as region 0 finds it. -/
abbrev adj0 (c : Dev nD) : FVec Ideal S8192x8192 .f32 := V c main_arg0

/-! ## The partial column sums -/

/-- The matrix read at natural-number coordinates (zero outside it). -/
def adjAt (A : S8192x8192.Idx → EReal) (i j : ℕ) : EReal :=
  if h : i < 8192 ∧ j < 8192 then A (ix2 ⟨i, h.1⟩ ⟨j, h.2⟩) else 0

theorem adjAt_of_lt (A : S8192x8192.Idx → EReal) (i j : ℕ) (hi : i < 8192) (hj : j < 8192) :
    adjAt A i j = A (ix2 ⟨i, hi⟩ ⟨j, hj⟩) := dif_pos ⟨hi, hj⟩

/-- The tile at point `n`, read at `(p, q)`, is the matrix at row `(n mod 8)·1024 + p`, column `(n div 8)·2048 + q`. -/
theorem iblk0_adjAt (c : Dev nD) (n : ℕ) (hn : n < cfg0.N) (p : Fin 1024) (q : Fin 2048) :
    (iblk0 V c 0 ⟨n, hn⟩ : Vec Ideal S1024x2048 .f32) (ix2 p q) = adjAt (adj0 V c) ((n % 8) * 1024 + p.val) ((n / 8) * 2048 + q.val) := by
  have hN : n < 32 := lt_of_lt_of_eq hn (show cfg0.N = 32 from N_0)
  have hi : (n % 8) * 1024 + p.val < 8192 := by have := p.isLt; omega
  have hj : (n / 8) * 2048 + q.val < 8192 := by have := q.isLt; omega
  rw [adjAt_of_lt _ _ _ hi hj]
  exact iblk0_apply V c ⟨n, hn⟩ (ix2 p q) _ rfl rfl

/-- After point `n` the scratch row holds, at column `q` of the tile, the matrix's column summed over the first
    `(n mod 8) + 1` row tiles. -/
theorem acc0_apply (c : Dev nD) : ∀ (n : ℕ) (hn : n < cfg0.N) (q : Fin 2048),
    (acc0 V c n hn : Vec Ideal S1x2048 .f32) (ix2 (0 : Fin 1) q)
      = ∑ r ∈ Finset.range (n % 8 + 1), ∑ p : Fin 1024, adjAt (adj0 V c) (r * 1024 + p.val) ((n / 8) * 2048 + q.val) := by
  intro n
  induction n with
  | zero =>
    intro hn q
    show k0_pay2 (F := Ideal) (k0_pay1 (F := Ideal)) (iblk0 V c 0 ⟨0, hn⟩) (ix2 (0 : Fin 1) q) = _
    rw [k0_pay2_apply, k0_pay1_apply, zero_add]
    simp only [Nat.zero_mod, Nat.zero_div, zero_add, Finset.sum_range_one]
    exact Finset.sum_congr rfl fun p _ => by simpa using iblk0_adjAt V c 0 hn p q
  | succ n ih =>
    intro hn q
    have hN : n + 1 < 32 := lt_of_lt_of_eq hn (show cfg0.N = 32 from N_0)
    by_cases h : (n + 1) % 8 = 0
    · rw [acc0_first V c ⟨n + 1, hn⟩ h, k0_pay2_apply, k0_pay1_apply, zero_add, h]
      simp only [zero_add, Finset.sum_range_one]
      exact Finset.sum_congr rfl fun p _ => by simpa [h] using iblk0_adjAt V c (n + 1) hn p q
    · rw [acc0_next V c ⟨n + 1, hn⟩ h, k0_pay2_apply]
      have e1 : (n + 1) % 8 = n % 8 + 1 := by omega
      have e2 : (n + 1) / 8 = n / 8 := by omega
      show (acc0 V c n _ : Vec Ideal S1x2048 .f32) (ix2 (0 : Fin 1) q) + _ = _
      rw [ih _ q, e1, e2, Finset.sum_range_succ (n := n % 8 + 1)]
      congr 1
      exact Finset.sum_congr rfl fun p _ => by simpa [e1, e2] using iblk0_adjAt V c (n + 1) hn p q

/-! ## The last row tile: the whole column sum, and the write-back -/

/-- At row tile 7 the scratch row holds, at column `q` of the tile, the matrix's whole column sum. -/
theorem colsum_last (c : Dev nD) (t : Fin cfg0.N) (h7 : t.val % 8 = 7) (q : Fin 2048) (hj : (t.val / 8) * 2048 + q.val < 8192) :
    (acc0 V c t.val t.isLt : Vec Ideal S1x2048 .f32) (ix2 (0 : Fin 1) q)
      = ∑ i : Fin 8192, adj0 V c (ix2 i ⟨(t.val / 8) * 2048 + q.val, hj⟩) := by
  have e : t.val % 8 + 1 = 8 := by omega
  rw [acc0_apply V c t.val t.isLt q, e,
    Finset.sum_range (fun r => ∑ p : Fin 1024, adjAt (adj0 V c) (r * 1024 + p.val) ((t.val / 8) * 2048 + q.val))]
  have hb := sum_blocks 8 1024 (fun i : Fin (8 * 1024) => adjAt (adj0 V c) i.val ((t.val / 8) * 2048 + q.val))
  refine hb.symm.trans ?_
  show ∑ i : Fin 8192, adjAt (adj0 V c) i.val ((t.val / 8) * 2048 + q.val) = _
  exact Finset.sum_congr rfl fun (i : Fin 8192) _ => adjAt_of_lt _ _ _ i.isLt hj

theorem sizeOut0 : ∀ t : Fin cfg0.N, win0_1.xsize (grid0.coords t) 0 = 1 ∧ win0_1.xsize (grid0.coords t) 1 = 2048 :=
  (by decide +kernel : ∀ t : Fin grid0.N, win0_1.xsize (grid0.coords t) 0 = 1 ∧ win0_1.xsize (grid0.coords t) 1 = 2048)

/-- What row tile 7 writes back is the degree row's block: the reciprocal square roots of the whole column sums. -/
theorem flushed0_eq (c : Dev nD) (t : Fin cfg0.N) (hf : (cfg0.win 1).flush t = true) :
    (dat0 V c).flushed 1 t = ((cfg0.win 1).blk t).view.read (Elt Ideal) (degSpec (adj0 V c)) := by
  have h7 : t.val % 8 = 7 := (flush0_1 t).mp hf
  have hN : t.val < 32 := lt_of_lt_of_eq t.isLt (show cfg0.N = 32 from N_0)
  show (cfg0.win 1).cut (grid0.coords t) ((dat0 V c).after 1 t) = _
  rw [after0_1]
  funext y
  rw [View.read_apply]
  obtain ⟨y0, q, rfl⟩ : ∃ (y0 : Fin 1) (q : Fin 2048), (y : S1x2048.Idx) = ix2 y0 q := ⟨y 0, y 1, eq_ix2 y⟩
  obtain rfl : y0 = 0 := Subsingleton.elim _ _
  have hj : (t.val / 8) * 2048 + q.val < 8192 := by have := q.isLt; omega
  show k0_pay3 (F := Ideal) (acc0 V c t.val t.isLt) (ix2 (0 : Fin 1) q) = degSpec (adj0 V c) _
  rw [k0_pay3_apply, colsum_last V c t h7 q hj]
  unfold degSpec
  refine congrArg Ideal.rsqrt (Finset.sum_congr rfl fun (i : Fin 8192) _ => congrArg (adj0 V c) ?_)
  funext a
  match a with
  | ⟨0, _⟩ => rfl
  | ⟨1, _⟩ =>
    apply Fin.ext
    show (t.val / 8) * 2048 + q.val = win0_1.index t 1 * 2048 + 1 * q.val
    rw [(idxOut0 t).2]; omega

/-- The degree row after region 0: the reciprocal square roots of the matrix's column sums (the four column tiles'
    write-backs cover the row). -/
theorem final0 (c : Dev nD) : (dat0 V c).arrAt 1 cfg0.N = degSpec (adj0 V c) :=
  (dat0 V c).arrAt_eq_of_cover 1 (degSpec (adj0 V c)) (flushed0_eq V c) fun i => by
    have h0 : (i 0 : ℕ) < 1 := (i 0).isLt
    have h1 : (i 1 : ℕ) < 8192 := (i 1).isLt
    have hN : cfg0.N = 32 := N_0
    have ht : 8 * ((i 1 : ℕ) / 2048) + 7 < cfg0.N := by rw [hN]; omega
    refine ⟨⟨8 * ((i 1 : ℕ) / 2048) + 7, ht⟩, (flush0_1 _).mpr (by show (8 * ((i 1 : ℕ) / 2048) + 7) % 8 = 7; omega), ?_⟩
    show i ∈ ((View.whole main_v0).slice (win0_1.rect ⟨8 * ((i 1 : ℕ) / 2048) + 7, ht⟩)).set
    rw [View.set_slice_whole, Rect.mem_set_unit]
    intro a
    match a with
    | ⟨0, _⟩ =>
      show win0_1.index ⟨_, ht⟩ 0 * 1 ≤ (i 0 : ℕ) ∧ (i 0 : ℕ) < win0_1.index ⟨_, ht⟩ 0 * 1 + win0_1.xsize (grid0.coords ⟨_, ht⟩) 0
      rw [(idxOut0 ⟨_, ht⟩).1, (sizeOut0 ⟨_, ht⟩).1]; omega
    | ⟨1, _⟩ =>
      show win0_1.index ⟨_, ht⟩ 1 * 2048 ≤ (i 1 : ℕ) ∧ (i 1 : ℕ) < win0_1.index ⟨_, ht⟩ 1 * 2048 + win0_1.xsize (grid0.coords ⟨_, ht⟩) 1
      rw [(idxOut0 ⟨_, ht⟩).2, (sizeOut0 ⟨_, ht⟩).2]
      show (8 * ((i 1 : ℕ) / 2048) + 7) / 8 * 2048 ≤ (i 1 : ℕ) ∧ (i 1 : ℕ) < (8 * ((i 1 : ℕ) / 2048) + 7) / 8 * 2048 + 2048
      omega

end Cert.KernelIdeal.Hand

end
-- ==== Proof.HiddenValue.lean ====
/- Region 1's result as one function of its operands. The adjacency tile at grid point t is rows 1024·(t div 4) … and
   columns 2048·(t mod 4) … of the matrix; the scaled features are resident whole and the body reads their rows
   2048·(t mod 4) …; after point t the scratch block holds, at (p, f), the sum over the first (t mod 4) + 1 contraction
   tiles of the products of row 1024·(t div 4) + p of the matrix with column f of the scaled features (induction over
   the points); at contraction tile 3 that is the whole product, and max(0, (d ⊙ acc) · W1 + wx + b1) is written back to
   rows 1024·(t div 4) … of the result; the eight row tiles cover it. -/
import proofs.«136842_j29557964931141_2_alg».proof.Proof.HiddenData
import proofs.«136842_j29557964931141_2_alg».proof.Proof.Spec
import Idealize.ShloMosaic.Lib.Pipeline.Value
import Idealize.ShloMosaic.Lib.ValueIdx
import Idealize.ShloMosaic.PureOps.Ideal.Laws
import proofs.«136842_j29557964931141_2_alg».proof.Proof.PayloadAt

set_option maxRecDepth 16384

noncomputable section

namespace Cert.KernelIdeal.Hand

open Cert.KernelIdeal Cert.KernelIdeal.Gen Cert.KernelIdeal.HandValue
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## Where the blocks sit in their arrays -/

theorem coords1 : ∀ t : Fin cfg1.N, ((grid1.coords t) 0).val = t.val / 4 ∧ ((grid1.coords t) 1).val = t.val % 4 :=
  (by decide +kernel : ∀ t : Fin grid1.N, ((grid1.coords t) 0).val = t.val / 4 ∧ ((grid1.coords t) 1).val = t.val % 4)
theorem idx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = t.val / 4 ∧ win1_2.index t 1 = 0 :=
  (by decide +kernel : ∀ t : Fin grid1.N, win1_2.index t 0 = t.val / 4 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = t.val / 4 ∧ win1_4.index t 1 = 0 :=
  (by decide +kernel : ∀ t : Fin grid1.N, win1_4.index t 0 = t.val / 4 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = t.val / 4 ∧ win1_6.index t 1 = 0 :=
  (by decide +kernel : ∀ t : Fin grid1.N, win1_6.index t 0 = t.val / 4 ∧ win1_6.index t 1 = 0)
theorem sizeOut1 : ∀ t : Fin cfg1.N, win1_6.xsize (grid1.coords t) 0 = 1024 ∧ win1_6.xsize (grid1.coords t) 1 = 256 :=
  (by decide +kernel : ∀ t : Fin grid1.N, win1_6.xsize (grid1.coords t) 0 = 1024 ∧ win1_6.xsize (grid1.coords t) 1 = 256)

/-- The adjacency tile at point `t`: rows `1024·(t div 4) …`, columns `2048·(t mod 4) …` of the matrix. -/
theorem iblk1_0_apply (c : Dev nD) (t : Fin cfg1.N) (x : S1024x2048.Idx) (k : S8192x8192.Idx)
    (hk0 : (k 0).val = (t.val / 4) * 1024 + (x 0).val) (hk1 : (k 1).val = (t.val % 4) * 2048 + (x 1).val) :
    (iblk1 V c 0 t : Vec Ideal S1024x2048 .f32) x = (V c main_arg0 : S8192x8192.Idx → Elt Ideal .f32) k := by
  unfold iblk1
  rw [View.read_apply]
  show V c main_arg0 _ = V c main_arg0 _
  congr 1
  funext a
  apply Fin.ext
  match a with
  | ⟨0, _⟩ => show win1_0.index t 0 * 1024 + 1 * (x 0).val = (k 0).val; rw [(idx1_0 t).1, hk0]; omega
  | ⟨1, _⟩ => show win1_0.index t 1 * 2048 + 1 * (x 1).val = (k 1).val; rw [(idx1_0 t).2, hk1]; omega

/-- The scaled features are resident whole. -/
theorem iblk1_1_apply (c : Dev nD) (t : Fin cfg1.N) (x : S8192x64.Idx) :
    (iblk1 V c 1 t : Vec Ideal S8192x64 .f32) x = (V c main_v3 : S8192x64.Idx → Elt Ideal .f32) x := by
  unfold iblk1
  rw [View.read_apply]
  show V c main_v3 _ = V c main_v3 _
  congr 1
  funext a
  apply Fin.ext
  match a with
  | ⟨0, _⟩ => show win1_1.index t 0 * 8192 + 1 * (x 0).val = (x 0).val; rw [(idx1_1 t).1]; omega
  | ⟨1, _⟩ => show win1_1.index t 1 * 64 + 1 * (x 1).val = (x 1).val; rw [(idx1_1 t).2]; omega

/-- The degree column's block: rows `1024·(t div 4) …`. -/
theorem iblk1_2_apply (c : Dev nD) (t : Fin cfg1.N) (x : S1024x1.Idx) (k : S8192x1.Idx)
    (hk0 : (k 0).val = (t.val / 4) * 1024 + (x 0).val) :
    (iblk1 V c 2 t : Vec Ideal S1024x1 .f32) x = (V c main_v1 : S8192x1.Idx → Elt Ideal .f32) k := by
  unfold iblk1
  rw [View.read_apply]
  show V c main_v1 _ = V c main_v1 _
  congr 1
  funext a
  apply Fin.ext
  match a with
  | ⟨0, _⟩ => show win1_2.index t 0 * 1024 + 1 * (x 0).val = (k 0).val; rw [(idx1_2 t).1, hk0]; omega
  | ⟨1, _⟩ => show win1_2.index t 1 * 1 + 1 * (x 1).val = (k 1).val; rw [(idx1_2 t).2]; have h1 : (x 1 : ℕ) < 1 := (x 1).isLt; have h2 : (k 1 : ℕ) < 1 := (k 1).isLt; omega

/-- The first weight matrix is resident whole. -/
theorem iblk1_3_apply (c : Dev nD) (t : Fin cfg1.N) (x : S64x256.Idx) :
    (iblk1 V c 3 t : Vec Ideal S64x256 .f32) x = (V c main_arg4 : S64x256.Idx → Elt Ideal .f32) x := by
  unfold iblk1
  rw [View.read_apply]
  show V c main_arg4 _ = V c main_arg4 _
  congr 1
  funext a
  apply Fin.ext
  match a with
  | ⟨0, _⟩ => show win1_3.index t 0 * 64 + 1 * (x 0).val = (x 0).val; rw [(idx1_3 t).1]; omega
  | ⟨1, _⟩ => show win1_3.index t 1 * 256 + 1 * (x 1).val = (x 1).val; rw [(idx1_3 t).2]; omega

/-- The bias column's block: rows `1024·(t div 4) …`. -/
theorem iblk1_4_apply (c : Dev nD) (t : Fin cfg1.N) (x : S1024x1.Idx) (k : S8192x1.Idx)
    (hk0 : (k 0).val = (t.val / 4) * 1024 + (x 0).val) :
    (iblk1 V c 4 t : Vec Ideal S1024x1 .f32) x = (V c main_arg10 : S8192x1.Idx → Elt Ideal .f32) k := by
  unfold iblk1
  rw [View.read_apply]
  show V c main_arg10 _ = V c main_arg10 _
  congr 1
  funext a
  apply Fin.ext
  match a with
  | ⟨0, _⟩ => show win1_4.index t 0 * 1024 + 1 * (x 0).val = (k 0).val; rw [(idx1_4 t).1, hk0]; omega
  | ⟨1, _⟩ => show win1_4.index t 1 * 1 + 1 * (x 1).val = (k 1).val; rw [(idx1_4 t).2]; have h1 : (x 1 : ℕ) < 1 := (x 1).isLt; have h2 : (k 1 : ℕ) < 1 := (k 1).isLt; omega

/-- The edge scalar is resident whole. -/
theorem iblk1_5_apply (c : Dev nD) (t : Fin cfg1.N) (x : S1x1.Idx) :
    (iblk1 V c 5 t : Vec Ideal S1x1 .f32) x = (V c main_v6 : S1x1.Idx → Elt Ideal .f32) x := by
  unfold iblk1
  rw [View.read_apply]
  show V c main_v6 _ = V c main_v6 _
  congr 1
  funext a
  apply Fin.ext
  match a with
  | ⟨0, _⟩ => show win1_5.index t 0 * 1 + 1 * (x 0).val = (x 0).val; rw [(idx1_5 t).1]; omega
  | ⟨1, _⟩ => show win1_5.index t 1 * 1 + 1 * (x 1).val = (x 1).val; rw [(idx1_5 t).2]; omega

/-! ## The partial products -/

/-- The matrix and the scaled features read at natural-number coordinates (zero outside). -/
def adjAt1 (A : S8192x8192.Idx → EReal) (i j : ℕ) : EReal :=
  if h : i < 8192 ∧ j < 8192 then A (ix2 ⟨i, h.1⟩ ⟨j, h.2⟩) else 0
def featAt (X : S8192x64.Idx → EReal) (j : ℕ) (f : Fin 64) : EReal :=
  if h : j < 8192 then X (ix2 ⟨j, h⟩ f) else 0

theorem adjAt1_of_lt (A : S8192x8192.Idx → EReal) (i j : ℕ) (hi : i < 8192) (hj : j < 8192) :
    adjAt1 A i j = A (ix2 ⟨i, hi⟩ ⟨j, hj⟩) := dif_pos ⟨hi, hj⟩
theorem featAt_of_lt (X : S8192x64.Idx → EReal) (j : ℕ) (f : Fin 64) (hj : j < 8192) :
    featAt X j f = X (ix2 ⟨j, hj⟩ f) := dif_pos hj

/-- The adjacency tile and the rows of the scaled features the body reads at point `t`. -/
abbrev blkA (c : Dev nD) (t : Fin cfg1.N) : FVec Ideal S1024x2048 .f32 := iblk1 V c 0 t
abbrev blkX (c : Dev nD) (t : Fin cfg1.N) : FVec Ideal S2048x64 .f32 := xsl (grid1.coords t) (iblk1 V c 1 t)
abbrev adj1 (c : Dev nD) : FVec Ideal S8192x8192 .f32 := V c main_arg0
abbrev feat1 (c : Dev nD) : FVec Ideal S8192x64 .f32 := V c main_v3

/-- One point's contribution: the tile's row `p` times the matching rows of the scaled features, column `f`. -/
theorem step1_apply (c : Dev nD) (n : ℕ) (hn : n < cfg1.N) (p : Fin 1024) (f : Fin 64) :
    ∑ q : Fin 2048, blkA V c ⟨n, hn⟩ (ix2 p q) * blkX V c ⟨n, hn⟩ (ix2 q f)
      = ∑ q : Fin 2048, adjAt1 (adj1 V c) ((n / 4) * 1024 + p.val) ((n % 4) * 2048 + q.val)
          * featAt (feat1 V c) ((n % 4) * 2048 + q.val) f := by
  have hN : n < 32 := lt_of_lt_of_eq hn (show cfg1.N = 32 from N_1)
  refine Finset.sum_congr rfl fun q _ => ?_
  have hi : (n / 4) * 1024 + p.val < 8192 := by have := p.isLt; omega
  have hj : (n % 4) * 2048 + q.val < 8192 := by have := q.isLt; omega
  have hc : ((grid1.coords ⟨n, hn⟩) 1).val = n % 4 := (coords1 ⟨n, hn⟩).2
  have hj' : 2048 * ((grid1.coords ⟨n, hn⟩) 1).val + q.val < 8192 := by rw [hc]; omega
  rw [adjAt1_of_lt _ _ _ hi hj, featAt_of_lt _ _ _ hj]
  have eA : blkA V c ⟨n, hn⟩ (ix2 p q) = adj1 V c (ix2 ⟨_, hi⟩ ⟨_, hj⟩) :=
    iblk1_0_apply V c ⟨n, hn⟩ (ix2 p q) (ix2 ⟨_, hi⟩ ⟨_, hj⟩) rfl rfl
  have eX : blkX V c ⟨n, hn⟩ (ix2 q f) = feat1 V c (ix2 ⟨_, hj⟩ f) := by
    refine (xsl_apply_row _ _ q f hj').trans ((iblk1_1_apply V c ⟨n, hn⟩ _).trans (congrArg (feat1 V c) ?_))
    funext a
    match a with
    | ⟨0, _⟩ => apply Fin.ext; show 2048 * ((grid1.coords ⟨n, hn⟩) 1).val + q.val = (n % 4) * 2048 + q.val; rw [hc]; omega
    | ⟨1, _⟩ => rfl
  rw [eA, eX]

/-- After point `n` the scratch block holds, at `(p, f)`, the products summed over the first `(n mod 4) + 1`
    contraction tiles. -/
theorem acc1_apply (c : Dev nD) : ∀ (n : ℕ) (hn : n < cfg1.N) (p : Fin 1024) (f : Fin 64),
    (acc1 V c n hn : Vec Ideal S1024x64 .f32) (ix2 p f)
      = ∑ k ∈ Finset.range (n % 4 + 1), ∑ q : Fin 2048,
          adjAt1 (adj1 V c) ((n / 4) * 1024 + p.val) (k * 2048 + q.val) * featAt (feat1 V c) (k * 2048 + q.val) f := by
  intro n
  induction n with
  | zero =>
    intro hn p f
    show k1_pay2 (F := Ideal) (xsl (grid1.coords ⟨0, hn⟩) (iblk1 V c 1 ⟨0, hn⟩)) (k1_pay1 (F := Ideal)) (iblk1 V c 0 ⟨0, hn⟩) (ix2 p f) = _
    rw [k1_pay2_apply, k1_pay1_apply, zero_add]
    refine (step1_apply V c 0 hn p f).trans ?_
    simp only [Nat.zero_mod, Nat.zero_div, zero_add, Finset.sum_range_one, Nat.zero_mul]
  | succ n ih =>
    intro hn p f
    have hN : n + 1 < 32 := lt_of_lt_of_eq hn (show cfg1.N = 32 from N_1)
    by_cases h : (n + 1) % 4 = 0
    · rw [acc1_first V c ⟨n + 1, hn⟩ h, k1_pay2_apply, k1_pay1_apply, zero_add]
      refine (step1_apply V c (n + 1) hn p f).trans ?_
      rw [h]
      simp only [zero_add, Finset.sum_range_one, Nat.zero_mul]
    · rw [acc1_next V c ⟨n + 1, hn⟩ h, k1_pay2_apply]
      have e1 : (n + 1) % 4 = n % 4 + 1 := by omega
      have e2 : (n + 1) / 4 = n / 4 := by omega
      show (acc1 V c n _ : Vec Ideal S1024x64 .f32) (ix2 p f) + (∑ q : Fin 2048, blkA V c ⟨n + 1, hn⟩ (ix2 p q) * blkX V c ⟨n + 1, hn⟩ (ix2 q f)) = _
      rw [ih _ p f, step1_apply V c (n + 1) hn p f, e1, e2, Finset.sum_range_succ (n := n % 4 + 1)]

/-! ## The last contraction tile: the whole product, and the write-back -/

/-- At contraction tile 3 the scratch block holds the whole product of the matrix's row with the features' column. -/
theorem prod_last (c : Dev nD) (t : Fin cfg1.N) (h3 : t.val % 4 = 3) (p : Fin 1024) (f : Fin 64) (hi : (t.val / 4) * 1024 + p.val < 8192) :
    (acc1 V c t.val t.isLt : Vec Ideal S1024x64 .f32) (ix2 p f)
      = ∑ j : Fin 8192, adj1 V c (ix2 ⟨(t.val / 4) * 1024 + p.val, hi⟩ j) * feat1 V c (ix2 j f) := by
  have e : t.val % 4 + 1 = 4 := by omega
  rw [acc1_apply V c t.val t.isLt p f, e,
    Finset.sum_range (fun k => ∑ q : Fin 2048, adjAt1 (adj1 V c) ((t.val / 4) * 1024 + p.val) (k * 2048 + q.val) * featAt (feat1 V c) (k * 2048 + q.val) f)]
  have hb := sum_blocks 4 2048 (fun j : Fin (4 * 2048) => adjAt1 (adj1 V c) ((t.val / 4) * 1024 + p.val) j.val * featAt (feat1 V c) j.val f)
  refine hb.symm.trans ?_
  show ∑ j : Fin 8192, adjAt1 (adj1 V c) ((t.val / 4) * 1024 + p.val) j.val * featAt (feat1 V c) j.val f = _
  exact Finset.sum_congr rfl fun (j : Fin 8192) _ => by rw [adjAt1_of_lt _ _ _ hi j.isLt, featAt_of_lt _ _ _ j.isLt]

/-- The other operands as region 1 finds them. -/
abbrev deg1 (c : Dev nD) : FVec Ideal S8192x1 .f32 := V c main_v1
abbrev w1 (c : Dev nD) : FVec Ideal S64x256 .f32 := V c main_arg4
abbrev bias1 (c : Dev nD) : FVec Ideal S8192x1 .f32 := V c main_arg10
abbrev edge1 (c : Dev nD) : FVec Ideal S1x1 .f32 := V c main_v6

/-- What contraction tile 3 writes back is the hidden layer's block of rows. -/
theorem flushed1_eq (c : Dev nD) (t : Fin cfg1.N) (hf : (cfg1.win 6).flush t = true) :
    (dat1 V c).flushed 6 t = ((cfg1.win 6).blk t).view.read (Elt Ideal)
      (hidSpec (adj1 V c) (feat1 V c) (deg1 V c) (w1 V c) (bias1 V c) (edge1 V c)) := by
  have h3 : t.val % 4 = 3 := (flush1_6 t).mp hf
  have hN : t.val < 32 := lt_of_lt_of_eq t.isLt (show cfg1.N = 32 from N_1)
  show (cfg1.win 6).cut (grid1.coords t) ((dat1 V c).after 6 t) = _
  rw [after1_6]
  funext y
  rw [View.read_apply]
  obtain ⟨p, cc, rfl⟩ : ∃ (p : Fin 1024) (cc : Fin 256), (y : S1024x256.Idx) = ix2 p cc := ⟨y 0, y 1, eq_ix2 y⟩
  have hi : (t.val / 4) * 1024 + p.val < 8192 := by have := p.isLt; omega
  have hemb : (((cfg1.win 6).blk t).view.emb (ix2 p cc) : S8192x256.Idx) = ix2 ⟨(t.val / 4) * 1024 + p.val, hi⟩ cc := by
    funext a
    match a with
    | ⟨0, _⟩ => apply Fin.ext; show win1_6.index t 0 * 1024 + 1 * p.val = (t.val / 4) * 1024 + p.val; rw [(idx1_6 t).1]; omega
    | ⟨1, _⟩ => apply Fin.ext; show win1_6.index t 1 * 256 + 1 * cc.val = cc.val; rw [(idx1_6 t).2]; omega
  have e2 : (iblk1 V c 2 t : Vec Ideal S1024x1 .f32) (ix2 p (0 : Fin 1)) = deg1 V c (ix2 ⟨_, hi⟩ (0 : Fin 1)) :=
    iblk1_2_apply V c t (ix2 p (0 : Fin 1)) (ix2 ⟨_, hi⟩ (0 : Fin 1)) rfl
  have e4 : (iblk1 V c 4 t : Vec Ideal S1024x1 .f32) (ix2 p (0 : Fin 1)) = bias1 V c (ix2 ⟨_, hi⟩ (0 : Fin 1)) :=
    iblk1_4_apply V c t (ix2 p (0 : Fin 1)) (ix2 ⟨_, hi⟩ (0 : Fin 1)) rfl
  have e5 : (iblk1 V c 5 t : Vec Ideal S1x1 .f32) (ix2 (0 : Fin 1) (0 : Fin 1)) = edge1 V c (ix2 (0 : Fin 1) (0 : Fin 1)) :=
    iblk1_5_apply V c t _
  have e3 : ∀ f : Fin 64, (iblk1 V c 3 t : Vec Ideal S64x256 .f32) (ix2 f cc) = w1 V c (ix2 f cc) := fun f => iblk1_3_apply V c t _
  have eP : ∀ f : Fin 64, (acc1 V c t.val t.isLt : Vec Ideal S1024x64 .f32) (ix2 p f)
      = ∑ j : Fin 8192, adj1 V c (ix2 ⟨(t.val / 4) * 1024 + p.val, hi⟩ j) * feat1 V c (ix2 j f) := fun f => prod_last V c t h3 p f hi
  show k1_pay3 (F := Ideal) (iblk1 V c 2 t) (acc1 V c t.val t.isLt) (iblk1 V c 3 t) (iblk1 V c 5 t) (iblk1 V c 4 t) (ix2 p cc)
      = hidSpec (adj1 V c) (feat1 V c) (deg1 V c) (w1 V c) (bias1 V c) (edge1 V c) (((cfg1.win 6).blk t).view.emb (ix2 p cc))
  rw [hemb, k1_pay3_apply, e2, e4, e5]
  simp only [e3, eP]
  rfl

/-- The hidden layer after region 1 (the eight row tiles' write-backs cover it). -/
theorem final1 (c : Dev nD) : (dat1 V c).arrAt 6 cfg1.N
    = hidSpec (adj1 V c) (feat1 V c) (deg1 V c) (w1 V c) (bias1 V c) (edge1 V c) :=
  (dat1 V c).arrAt_eq_of_cover 6 _ (flushed1_eq V c) fun i => by
    have h0 : (i 0 : ℕ) < 8192 := (i 0).isLt
    have h1 : (i 1 : ℕ) < 256 := (i 1).isLt
    have hN : cfg1.N = 32 := N_1
    have ht : 4 * ((i 0 : ℕ) / 1024) + 3 < cfg1.N := by rw [hN]; omega
    refine ⟨⟨4 * ((i 0 : ℕ) / 1024) + 3, ht⟩, (flush1_6 _).mpr (by show (4 * ((i 0 : ℕ) / 1024) + 3) % 4 = 3; omega), ?_⟩
    show i ∈ ((View.whole main_v7).slice (win1_6.rect ⟨4 * ((i 0 : ℕ) / 1024) + 3, ht⟩)).set
    rw [View.set_slice_whole, Rect.mem_set_unit]
    intro a
    match a with
    | ⟨0, _⟩ =>
      show win1_6.index ⟨_, ht⟩ 0 * 1024 ≤ (i 0 : ℕ) ∧ (i 0 : ℕ) < win1_6.index ⟨_, ht⟩ 0 * 1024 + win1_6.xsize (grid1.coords ⟨_, ht⟩) 0
      rw [(idx1_6 ⟨_, ht⟩).1, (sizeOut1 ⟨_, ht⟩).1]
      show (4 * ((i 0 : ℕ) / 1024) + 3) / 4 * 1024 ≤ (i 0 : ℕ) ∧ (i 0 : ℕ) < (4 * ((i 0 : ℕ) / 1024) + 3) / 4 * 1024 + 1024
      omega
    | ⟨1, _⟩ =>
      show win1_6.index ⟨_, ht⟩ 1 * 256 ≤ (i 1 : ℕ) ∧ (i 1 : ℕ) < win1_6.index ⟨_, ht⟩ 1 * 256 + win1_6.xsize (grid1.coords ⟨_, ht⟩) 1
      rw [(idx1_6 ⟨_, ht⟩).2, (sizeOut1 ⟨_, ht⟩).2]; omega

end Cert.KernelIdeal.Hand

end
-- ==== Proof.Law.lean ====
/-
  The one algebraic law, program-free. With every entry of `A` and `X` a real and every column sum `s j = ∑ i, A[i,j]`
  positive, `d j = rsqrt (s j) = pow (s j) (-1/2)` is a real, and
      d i * ∑ j, A[i,j] * (d j * X[j,f])  =  ∑ j, (d i * (A[i,j] * d j)) * X[j,f]
  by distributivity in the reals. `hidRef` is the first hidden layer as the reference computes it, index by index.
-/
import proofs.«136842_j29557964931141_2_alg».proof.Proof.Spec
import Idealize.ShloMosaic.PureOps.Ideal.Laws

noncomputable section

namespace Cert.KernelIdeal.HandValue

open Idealize.ShloMosaic Idealize.ShloMosaic.ValueIdx
open scoped BigOperators

/-- The pattern of `-0.5` denotes the real `-(1/2)`. -/
theorem ofBits_neg_half : Ideal.ofBits .f32 0xBF000000#32 = ((-(1 / 2) : ℝ) : EReal) := by
  simp [Ideal.ofBits, Ideal.ieee, -EReal.coe_mul]; norm_num

/-- A finite sum of reals, coerced termwise, is the coerced sum. -/
theorem coe_sum {ι : Type*} (s : Finset ι) (g : ι → ℝ) :
    ∑ j ∈ s, ((g j : ℝ) : EReal) = ((∑ j ∈ s, g j : ℝ) : EReal) := by
  classical
  induction s using Finset.induction_on with
  | empty => simp
  | insert a s ha ih => rw [Finset.sum_insert ha, Finset.sum_insert ha, ih, EReal.coe_add]

/-- On a positive real, the power `-1/2` is the inverse square root. -/
theorem pow_neg_half_eq_rsqrt (s : ℝ) (hs : 0 < s) :
    Ideal.pow (s : EReal) ((-(1 / 2) : ℝ) : EReal) = Ideal.rsqrt (s : EReal) := by
  rw [Ideal.pow_coe_coe, Ideal.rsqrt_coe, if_neg (not_lt.2 hs.le), if_neg hs.ne']
  show ((s ^ (-(1 / 2) : ℝ) : ℝ) : EReal) = _
  rw [Real.rpow_neg hs.le, Real.sqrt_eq_rpow]

/-- The reference's degree factor of column `j`: `(0 + ∑ i, A[i,j]) ^ (-0.5)`. -/
def degRef (A : FVec Ideal S8192x8192 .f32) (j : Fin 8192) : EReal :=
  Ideal.pow (Ideal.ofBits .f32 0x00000000#32 + ∑ i : Fin 8192, A (ix2 i j)) (Ideal.ofBits .f32 0xBF000000#32)

/-- The first hidden layer as the reference computes it:
    `max ((∑ f, (∑ j, (d i * (A[i,j] * d j)) * X[j,f]) * W1[f,h]) + w + b1[i]) 0`. -/
def hidRef (A : FVec Ideal S8192x8192 .f32) (X : FVec Ideal S8192x64 .f32) (W1 : FVec Ideal S64x256 .f32)
    (b1 : FVec Ideal S8192x1 .f32) (w : EReal) : FVec Ideal S8192x256 .f32 :=
  fun y => max ((∑ f : Fin 64, (∑ j : Fin 8192, (degRef A (y 0 : Fin 8192) * (A (ix2 (y 0 : Fin 8192) j) * degRef A j))
                    * X (ix2 j f)) * W1 (ix2 f (y 1 : Fin 256)))
                + w + b1 (ix2 (y 0 : Fin 8192) (0 : Fin 1))) (Ideal.ofBits .f32 0x00000000#32)

/-- The accumulated form read at row `p`, column `q`. -/
theorem hidSpec_apply (A : FVec Ideal S8192x8192 .f32) (X3 : FVec Ideal S8192x64 .f32) (dv : FVec Ideal S8192x1 .f32)
    (W1 : FVec Ideal S64x256 .f32) (b1 : FVec Ideal S8192x1 .f32) (wx : FVec Ideal S1x1 .f32) (p : Fin 8192) (q : Fin 256) :
    hidSpec A X3 dv W1 b1 wx (ix2 p q)
      = max ((∑ f : Fin 64, (dv (ix2 p (0 : Fin 1)) * ∑ j : Fin 8192, A (ix2 p j) * X3 (ix2 j f)) * W1 (ix2 f q))
              + wx (ix2 (0 : Fin 1) (0 : Fin 1)) + b1 (ix2 p (0 : Fin 1))) 0 := rfl

/-- The reference's form read at row `p`, column `q`. -/
theorem hidRef_apply (A : FVec Ideal S8192x8192 .f32) (X : FVec Ideal S8192x64 .f32) (W1 : FVec Ideal S64x256 .f32)
    (b1 : FVec Ideal S8192x1 .f32) (w : EReal) (p : Fin 8192) (q : Fin 256) :
    hidRef A X W1 b1 w (ix2 p q)
      = max ((∑ f : Fin 64, (∑ j : Fin 8192, (degRef A p * (A (ix2 p j) * degRef A j)) * X (ix2 j f)) * W1 (ix2 f q))
              + w + b1 (ix2 p (0 : Fin 1))) (Ideal.ofBits .f32 0x00000000#32) := rfl

/-- With real entries and a positive column sum, both spellings of the degree factor are one real. -/
theorem deg_real (A : FVec Ideal S8192x8192 .f32) (hA : ∀ i, ∃ r : ℝ, A i = (r : EReal))
    (hpos : ∀ j : Fin 8192, 0 < ∑ i : Fin 8192, A (ix2 i j)) (j : Fin 8192) :
    ∃ ρ : ℝ, degRef A j = (ρ : EReal) ∧ Ideal.rsqrt (∑ i : Fin 8192, A (ix2 i j)) = (ρ : EReal) := by
  choose a ha using hA
  have hs : ∑ i : Fin 8192, A (ix2 i j) = ((∑ i : Fin 8192, a (ix2 i j) : ℝ) : EReal) := by
    rw [← coe_sum]; exact Finset.sum_congr rfl fun i _ => ha _
  have hp : 0 < ∑ i : Fin 8192, a (ix2 i j) := by
    have := hpos j; rw [hs] at this; exact_mod_cast this
  refine ⟨(Real.sqrt (∑ i : Fin 8192, a (ix2 i j)))⁻¹, ?_, ?_⟩
  · unfold degRef
    rw [Ideal.ofBits_zero_f32, zero_add, ofBits_neg_half, hs, pow_neg_half_eq_rsqrt _ hp, Ideal.rsqrt_coe,
      if_neg (not_lt.2 hp.le), if_neg hp.ne']
  · rw [hs, Ideal.rsqrt_coe, if_neg (not_lt.2 hp.le), if_neg hp.ne']

/-- The law: the accumulated form (the scaled features `X3 = dv * X`, the product with `dv` outside the sum) is the
    reference's form (the normalised adjacency inside the sum). -/
theorem hidSpec_eq_hidRef (A : FVec Ideal S8192x8192 .f32) (X X3 : FVec Ideal S8192x64 .f32) (dv : FVec Ideal S8192x1 .f32)
    (W1 : FVec Ideal S64x256 .f32) (b1 : FVec Ideal S8192x1 .f32) (wx : FVec Ideal S1x1 .f32) (w : EReal)
    (hA : ∀ i, ∃ r : ℝ, A i = (r : EReal)) (hX : ∀ i, ∃ r : ℝ, X i = (r : EReal))
    (hpos : ∀ j : Fin 8192, 0 < ∑ i : Fin 8192, A (ix2 i j))
    (hdv : ∀ j : Fin 8192, dv (ix2 j (0 : Fin 1)) = Ideal.rsqrt (∑ i : Fin 8192, A (ix2 i j)))
    (hX3 : ∀ (j : Fin 8192) (f : Fin 64), X3 (ix2 j f) = dv (ix2 j (0 : Fin 1)) * X (ix2 j f))
    (hw : wx (ix2 (0 : Fin 1) (0 : Fin 1)) = w) :
    hidSpec A X3 dv W1 b1 wx = hidRef A X W1 b1 w := by
  choose ρ hρ1 hρ2 using deg_real A hA hpos
  choose a ha using hA
  choose x hx using hX
  have hdv' : ∀ j : Fin 8192, dv (ix2 j (0 : Fin 1)) = (ρ j : EReal) := fun j => (hdv j).trans (hρ2 j)
  funext y
  obtain ⟨p, q, rfl⟩ : ∃ (p : Fin 8192) (q : Fin 256), y = ix2 p q := ⟨y 0, y 1, eq_ix2 y⟩
  rw [hidSpec_apply, hidRef_apply, Ideal.ofBits_zero_f32, hw]
  congr 3
  refine Finset.sum_congr rfl fun f _ => ?_
  congr 1
  simp only [hX3, hdv', hρ1, ha, hx, ← EReal.coe_mul, coe_sum]
  rw [Finset.mul_sum]
  exact congrArg _ (Finset.sum_congr rfl fun j _ => by ring)

end Cert.KernelIdeal.HandValue

end
-- ==== Proof.SpecG.lean ====
/-
  The result function `G` of the twelve argument arrays. Both programs end with the same chain of host operations on
  the first hidden layer `H1` — the second hidden layer `H2` (a column), `(H1 @ (W5 @ H2)) @ W6`, and the logistic
  function spelt `1 / (1 + exp (-x))` —: `tail` names that chain as ONE function of `H1`, never opened, and `G` is
  `tail` of the first hidden layer as the reference computes it, index by index (`hidRef`).
-/
import proofs.«136842_j29557964931141_2_alg».proof.Proof.Gen.ReferenceIdeal.Read
import proofs.«136842_j29557964931141_2_alg».proof.Proof.Law

noncomputable section

namespace Cert.KernelIdeal.HandValue

open Idealize.ShloMosaic Idealize.ShloMosaic.ValueIdx
open scoped BigOperators

/-- The shared chain after the first hidden layer, as one function of it. -/
def tail (H1 : FVec Ideal S8192x256 .f32) (x1 : FVec Ideal S8192x64 .f32) (x2 : FVec Ideal S4096x64 .f32)
    (x3 : FVec Ideal S512x1 .f32) (x6 x7 : FVec Ideal S64x512 .f32) (x8 : FVec Ideal S256x8192 .f32)
    (x9 : FVec Ideal S1x64 .f32) (x11 : FVec Ideal S8192x1 .f32) : FVec Ideal S8192x64 .f32 :=
  Host.divf (Cert.ReferenceIdeal.Read.val_main_v34 (F := Ideal))
    (addf (Cert.ReferenceIdeal.Read.val_main_v32 (F := Ideal))
      (Host.exp (Host.negf
        (Host.dotGeneral (φ₂ := .f32) Cert.ReferenceIdeal.dot_S8192x1_S1x64_S8192x64_1_0_0_1_n_n none
          (Host.dotGeneral (φ₂ := .f32) Cert.ReferenceIdeal.dot_S8192x256_S256x1_S8192x1_1_0_0_1_n_n none H1
            (Cert.ReferenceIdeal.Read.val_main_v27 (F := Ideal) x1 x2 x3 x6 x7 x8 x11))
          x9))))

/-- The scalar `sum (ET @ W2)` both programs add to the first hidden layer's pre-activation. -/
def wxRef (x2 : FVec Ideal S4096x64 .f32) (x5 : FVec Ideal S64x256 .f32) : EReal :=
  Cert.ReferenceIdeal.Read.val_main_v11 (F := Ideal) x2 x5 ix0

/-- The result of both programs, as one function of the twelve argument arrays. -/
def G (x0 : FVec Ideal S8192x8192 .f32) (x1 : FVec Ideal S8192x64 .f32) (x2 : FVec Ideal S4096x64 .f32)
    (x3 : FVec Ideal S512x1 .f32) (x4 x5 : FVec Ideal S64x256 .f32) (x6 x7 : FVec Ideal S64x512 .f32)
    (x8 : FVec Ideal S256x8192 .f32) (x9 : FVec Ideal S1x64 .f32) (x10 x11 : FVec Ideal S8192x1 .f32) :
    FVec Ideal S8192x64 .f32 :=
  tail (hidRef x0 x1 x4 x10 (wxRef x2 x5)) x1 x2 x3 x6 x7 x8 x9 x11

/-- The reference's result is the shared chain applied to its first hidden layer. -/
theorem ref_tail (x0 : FVec Ideal S8192x8192 .f32) (x1 : FVec Ideal S8192x64 .f32) (x2 : FVec Ideal S4096x64 .f32)
    (x3 : FVec Ideal S512x1 .f32) (x4 x5 : FVec Ideal S64x256 .f32) (x6 x7 : FVec Ideal S64x512 .f32)
    (x8 : FVec Ideal S256x8192 .f32) (x9 : FVec Ideal S1x64 .f32) (x10 x11 : FVec Ideal S8192x1 .f32) :
    Cert.ReferenceIdeal.Read.val_main_v35 (F := Ideal) x0 x1 x2 x3 x4 x5 x6 x7 x8 x9 x10 x11
      = tail (Cert.ReferenceIdeal.Read.val_main_v17 (F := Ideal) x0 x1 x2 x4 x5 x10) x1 x2 x3 x6 x7 x8 x9 x11 := by
  unfold Cert.ReferenceIdeal.Read.val_main_v35 Cert.ReferenceIdeal.Read.val_main_v33 Cert.ReferenceIdeal.Read.val_main_v31
    Cert.ReferenceIdeal.Read.val_main_v30 Cert.ReferenceIdeal.Read.val_main_v29 Cert.ReferenceIdeal.Read.val_main_v28 tail
  rfl

end Cert.KernelIdeal.HandValue

end
-- ==== Proof.PreFacts.lean ====
/-
  From the precondition (every input finite, every column sum of the adjacency positive) to usable facts:
  every entry of every argument array is a real number, and every column sum of the first argument is positive.
-/
import proofs.«136842_j29557964931141_2_alg».proof.Pre_finite_inputs
import proofs.«136842_j29557964931141_2_alg».proof.Proof.Spec
import Idealize.ShloMosaic.Lib.ReduceAll
import Idealize.ShloMosaic.PureOps.Ideal.Laws

noncomputable section

namespace Cert.KernelIdeal.HandValue

open Idealize.ShloMosaic Idealize.ShloMosaic.ValueIdx
open scoped BigOperators

/-- The pattern of `+inf` denotes `⊤`. -/
theorem ofBits_inf : Ideal.ofBits .f32 0x7F800000#32 = ⊤ := by
  simp [Ideal.ofBits, Ideal.ieee]

/-- A rank-0 array has one index. -/
instance : Subsingleton (⟨0, ![]⟩ : Shape).Idx := ⟨fun a b => funext fun d => d.elim0⟩

/-- An extended real whose absolute value is below `⊤` is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- `jnp.all (|a| < inf)` gives that every entry of `a` is a real. -/
theorem real_of_all {n0 n1 : ℕ} (a : FVec Ideal ⟨2, ![n0, n1]⟩ .f32)
    (hb : (⟨0, ![]⟩ : Shape).BroadcastsInDim ⟨2, ![n0, n1]⟩ ![])
    (hr : (⟨2, ![n0, n1]⟩ : Shape).ReducesTo [0, 1] ⟨0, ![]⟩) (hS : 0 < (⟨0, ![]⟩ : Shape).numel)
    (c : IVec ⟨0, ![]⟩ 1)
    (h : Host.reduce IntOp.andi
          (cmpf .olt (Host.absf a) (broadcastInDim ⟨2, ![n0, n1]⟩ ![] hb (constant (F := Ideal) ⟨0, ![]⟩ .f32 0x7F800000#32)))
          c hr hS ix0 = 1#1)
    (i : (⟨2, ![n0, n1]⟩ : Shape).Idx) : ∃ r : ℝ, a i = (r : EReal) := by
  have e := Host.reduce_andi_all _ _ hr hS ix0 h i
  refine real_of_abs_lt_top (a i) ?_
  rw [← ofBits_inf]
  exact e

/-- A conjunction of two `i1` arrays that is one at an index has both conjuncts one there. -/
theorem vandi_eq_one {s : Shape} (x y : IVec s 1) (i : s.Idx) (h : andi x y i = 1#1) : x i = 1#1 ∧ y i = 1#1 :=
  IntOp.andi_eq_one.1 h

/-- The column sum the precondition compares with zero, read at a column. -/
theorem colsum_read (a0 : FVec Ideal S8192x8192 .f32) (hr : S8192x8192.ReducesTo [0] ⟨1, ![8192]⟩)
    (hS : 0 < (⟨0, ![]⟩ : Shape).numel) (j : Fin 8192) :
    Host.reduceAdd a0 (constant (F := Ideal) ⟨0, ![]⟩ .f32 0x00000000#32) hr hS (ix1 j)
      = ∑ i : Fin 8192, a0 (ix2 i j) := by
  simp only [Host.reduceAdd, Ideal.hostReduceAdd_def]
  rw [Ideal.hostReduceAdd_single hr (by decide)]
  rw [show (constant (F := Ideal) ⟨0, ![]⟩ .f32 0x00000000#32) (Shape.Idx.first hS) = 0 from Ideal.ofBits_zero_f32, zero_add]
  refine Finset.sum_congr rfl fun k _ => ?_
  exact congrArg a0 (funext fun a => Fin.ext (by match a with | ⟨0, _⟩ => rfl | ⟨1, _⟩ => rfl))

/-- What the precondition gives about the twelve argument arrays. -/
structure InputFacts (a0 : FVec Ideal S8192x8192 .f32) (a1 : FVec Ideal S8192x64 .f32) (a2 : FVec Ideal S4096x64 .f32)
    (a3 : FVec Ideal S512x1 .f32) (a4 a5 : FVec Ideal S64x256 .f32) (a6 a7 : FVec Ideal S64x512 .f32)
    (a8 : FVec Ideal S256x8192 .f32) (a9 : FVec Ideal S1x64 .f32) (a10 a11 : FVec Ideal S8192x1 .f32) : Prop where
  real0 : ∀ i, ∃ r : ℝ, a0 i = (r : EReal)
  real1 : ∀ i, ∃ r : ℝ, a1 i = (r : EReal)
  real2 : ∀ i, ∃ r : ℝ, a2 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  real8 : ∀ i, ∃ r : ℝ, a8 i = (r : EReal)
  real9 : ∀ i, ∃ r : ℝ, a9 i = (r : EReal)
  real10 : ∀ i, ∃ r : ℝ, a10 i = (r : EReal)
  real11 : ∀ i, ∃ r : ℝ, a11 i = (r : EReal)
  colpos : ∀ j : Fin 8192, 0 < ∑ i : Fin 8192, a0 (ix2 i j)

section
variable [Cert.Pre_finite_inputs.Facts]
open Cert.Pre_finite_inputs Cert.Pre_finite_inputs.Facts

/-- The precondition, all ones, gives the facts. -/
theorem inputFacts_of_pre (a0 : FVec Ideal S8192x8192 .f32) (a1 : FVec Ideal S8192x64 .f32) (a2 : FVec Ideal S4096x64 .f32)
    (a3 : FVec Ideal S512x1 .f32) (a4 a5 : FVec Ideal S64x256 .f32) (a6 a7 : FVec Ideal S64x512 .f32)
    (a8 : FVec Ideal S256x8192 .f32) (a9 : FVec Ideal S1x64 .f32) (a10 a11 : FVec Ideal S8192x1 .f32)
    (h : Cert.Pre_finite_inputs.fn (F := Ideal) a0 a1 a2 a3 a4 a5 a6 a7 a8 a9 a10 a11 = fun _ => 1#1) :
    InputFacts a0 a1 a2 a3 a4 a5 a6 a7 a8 a9 a10 a11 := by
  have h0 := congrFun h ix0
  dsimp only [Cert.Pre_finite_inputs.fn, fn_part1, fn_part2, fn_part3] at h0
  obtain ⟨h0, p12⟩ := vandi_eq_one _ _ _ h0
  obtain ⟨h0, p11⟩ := vandi_eq_one _ _ _ h0
  obtain ⟨h0, p10⟩ := vandi_eq_one _ _ _ h0
  obtain ⟨h0, p9⟩ := vandi_eq_one _ _ _ h0
  obtain ⟨h0, p8⟩ := vandi_eq_one _ _ _ h0
  obtain ⟨h0, p7⟩ := vandi_eq_one _ _ _ h0
  obtain ⟨h0, p6⟩ := vandi_eq_one _ _ _ h0
  obtain ⟨h0, p5⟩ := vandi_eq_one _ _ _ h0
  obtain ⟨h0, p4⟩ := vandi_eq_one _ _ _ h0
  obtain ⟨h0, p3⟩ := vandi_eq_one _ _ _ h0
  obtain ⟨h0, p2⟩ := vandi_eq_one _ _ _ h0
  obtain ⟨p0, p1⟩ := vandi_eq_one _ _ _ h0
  refine ⟨real_of_all a0 _ _ _ _ p0, real_of_all a1 _ _ _ _ p1, real_of_all a2 _ _ _ _ p2, real_of_all a3 _ _ _ _ p3,
    real_of_all a4 _ _ _ _ p4, real_of_all a5 _ _ _ _ p5, real_of_all a6 _ _ _ _ p6, real_of_all a7 _ _ _ _ p7,
    real_of_all a8 _ _ _ _ p8, real_of_all a9 _ _ _ _ p9, real_of_all a10 _ _ _ _ p10, real_of_all a11 _ _ _ _ p11, fun j => ?_⟩
  have e := Host.reduce_andi_all _ _ _ _ ix0 p12 (ix1 j)
  have e' : Ideal.cmp .ogt (Host.reduceAdd a0 (constant (F := Ideal) ⟨0, ![]⟩ .f32 0x00000000#32)
      reducesTo_S8192x8192_S8192_d0 h_S_ (ix1 j)) (Ideal.ofBits .f32 0x00000000#32) = 1#1 := e
  rw [colsum_read, Ideal.ofBits_zero_f32] at e'
  by_contra hn
  simp [Ideal.cmp, hn] at e'
end

end Cert.KernelIdeal.HandValue

end
-- ==== Proof.KernelIsSpec.lean ====
/-
  The kernel program's result is `G` of the argument arrays, given what its two regions leave in their output arrays
  (`degSpec`, `hidSpec`): the host operations between and after the regions are read back as pure terms, the scaled
  features and the degree column are read at an index, the law of Law.lean turns the accumulated form into the
  reference's, and the rest is the shared chain `tail`, never opened.
-/
import proofs.«136842_j29557964931141_2_alg».proof.Proof.Gen.KernelIdeal.Regions
import Idealize.ShloMosaic.Lib.StableHlo.Run
import Idealize.ShloMosaic.Lib.ValueLayout
import Idealize.ShloMosaic.Lib.Pipeline.Value
import proofs.«136842_j29557964931141_2_alg».proof.Proof.SpecG
import proofs.«136842_j29557964931141_2_alg».proof.Proof.PreFacts

noncomputable section

namespace Cert.KernelIdeal.HandValue

open Idealize.ShloMosaic Idealize.ShloMosaic.TcCoe Idealize.ShloMosaic.StableHlo Idealize.SL.Sem Idealize.ShloMosaic.ValueIdx
open Cert.KernelIdeal Cert.KernelIdeal.Gen
open scoped BigOperators

variable (W : Valuation τ sig (Elt Ideal))

/-! ## The host operations, one stretch at a time, as pure terms -/

/-- After the first stretch the degree column is the transposed degree row. -/
theorem after1_v1 : (StableHlo.after hostOps1 W main_v1 : FVec Ideal S8192x1 .f32)
    = (transpose S8192x1 [1, 0] (W main_v0 : FVec Ideal S1x8192 .f32) transposes_S1x8192_S8192x1_1_0 : FVec Ideal S8192x1 .f32) := by
  after_results

/-- After the first stretch the scaled features are the degree column, broadcast along the rows, times the features. -/
theorem after1_v3 : (StableHlo.after hostOps1 W main_v3 : FVec Ideal S8192x64 .f32)
    = (mulf (broadcastInDim S8192x64 ![0, 1] bcast_S8192x1_S8192x64_0_1
        (transpose S8192x1 [1, 0] (W main_v0 : FVec Ideal S1x8192 .f32) transposes_S1x8192_S8192x1_1_0)) (W main_arg1 : FVec Ideal S8192x64 .f32) : FVec Ideal S8192x64 .f32) := by
  after_results

/-- After the first stretch the scalar is `sum (ET @ W2)` reshaped to one entry. -/
theorem after1_v6 : (StableHlo.after hostOps1 W main_v6 : FVec Ideal S1x1 .f32)
    = (shapeCast S1x1 (Host.reduceAdd (Host.dotGeneral (φ₁ := .f32) (φ₂ := .f32) dot_S4096x64_S64x256_S4096x256_1_0_0_1_n_n none
        (W main_arg2 : FVec Ideal S4096x64 .f32) (W main_arg5 : FVec Ideal S64x256 .f32)) (constant (F := Ideal) S_ .f32 0x00000000#32) reducesTo_S4096x256_S_d0_1 h_S_)
        shapeCasts_S_S1x1 : FVec Ideal S1x1 .f32) := by
  after_results; rfl

/-- The second hidden layer's pre-activation: `XT @ (W3 @ YT) + sum (ET @ (W4 @ YT)) + b2`. -/
theorem after2_v15 : (StableHlo.after hostOps2 W main_v15 : FVec Ideal S8192x1 .f32)
    = (addf (addf
        (Host.dotGeneral (φ₁ := .f32) (φ₂ := .f32) dot_S8192x64_S64x1_S8192x1_1_0_0_1_n_n none (W main_arg1 : FVec Ideal S8192x64 .f32)
          (Host.dotGeneral (φ₁ := .f32) (φ₂ := .f32) dot_S64x512_S512x1_S64x1_1_0_0_1_n_n none (W main_arg6 : FVec Ideal S64x512 .f32) (W main_arg3 : FVec Ideal S512x1 .f32)))
        (broadcastInDim S8192x1 ![] bcast_S_S8192x1
          (Host.reduceAdd
            (Host.dotGeneral (φ₁ := .f32) (φ₂ := .f32) dot_S4096x64_S64x1_S4096x1_1_0_0_1_n_n none (W main_arg2 : FVec Ideal S4096x64 .f32)
              (Host.dotGeneral (φ₁ := .f32) (φ₂ := .f32) dot_S64x512_S512x1_S64x1_1_0_0_1_n_n none (W main_arg7 : FVec Ideal S64x512 .f32) (W main_arg3 : FVec Ideal S512x1 .f32)))
            (constant (F := Ideal) S_ .f32 0x00000000#32) reducesTo_S4096x1_S_d0_1 h_S_)))
      (W main_arg11 : FVec Ideal S8192x1 .f32) : FVec Ideal S8192x1 .f32) := by
  after_results

/-- The second hidden layer is the maximum of its pre-activation and zero. -/
theorem after21_v16 : (StableHlo.after hostOps2_1 W main_v16 : FVec Ideal S8192x1 .f32)
    = (maximumf (W main_v15 : FVec Ideal S8192x1 .f32) (broadcastInDim S8192x1 ![] bcast_S_S8192x1 (constant (F := Ideal) S_ .f32 0x00000000#32)) : FVec Ideal S8192x1 .f32) := by
  after_results; rfl

/-- The result is `1 / (1 + exp (-((H1 @ (W5 @ H2)) @ W6)))` of the first hidden layer `H1` and the second `H2`. -/
theorem after22_v25 : (StableHlo.after hostOps2_2 W main_v25 : FVec Ideal S8192x64 .f32)
    = (Host.divf (broadcastInDim S8192x64 ![] bcast_S_S8192x64 (constant (F := Ideal) S_ .f32 0x3F800000#32))
        (addf (broadcastInDim S8192x64 ![] bcast_S_S8192x64 (constant (F := Ideal) S_ .f32 0x3F800000#32))
          (Host.exp (Host.negf
            (Host.dotGeneral (φ₁ := .f32) (φ₂ := .f32) dot_S8192x1_S1x64_S8192x64_1_0_0_1_n_n none
              (Host.dotGeneral (φ₁ := .f32) (φ₂ := .f32) dot_S8192x256_S256x1_S8192x1_1_0_0_1_n_n none (W main_v7 : FVec Ideal S8192x256 .f32)
                (Host.dotGeneral (φ₁ := .f32) (φ₂ := .f32) dot_S256x8192_S8192x1_S256x1_1_0_0_1_n_n none (W main_arg8 : FVec Ideal S256x8192 .f32) (W main_v16 : FVec Ideal S8192x1 .f32)))
              (W main_arg9 : FVec Ideal S1x64 .f32))))) : FVec Ideal S8192x64 .f32) := by
  after_results

/-! ## The regions' operands read at an index -/

/-- The degree column read off the degree row. -/
theorem dv_read (d : FVec Ideal S1x8192 .f32) (j : Fin 8192) :
    transpose S8192x1 [1, 0] d transposes_S1x8192_S8192x1_1_0 (ix2 j (0 : Fin 1)) = d (ix2 (0 : Fin 1) j) :=
  transpose_ix2_apply d transposes_S1x8192_S8192x1_1_0 j 0

/-- A column broadcast along the rows' 64 entries reads the column. -/
theorem bcast_col_read (v : FVec Ideal S8192x1 .f32) (j : Fin 8192) (f : Fin 64) :
    broadcastInDim S8192x64 ![0, 1] bcast_S8192x1_S8192x64_0_1 v (ix2 j f) = v (ix2 j (0 : Fin 1)) :=
  broadcastInDim_apply _ _ v _ _ fun a => by match a with | ⟨0, _⟩ => rfl | ⟨1, _⟩ => rfl

/-- The scalar `sum (ET @ W2)`, reshaped to [1,1], is the reference's scalar. -/
theorem wx_read (x2 : FVec Ideal S4096x64 .f32) (x5 : FVec Ideal S64x256 .f32) :
    shapeCast S1x1 (Host.reduceAdd (Host.dotGeneral (φ₁ := .f32) (φ₂ := .f32) dot_S4096x64_S64x256_S4096x256_1_0_0_1_n_n none
        x2 x5) (constant (F := Ideal) S_ .f32 0x00000000#32) reducesTo_S4096x256_S_d0_1 h_S_)
        shapeCasts_S_S1x1 (ix2 (0 : Fin 1) (0 : Fin 1)) = wxRef x2 x5 := by
  unfold shapeCast wxRef Cert.ReferenceIdeal.Read.val_main_v11 Cert.ReferenceIdeal.Read.val_main_v10
    Cert.ReferenceIdeal.Read.val_main_cst_1
  exact (congrArg _ (Subsingleton.elim _ ix0)).trans rfl

/-- The second region's output, with its operands as the host operations before it write them, is the reference's
    first hidden layer. -/
theorem hid_eq (a0 : FVec Ideal S8192x8192 .f32) (a1 : FVec Ideal S8192x64 .f32) (a2 : FVec Ideal S4096x64 .f32)
    (a4 a5 : FVec Ideal S64x256 .f32) (a10 : FVec Ideal S8192x1 .f32)
    (hA : ∀ i, ∃ r : ℝ, a0 i = (r : EReal)) (hX : ∀ i, ∃ r : ℝ, a1 i = (r : EReal))
    (hpos : ∀ j : Fin 8192, 0 < ∑ i : Fin 8192, a0 (ix2 i j)) :
    hidSpec a0
        (mulf (broadcastInDim S8192x64 ![0, 1] bcast_S8192x1_S8192x64_0_1
          (transpose S8192x1 [1, 0] (degSpec a0) transposes_S1x8192_S8192x1_1_0)) a1)
        (transpose S8192x1 [1, 0] (degSpec a0) transposes_S1x8192_S8192x1_1_0) a4 a10
        (shapeCast S1x1 (Host.reduceAdd (Host.dotGeneral (φ₁ := .f32) (φ₂ := .f32) dot_S4096x64_S64x256_S4096x256_1_0_0_1_n_n none
          a2 a5) (constant (F := Ideal) S_ .f32 0x00000000#32) reducesTo_S4096x256_S_d0_1 h_S_) shapeCasts_S_S1x1)
      = hidRef a0 a1 a4 a10 (wxRef a2 a5) :=
  hidSpec_eq_hidRef a0 a1 _ _ a4 a10 _ (wxRef a2 a5) hA hX hpos
    (fun j => by rw [dv_read]; rfl)
    (fun j f => congrArg (· * a1 (ix2 j f)) (bcast_col_read _ j f))
    (wx_read a2 a5)

/-! ## The chain after the second region is the shared chain -/

/-- The host operations after the second region, applied to any first hidden layer `H1`, are the shared chain:
    the two spellings differ only in which proofs of the shape relations they cite. -/
theorem tailK_eq (H1 : FVec Ideal S8192x256 .f32) (x1 : FVec Ideal S8192x64 .f32) (x2 : FVec Ideal S4096x64 .f32)
    (x3 : FVec Ideal S512x1 .f32) (x6 x7 : FVec Ideal S64x512 .f32) (x8 : FVec Ideal S256x8192 .f32)
    (x9 : FVec Ideal S1x64 .f32) (x11 : FVec Ideal S8192x1 .f32) :
    (Host.divf (broadcastInDim S8192x64 ![] bcast_S_S8192x64 (constant (F := Ideal) S_ .f32 0x3F800000#32))
        (addf (broadcastInDim S8192x64 ![] bcast_S_S8192x64 (constant (F := Ideal) S_ .f32 0x3F800000#32))
          (Host.exp (Host.negf
            (Host.dotGeneral (φ₁ := .f32) (φ₂ := .f32) dot_S8192x1_S1x64_S8192x64_1_0_0_1_n_n none
              (Host.dotGeneral (φ₁ := .f32) (φ₂ := .f32) dot_S8192x256_S256x1_S8192x1_1_0_0_1_n_n none H1
                (Host.dotGeneral (φ₁ := .f32) (φ₂ := .f32) dot_S256x8192_S8192x1_S256x1_1_0_0_1_n_n none x8
                  (maximumf
                    (addf (addf
                      (Host.dotGeneral (φ₁ := .f32) (φ₂ := .f32) dot_S8192x64_S64x1_S8192x1_1_0_0_1_n_n none x1
                        (Host.dotGeneral (φ₁ := .f32) (φ₂ := .f32) dot_S64x512_S512x1_S64x1_1_0_0_1_n_n none x6 x3))
                      (broadcastInDim S8192x1 ![] bcast_S_S8192x1
                        (Host.reduceAdd
                          (Host.dotGeneral (φ₁ := .f32) (φ₂ := .f32) dot_S4096x64_S64x1_S4096x1_1_0_0_1_n_n none x2
                            (Host.dotGeneral (φ₁ := .f32) (φ₂ := .f32) dot_S64x512_S512x1_S64x1_1_0_0_1_n_n none x7 x3))
                          (constant (F := Ideal) S_ .f32 0x00000000#32) reducesTo_S4096x1_S_d0_1 h_S_)))
                      x11)
                    (broadcastInDim S8192x1 ![] bcast_S_S8192x1 (constant (F := Ideal) S_ .f32 0x00000000#32)))))
              x9)))) : FVec Ideal S8192x64 .f32)
      = tail H1 x1 x2 x3 x6 x7 x8 x9 x11 := by
  unfold tail Cert.ReferenceIdeal.Read.val_main_v34 Cert.ReferenceIdeal.Read.val_main_v32 Cert.ReferenceIdeal.Read.val_main_cst_4
    Cert.ReferenceIdeal.Read.val_main_cst_3 Cert.ReferenceIdeal.Read.val_main_v27 Cert.ReferenceIdeal.Read.val_main_v26
    Cert.ReferenceIdeal.Read.val_main_call1_v0 Cert.ReferenceIdeal.Read.val_main_call1_cst Cert.ReferenceIdeal.Read.val_main_v25
    Cert.ReferenceIdeal.Read.val_main_v24 Cert.ReferenceIdeal.Read.val_main_v23 Cert.ReferenceIdeal.Read.val_main_v22
    Cert.ReferenceIdeal.Read.val_main_cst_2 Cert.ReferenceIdeal.Read.val_main_v21 Cert.ReferenceIdeal.Read.val_main_v20
    Cert.ReferenceIdeal.Read.val_main_v19 Cert.ReferenceIdeal.Read.val_main_v18
  rfl

/-! ## The kernel program's result -/

/-- From the buffers after the first region (`Wa`: the degree row in `main_v0`) and after the second (`Wc`: the first
    hidden layer in `main_v7`), the host operations that follow leave `G` of the argument arrays in the result. -/
theorem kernel_value (Wa Wc : Valuation τ sig (Elt Ideal))
    (a0 : FVec Ideal S8192x8192 .f32) (a1 : FVec Ideal S8192x64 .f32) (a2 : FVec Ideal S4096x64 .f32)
    (a3 : FVec Ideal S512x1 .f32) (a4 a5 : FVec Ideal S64x256 .f32) (a6 a7 : FVec Ideal S64x512 .f32)
    (a8 : FVec Ideal S256x8192 .f32) (a9 : FVec Ideal S1x64 .f32) (a10 a11 : FVec Ideal S8192x1 .f32)
    (hf : InputFacts a0 a1 a2 a3 a4 a5 a6 a7 a8 a9 a10 a11)
    (ha1 : (Wa main_arg1 : FVec Ideal S8192x64 .f32) = a1) (ha2 : (Wa main_arg2 : FVec Ideal S4096x64 .f32) = a2)
    (ha5 : (Wa main_arg5 : FVec Ideal S64x256 .f32) = a5)
    (h0 : (Wa main_v0 : FVec Ideal S1x8192 .f32) = degSpec a0)
    (hc1 : (Wc main_arg1 : FVec Ideal S8192x64 .f32) = a1) (hc2 : (Wc main_arg2 : FVec Ideal S4096x64 .f32) = a2)
    (hc3 : (Wc main_arg3 : FVec Ideal S512x1 .f32) = a3) (hc6 : (Wc main_arg6 : FVec Ideal S64x512 .f32) = a6)
    (hc7 : (Wc main_arg7 : FVec Ideal S64x512 .f32) = a7) (hc8 : (Wc main_arg8 : FVec Ideal S256x8192 .f32) = a8)
    (hc9 : (Wc main_arg9 : FVec Ideal S1x64 .f32) = a9) (hc11 : (Wc main_arg11 : FVec Ideal S8192x1 .f32) = a11)
    (h1 : (Wc main_v7 : FVec Ideal S8192x256 .f32)
      = hidSpec a0 (StableHlo.after hostOps1 Wa main_v3) (StableHlo.after hostOps1 Wa main_v1) a4 a10
          (StableHlo.after hostOps1 Wa main_v6)) :
    (StableHlo.after hostOps2_2 (StableHlo.after hostOps2_1 (StableHlo.after hostOps2 Wc)) main_v25 : FVec Ideal S8192x64 .f32)
      = G a0 a1 a2 a3 a4 a5 a6 a7 a8 a9 a10 a11 := by
  have r7 : (StableHlo.after hostOps2_1 (StableHlo.after hostOps2 Wc) main_v7 : FVec Ideal S8192x256 .f32) = Wc main_v7 :=
    (StableHlo.after_of_writes_sub hostOps2_1 _ hostOps2_1_writes (by decide)).trans
      (StableHlo.after_of_writes_sub hostOps2 _ hostOps2_writes (by decide))
  have r8 : (StableHlo.after hostOps2_1 (StableHlo.after hostOps2 Wc) main_arg8 : FVec Ideal S256x8192 .f32) = Wc main_arg8 :=
    (StableHlo.after_of_writes_sub hostOps2_1 _ hostOps2_1_writes (by decide)).trans
      (StableHlo.after_of_writes_sub hostOps2 _ hostOps2_writes (by decide))
  have r9 : (StableHlo.after hostOps2_1 (StableHlo.after hostOps2 Wc) main_arg9 : FVec Ideal S1x64 .f32) = Wc main_arg9 :=
    (StableHlo.after_of_writes_sub hostOps2_1 _ hostOps2_1_writes (by decide)).trans
      (StableHlo.after_of_writes_sub hostOps2 _ hostOps2_writes (by decide))
  rw [after22_v25, r7, r8, r9, after21_v16, after2_v15, hc1, hc2, hc3, hc6, hc7, hc8, hc9, hc11, h1,
    after1_v3, after1_v1, after1_v6, ha1, ha2, ha5, h0, hid_eq a0 a1 a2 a4 a5 a10 hf.real0 hf.real1 hf.colpos]
  exact tailK_eq _ a1 a2 a3 a6 a7 a8 a9 a11

end Cert.KernelIdeal.HandValue

end
-- ==== Proof.KernelResult.lean ====
/- The kernel program's result buffer at the last boundary of the chain is the function `G` of the argument arrays:
   region 0 leaves the degree row (the reciprocal square roots of the column sums), region 1 the hidden layer, no host
   stretch or region changes an argument, and the host stretches between and after the regions compute `G` from those. -/
import proofs.«136842_j29557964931141_2_alg».proof.Proof.ChainArgs
import proofs.«136842_j29557964931141_2_alg».proof.Proof.DegreeValue
import proofs.«136842_j29557964931141_2_alg».proof.Proof.HiddenValue
import proofs.«136842_j29557964931141_2_alg».proof.Proof.KernelIsSpec

set_option maxRecDepth 16384

noncomputable section

namespace Cert.KernelIdeal.Hand

open Cert.KernelIdeal Cert.KernelIdeal.Gen Cert.KernelIdeal.HandValue
open Idealize.ShloMosaic Idealize.ShloMosaic.TcCoe Idealize.SL.Sem Idealize.ShloMosaic.ValueIdx

variable (m : (ℓ : Loc nD τ sig) → Buf (Elt Ideal) ℓ)

/-- The hidden layer region 1 leaves, with its operands named: the adjacency matrix, the first weight matrix and the
    bias column are the launch arguments; the scaled features, the degree column and the edge scalar are what the
    first host stretch computed from the degree row. -/
theorem hidden_at_boundary (c : Dev nD) :
    (W3 m c main_v7 : FVec Ideal S8192x256 .f32)
      = hidSpec (m ((c : Thread nD τ).loc main_arg0)) (StableHlo.after hostOps1 (W1 m c) main_v3) (StableHlo.after hostOps1 (W1 m c) main_v1)
          (m ((c : Thread nD τ).loc main_arg4)) (m ((c : Thread nD τ).loc main_arg10)) (StableHlo.after hostOps1 (W1 m c) main_v6) := by
  have hA : adj1 (V2 m) c = (m ((c : Thread nD τ).loc main_arg0)) := (W2_of m c main_arg0 (by decide)).trans ((W1_in m c 0 rfl).trans rfl)
  have hW : w1 (V2 m) c = (m ((c : Thread nD τ).loc main_arg4)) := (W2_of m c main_arg4 (by decide)).trans ((W1_of_ne m c main_arg4 (by decide)).trans rfl)
  have hB : bias1 (V2 m) c = (m ((c : Thread nD τ).loc main_arg10)) := (W2_of m c main_arg10 (by decide)).trans ((W1_of_ne m c main_arg10 (by decide)).trans rfl)
  refine (W3_arr m c 6).trans ((final1 (V2 m) c).trans ?_)
  rw [hA, hW, hB]
  rfl

/-- The result buffer after the whole chain is `G` of the arguments. -/
theorem kernel_result (c : Dev nD) (hf : InputFacts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    (W6 m c main_v25 : FVec Ideal S8192x64 .f32) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold W6 W5 W4
  exact kernel_value (W1 m c) (W3 m c) _ _ _ _ _ _ _ _ _ _ _ _ hf
    ((W1_of_ne m c main_arg1 (by decide)).trans rfl) ((W1_of_ne m c main_arg2 (by decide)).trans rfl) ((W1_of_ne m c main_arg5 (by decide)).trans rfl)
    ((W1_arr m c 1).trans (final0 (V0 m) c))
    ((W3_of_ne m c main_arg1 (by decide)).trans ((W2_of m c main_arg1 (by decide)).trans ((W1_of_ne m c main_arg1 (by decide)).trans rfl)))
    ((W3_of_ne m c main_arg2 (by decide)).trans ((W2_of m c main_arg2 (by decide)).trans ((W1_of_ne m c main_arg2 (by decide)).trans rfl)))
    ((W3_of_ne m c main_arg3 (by decide)).trans ((W2_of m c main_arg3 (by decide)).trans ((W1_of_ne m c main_arg3 (by decide)).trans rfl)))
    ((W3_of_ne m c main_arg6 (by decide)).trans ((W2_of m c main_arg6 (by decide)).trans ((W1_of_ne m c main_arg6 (by decide)).trans rfl)))
    ((W3_of_ne m c main_arg7 (by decide)).trans ((W2_of m c main_arg7 (by decide)).trans ((W1_of_ne m c main_arg7 (by decide)).trans rfl)))
    ((W3_of_ne m c main_arg8 (by decide)).trans ((W2_of m c main_arg8 (by decide)).trans ((W1_of_ne m c main_arg8 (by decide)).trans rfl)))
    ((W3_of_ne m c main_arg9 (by decide)).trans ((W2_of m c main_arg9 (by decide)).trans ((W1_of_ne m c main_arg9 (by decide)).trans rfl)))
    ((W3_of_ne m c main_arg11 (by decide)).trans ((W2_of m c main_arg11 (by decide)).trans ((W1_of_ne m c main_arg11 (by decide)).trans rfl)))
    (hidden_at_boundary m c)

end Cert.KernelIdeal.Hand

end
-- ==== Proof.RefIsSpec.lean ====
/-
  The reference's result is `G` of its twelve argument arrays: its first hidden layer, read index by index through the
  generated reading lemmas, is `hidRef`, and the rest of its program is the shared chain `tail`. No finiteness is
  needed on this side: `hidRef` follows the reference's own order of operations.
-/
import proofs.«136842_j29557964931141_2_alg».proof.Proof.SpecG

noncomputable section

namespace Cert.KernelIdeal.HandValue

open Idealize.ShloMosaic Idealize.ShloMosaic.ValueIdx
open Cert.ReferenceIdeal.Read
open scoped BigOperators

/-- The reference's first hidden layer, index by index. -/
theorem ref_hid (x0 : FVec Ideal S8192x8192 .f32) (x1 : FVec Ideal S8192x64 .f32) (x2 : FVec Ideal S4096x64 .f32)
    (x4 x5 : FVec Ideal S64x256 .f32) (x10 : FVec Ideal S8192x1 .f32) :
    val_main_v17 (F := Ideal) x0 x1 x2 x4 x5 x10 = hidRef x0 x1 x4 x10 (wxRef x2 x5) := by
  funext y
  obtain ⟨p, q, rfl⟩ : ∃ (p : Fin 8192) (q : Fin 256), y = ix2 p q := ⟨y 0, y 1, eq_ix2 y⟩
  have e12l : ∀ (p : Fin 8192) (q : Fin 256) (k : Fin 64), lidx_main_v12 (ix2 p q) k = ix2 p k := fun p q k =>
    funext fun a => Fin.ext (by match a with | ⟨0, _⟩ => rfl | ⟨1, _⟩ => rfl)
  have e12r : ∀ (p : Fin 8192) (q : Fin 256) (k : Fin 64), ridx_main_v12 (ix2 p q) k = ix2 k q := fun p q k =>
    funext fun a => Fin.ext (by match a with | ⟨0, _⟩ => rfl | ⟨1, _⟩ => rfl)
  have e9l : ∀ (p : Fin 8192) (f : Fin 64) (k : Fin 8192), lidx_main_v9 (ix2 p f) k = ix2 p k := fun p f k =>
    funext fun a => Fin.ext (by match a with | ⟨0, _⟩ => rfl | ⟨1, _⟩ => rfl)
  have e9r : ∀ (p : Fin 8192) (f : Fin 64) (k : Fin 8192), ridx_main_v9 (ix2 p f) k = ix2 k f := fun p f k =>
    funext fun a => Fin.ext (by match a with | ⟨0, _⟩ => rfl | ⟨1, _⟩ => rfl)
  have e15 : ∀ (p : Fin 8192) (q : Fin 256), idx_main_v15 (ix2 p q) = ix2 p (0 : Fin 1) := fun p q =>
    funext fun a => Fin.ext (by match a with | ⟨0, _⟩ => rfl | ⟨1, _⟩ => rfl)
  have e7 : ∀ (p k : Fin 8192), idx_main_v7 (ix2 p k) = ix2 p (0 : Fin 1) := fun p k =>
    funext fun a => Fin.ext (by match a with | ⟨0, _⟩ => rfl | ⟨1, _⟩ => rfl)
  have e5 : ∀ (p k : Fin 8192), idx_main_v5 (ix2 p k) = ix2 (0 : Fin 1) k := fun p k =>
    funext fun a => Fin.ext (by match a with | ⟨0, _⟩ => rfl | ⟨1, _⟩ => rfl)
  have e3 : ∀ (p : Fin 8192), idx_main_v3 (ix2 p (0 : Fin 1)) = ix1 p := fun p =>
    funext fun a => Fin.ext (by match a with | ⟨0, _⟩ => rfl)
  have e4 : ∀ (k : Fin 8192), idx_main_v4 (ix2 (0 : Fin 1) k) = ix1 k := fun k =>
    funext fun a => Fin.ext (by match a with | ⟨0, _⟩ => rfl)
  have e0 : ∀ (j k : Fin 8192), idx_main_v0 (ix1 j) k = ix2 k j := fun j k =>
    funext fun a => Fin.ext (by match a with | ⟨0, _⟩ => rfl | ⟨1, _⟩ => rfl)
  have e13 : ∀ (p : Fin 8192) (q : Fin 256), idx_main_v13 (ix2 p q) = ix0 := fun p q => funext fun a => a.elim0
  rw [hidRef_apply, val_main_v17_apply, val_main_v16_apply, val_main_v14_apply, val_main_v12_apply, val_main_v13_apply,
    val_main_v15_apply, val_main_call0_v0_apply, val_main_call0_cst_apply]
  simp only [e12l, e12r, e15, e13, val_main_v9_apply, e9l, e9r, val_main_v8_apply, val_main_v7_apply, e7, val_main_v6_apply,
    val_main_v5_apply, e5, val_main_v4_apply, e4, val_main_v3_apply, e3, val_main_v2_apply, val_main_v1_apply,
    val_main_v0_apply, e0, val_main_cst_0_apply, val_main_cst_apply, Ideal.maximumf_def, Ideal.addf_def, Ideal.mulf_def,
    Ideal.hostPowf_def, Ideal.ofBits_def]
  rfl

/-- The reference's result is `G` of its argument arrays. -/
theorem ref_is_G (x0 : FVec Ideal S8192x8192 .f32) (x1 : FVec Ideal S8192x64 .f32) (x2 : FVec Ideal S4096x64 .f32)
    (x3 : FVec Ideal S512x1 .f32) (x4 x5 : FVec Ideal S64x256 .f32) (x6 x7 : FVec Ideal S64x512 .f32)
    (x8 : FVec Ideal S256x8192 .f32) (x9 : FVec Ideal S1x64 .f32) (x10 x11 : FVec Ideal S8192x1 .f32) :
    val_main_v35 (F := Ideal) x0 x1 x2 x3 x4 x5 x6 x7 x8 x9 x10 x11 = G x0 x1 x2 x3 x4 x5 x6 x7 x8 x9 x10 x11 := by
  rw [ref_tail, ref_hid]; rfl

end Cert.KernelIdeal.HandValue

end
-- ==== Proof.lean ====
/- The five claims for the two-kernel graph-convolution program against its reference.
   The kernel program runs as a chain of two pipelined regions and four host stretches; its run is the several-regions launch
   over that chain (both at the word-level instance and at the extended reals), each region's body obligation proved by
   cases on the accumulation's position (reset, inner, last), the scratch accumulator carried in the region's invariant.
   At the extended reals region 0 leaves the reciprocal square roots of the adjacency matrix's column sums and region 1 the
   hidden layer max(0, (d ⊙ (A · (d ⊙ X))) · W1 + wx + b1); with positive column sums and finite inputs every intermediate
   is a real number, the reference's power -1/2 is the reciprocal square root, and d_i · Σ_j a_ij (d_j x_jf) =
   Σ_j (d_i (a_ij d_j)) x_jf; both programs then apply the same tail to the same hidden layer. -/
import proofs.«136842_j29557964931141_2_alg».proof.Defs
import proofs.«136842_j29557964931141_2_alg».proof.Proof.Gen.Kernel
import proofs.«136842_j29557964931141_2_alg».proof.Proof.Gen.KernelIdeal
import proofs.«136842_j29557964931141_2_alg».proof.Proof.Gen.ReferenceIdeal
import proofs.«136842_j29557964931141_2_alg».proof.Proof.Gen.Pre_finite_inputs
import proofs.«136842_j29557964931141_2_alg».proof.Proof.Gen.ReferenceIdeal.Run
import proofs.«136842_j29557964931141_2_alg».proof.Proof.Gen.ReferenceIdeal.Read
import proofs.«136842_j29557964931141_2_alg».proof.Proof.ChainArgs
import proofs.«136842_j29557964931141_2_alg».proof.Proof.ChainArgsB
import proofs.«136842_j29557964931141_2_alg».proof.Proof.KernelResult
import proofs.«136842_j29557964931141_2_alg».proof.Proof.RefIsSpec
import proofs.«136842_j29557964931141_2_alg».proof.Proof.PreFacts
import Idealize.ShloMosaic.Adequacy
import Idealize.ShloMosaic.Init

noncomputable section

namespace Cert.Proof

open Idealize.ShloMosaic Idealize.ShloMosaic.TcCoe Idealize.SL.Sem

/-- The word-level program terminates without a fault and leaves its arguments as launched. -/
theorem frame_k [Cert.Kernel.Facts] [Cert.Pre_finite_inputs.Facts] : Cert.frame_Kernel := fun m ρ _ =>
  (θ_run Cert.Kernel.defs _ _).mono (fun r h c =>
    ⟨(h c _ (Cert.Kernel.Hand.mem_uc Cert.Kernel.main_arg0 (by decide))).trans (Cert.Kernel.Hand.W6_main_arg0 m c),
      (h c _ (Cert.Kernel.Hand.mem_uc Cert.Kernel.main_arg1 (by decide))).trans (Cert.Kernel.Hand.W6_main_arg1 m c),
      (h c _ (Cert.Kernel.Hand.mem_uc Cert.Kernel.main_arg2 (by decide))).trans (Cert.Kernel.Hand.W6_main_arg2 m c),
      (h c _ (Cert.Kernel.Hand.mem_uc Cert.Kernel.main_arg3 (by decide))).trans (Cert.Kernel.Hand.W6_main_arg3 m c),
      (h c _ (Cert.Kernel.Hand.mem_uc Cert.Kernel.main_arg4 (by decide))).trans (Cert.Kernel.Hand.W6_main_arg4 m c),
      (h c _ (Cert.Kernel.Hand.mem_uc Cert.Kernel.main_arg5 (by decide))).trans (Cert.Kernel.Hand.W6_main_arg5 m c),
      (h c _ (Cert.Kernel.Hand.mem_uc Cert.Kernel.main_arg6 (by decide))).trans (Cert.Kernel.Hand.W6_main_arg6 m c),
      (h c _ (Cert.Kernel.Hand.mem_uc Cert.Kernel.main_arg7 (by decide))).trans (Cert.Kernel.Hand.W6_main_arg7 m c),
      (h c _ (Cert.Kernel.Hand.mem_uc Cert.Kernel.main_arg8 (by decide))).trans (Cert.Kernel.Hand.W6_main_arg8 m c),
      (h c _ (Cert.Kernel.Hand.mem_uc Cert.Kernel.main_arg9 (by decide))).trans (Cert.Kernel.Hand.W6_main_arg9 m c),
      (h c _ (Cert.Kernel.Hand.mem_uc Cert.Kernel.main_arg10 (by decide))).trans (Cert.Kernel.Hand.W6_main_arg10 m c),
      (h c _ (Cert.Kernel.Hand.mem_uc Cert.Kernel.main_arg11 (by decide))).trans (Cert.Kernel.Hand.W6_main_arg11 m c)⟩)
    (Cert.Kernel.Hand.run_all (F := Bits) m ρ)

/-- The same at the extended reals. -/
theorem frame_ki [Cert.KernelIdeal.Facts] [Cert.Pre_finite_inputs.Facts] : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c),
      (h c _ (Cert.KernelIdeal.Hand.mem_uc Cert.KernelIdeal.main_arg9 (by decide))).trans (Cert.KernelIdeal.Hand.W6_main_arg9 m c),
      (h c _ (Cert.KernelIdeal.Hand.mem_uc Cert.KernelIdeal.main_arg10 (by decide))).trans (Cert.KernelIdeal.Hand.W6_main_arg10 m c),
      (h c _ (Cert.KernelIdeal.Hand.mem_uc Cert.KernelIdeal.main_arg11 (by decide))).trans (Cert.KernelIdeal.Hand.W6_main_arg11 m c)⟩)
    (Cert.KernelIdeal.Hand.run_all (F := Ideal) m ρ)

/-- The reference is host operations only: its frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- At the extended reals, from memories agreeing on the arguments, both programs end with the same result: the function
    `G` of the twelve arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.HandValue.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c _ (Cert.KernelIdeal.Hand.mem_uc Cert.KernelIdeal.main_v25 (by decide))).trans
          (Cert.KernelIdeal.Hand.kernel_result m c (Cert.KernelIdeal.HandValue.inputFacts_of_pre _ _ _ _ _ _ _ _ _ _ _ _ (hpre c))),
        (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c),
      (h c _ (Cert.KernelIdeal.Hand.mem_uc Cert.KernelIdeal.main_arg9 (by decide))).trans (Cert.KernelIdeal.Hand.W6_main_arg9 m c),
      (h c _ (Cert.KernelIdeal.Hand.mem_uc Cert.KernelIdeal.main_arg10 (by decide))).trans (Cert.KernelIdeal.Hand.W6_main_arg10 m c),
      (h c _ (Cert.KernelIdeal.Hand.mem_uc Cert.KernelIdeal.main_arg11 (by decide))).trans (Cert.KernelIdeal.Hand.W6_main_arg11 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.KernelIdeal.HandValue.ref_is_G,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
